-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3x1024 : Shape := ⟨3, ![2048, 3, 1024]⟩
abbrev S3x64 : Shape := ⟨2, ![3, 64]⟩
abbrev S1x64 : Shape := ⟨2, ![1, 64]⟩
abbrev S64x64 : Shape := ⟨2, ![64, 64]⟩
abbrev S64x128 : Shape := ⟨2, ![64, 128]⟩
abbrev S1x128 : Shape := ⟨2, ![1, 128]⟩
abbrev S128x128 : Shape := ⟨2, ![128, 128]⟩
abbrev S128x512 : Shape := ⟨2, ![128, 512]⟩
abbrev S1x512 : Shape := ⟨2, ![1, 512]⟩
abbrev S512x40 : Shape := ⟨2, ![512, 40]⟩
abbrev S1x40 : Shape := ⟨2, ![1, 40]⟩
abbrev S_ : Shape := ⟨0, ![]⟩

class Facts : Prop where
  bcast_S_S2048x3x1024 : S_.BroadcastsInDim S2048x3x1024 (![] : Fin 0 → Fin S2048x3x1024.rank)
  reducesTo_S2048x3x1024_S_d0_1_2 : S2048x3x1024.ReducesTo [0, 1, 2] S_
  h_S_ : 0 < S_.numel
  bcast_S_S3x64 : S_.BroadcastsInDim S3x64 (![] : Fin 0 → Fin S3x64.rank)
  reducesTo_S3x64_S_d0_1 : S3x64.ReducesTo [0, 1] S_
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S1x512 : S_.BroadcastsInDim S1x512 (![] : Fin 0 → Fin S1x512.rank)
  reducesTo_S1x512_S_d0_1 : S1x512.ReducesTo [0, 1] S_
  bcast_S_S512x40 : S_.BroadcastsInDim S512x40 (![] : Fin 0 → Fin S512x40.rank)
  reducesTo_S512x40_S_d0_1 : S512x40.ReducesTo [0, 1] S_
  bcast_S_S1x40 : S_.BroadcastsInDim S1x40 (![] : Fin 0 → Fin S1x40.rank)
  reducesTo_S1x40_S_d0_1 : S1x40.ReducesTo [0, 1] S_

variable [Facts]

def fn_part4 {F : FTy → Type} [FloatOps F] (main_arg14 : FVec F S1x40 .f32) (main_v63 : IVec S_ 1) (main_v67 : IVec S_ 1) : IVec S_ 1 :=
  let main_v68 : IVec S_ 1 := andi main_v63 main_v67
  let main_v69 : FVec F S1x40 .f32 := Host.absf main_arg14
  let main_cst_26 : FVec F S_ .f32 := constant S_ .f32 0x7F800000#32
  let main_v70 : FVec F S1x40 .f32 := broadcastInDim S1x40 ![] bcast_S_S1x40 main_cst_26
  let main_v71 : IVec S1x40 1 := cmpf .olt main_v69 main_v70
  let main_c_27 : IVec S_ 1 := constantI S_ 1 1#1
  let main_v72 : IVec S_ 1 := (fun x v => Host.reduce IntOp.andi x v reducesTo_S1x40_S_d0_1 h_S_) main_v71 main_c_27
  let main_v73 : IVec S_ 1 := andi main_v68 main_v72
  main_v73

def fn_part3 {F : FTy → Type} [FloatOps F] (main_arg11 : FVec F S128x512 .f32) (main_arg12 : FVec F S1x512 .f32) (main_arg13 : FVec F S512x40 .f32) (main_arg14 : FVec F S1x40 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S128x512 .f32 := Host.absf main_arg11
  let main_cst_20 : FVec F S_ .f32 := constant S_ .f32 0x7F800000#32
  let main_v55 : FVec F S128x512 .f32 := broadcastInDim S128x512 ![] bcast_S_S128x512 main_cst_20
  let main_v56 : IVec S128x512 1 := cmpf .olt main_v54 main_v55
  let main_c_21 : IVec S_ 1 := constantI S_ 1 1#1
  let main_v57 : IVec S_ 1 := (fun x v => Host.reduce IntOp.andi x v reducesTo_S128x512_S_d0_1 h_S_) main_v56 main_c_21
  let main_v58 : IVec S_ 1 := andi main_v53 main_v57
  let main_v59 : FVec F S1x512 .f32 := Host.absf main_arg12
  let main_cst_22 : FVec F S_ .f32 := constant S_ .f32 0x7F800000#32
  let main_v60 : FVec F S1x512 .f32 := broadcastInDim S1x512 ![] bcast_S_S1x512 main_cst_22
  let main_v61 : IVec S1x512 1 := cmpf .olt main_v59 main_v60
  let main_c_23 : IVec S_ 1 := constantI S_ 1 1#1
  let main_v62 : IVec S_ 1 := (fun x v => Host.reduce IntOp.andi x v reducesTo_S1x512_S_d0_1 h_S_) main_v61 main_c_23
  let main_v63 : IVec S_ 1 := andi main_v58 main_v62
  let main_v64 : FVec F S512x40 .f32 := Host.absf main_arg13
  let main_cst_24 : FVec F S_ .f32 := constant S_ .f32 0x7F800000#32
  let main_v65 : FVec F S512x40 .f32 := broadcastInDim S512x40 ![] bcast_S_S512x40 main_cst_24
  let main_v66 : IVec S512x40 1 := cmpf .olt main_v64 main_v65
  let main_c_25 : IVec S_ 1 := constantI S_ 1 1#1
  let main_v67 : IVec S_ 1 := (fun x v => Host.reduce IntOp.andi x v reducesTo_S512x40_S_d0_1 h_S_) main_v66 main_c_25
  fn_part4 (F := F) main_arg14 main_v63 main_v67

def fn_part2 {F : FTy → Type} [FloatOps F] (main_arg7 : FVec F S64x128 .f32) (main_arg8 : FVec F S1x128 .f32) (main_arg9 : FVec F S128x128 .f32) (main_arg10 : FVec F S1x128 .f32) (main_arg11 : FVec F S128x512 .f32) (main_arg12 : FVec F S1x512 .f32) (main_arg13 : FVec F S512x40 .f32) (main_arg14 : FVec F S1x40 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_arg11 main_arg12 main_arg13 main_arg14 main_v48 main_v49 main_v50

def fn_part1 {F : FTy → Type} [FloatOps F] (main_arg4 : FVec F S1x64 .f32) (main_arg5 : FVec F S64x64 .f32) (main_arg6 : FVec F S1x64 .f32) (main_arg7 : FVec F S64x128 .f32) (main_arg8 : FVec F S1x128 .f32) (main_arg9 : FVec F S128x128 .f32) (main_arg10 : FVec F S1x128 .f32) (main_arg11 : FVec F S128x512 .f32) (main_arg12 : FVec F S1x512 .f32) (main_arg13 : FVec F S512x40 .f32) (main_arg14 : FVec F S1x40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2048x3x1024 .f32) (main_arg1 : FVec F S3x64 .f32) (main_arg2 : FVec F S1x64 .f32) (main_arg3 : FVec F S64x64 .f32) (main_arg4 : FVec F S1x64 .f32) (main_arg5 : FVec F S64x64 .f32) (main_arg6 : FVec F S1x64 .f32) (main_arg7 : FVec F S64x128 .f32) (main_arg8 : FVec F S1x128 .f32) (main_arg9 : FVec F S128x128 .f32) (main_arg10 : FVec F S1x128 .f32) (main_arg11 : FVec F S128x512 .f32) (main_arg12 : FVec F S1x512 .f32) (main_arg13 : FVec F S512x40 .f32) (main_arg14 : FVec F S1x40 .f32) : IVec S_ 1 :=
  let main_v0 : FVec F S2048x3x1024 .f32 := Host.absf main_arg0
  let main_cst : FVec F S_ .f32 := constant S_ .f32 0x7F800000#32
  let main_v1 : FVec F S2048x3x1024 .f32 := broadcastInDim S2048x3x1024 ![] bcast_S_S2048x3x1024 main_cst
  let main_v2 : IVec S2048x3x1024 1 := cmpf .olt main_v0 main_v1
  let main_c : IVec S_ 1 := constantI S_ 1 1#1
  let main_v3 : IVec S_ 1 := (fun x v => Host.reduce IntOp.andi x v reducesTo_S2048x3x1024_S_d0_1_2 h_S_) main_v2 main_c
  let main_v4 : FVec F S3x64 .f32 := Host.absf main_arg1
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2048x3x1024 : Shape := ⟨3, ![2048, 3, 1024]⟩
abbrev S3x64 : Shape := ⟨2, ![3, 64]⟩
abbrev S1x64 : Shape := ⟨2, ![1, 64]⟩
abbrev S64x64 : Shape := ⟨2, ![64, 64]⟩
abbrev S64x128 : Shape := ⟨2, ![64, 128]⟩
abbrev S1x128 : Shape := ⟨2, ![1, 128]⟩
abbrev S128x128 : Shape := ⟨2, ![128, 128]⟩
abbrev S128x512 : Shape := ⟨2, ![128, 512]⟩
abbrev S1x512 : Shape := ⟨2, ![1, 512]⟩
abbrev S512x40 : Shape := ⟨2, ![512, 40]⟩
abbrev S1x40 : Shape := ⟨2, ![1, 40]⟩
abbrev S3x2048x1024 : Shape := ⟨3, ![3, 2048, 1024]⟩
abbrev S3x16x2x65536 : Shape := ⟨4, ![3, 16, 2, 65536]⟩
abbrev S2x3x16x65536 : Shape := ⟨4, ![2, 3, 16, 65536]⟩
abbrev S6x1048576 : Shape := ⟨2, ![6, 1048576]⟩
abbrev S_ : Shape := ⟨0, ![]⟩
abbrev S6x128 : Shape := ⟨2, ![6, 128]⟩
abbrev S1 : Shape := ⟨1, ![1]⟩
abbrev S2 : Shape := ⟨1, ![2]⟩
abbrev S64x256 : Shape := ⟨2, ![64, 256]⟩
abbrev S128x256 : Shape := ⟨2, ![128, 256]⟩
abbrev S256x256 : Shape := ⟨2, ![256, 256]⟩
abbrev S1x256 : Shape := ⟨2, ![1, 256]⟩
abbrev S2048x128 : Shape := ⟨2, ![2048, 128]⟩
abbrev S6x65536 : Shape := ⟨2, ![6, 65536]⟩
abbrev S6x8192 : Shape := ⟨2, ![6, 8192]⟩
abbrev S8192x128 : Shape := ⟨2, ![8192, 128]⟩
abbrev S8192x256 : Shape := ⟨2, ![8192, 256]⟩
abbrev S8x1024x256 : Shape := ⟨3, ![8, 1024, 256]⟩
abbrev S8x256 : Shape := ⟨2, ![8, 256]⟩
abbrev S512x128 : Shape := ⟨2, ![512, 128]⟩
abbrev S1024x128 : Shape := ⟨2, ![1024, 128]⟩
abbrev S1024x512 : Shape := ⟨2, ![1024, 512]⟩
abbrev S2048x40 : Shape := ⟨2, ![2048, 40]⟩

abbrev nBuf : Space → Nat
  | .hbm => 77
  | .vmem => 22
  | .smem => 0
  | _ => 0

abbrev bufTy : (tb : Table) → Fin (tcTables nBuf tb) → BufTy
  | .hbm, ⟨0, _⟩ => ⟨S2048x3x1024, .f32⟩
  | .hbm, ⟨1, _⟩ => ⟨S3x64, .f32⟩
  | .hbm, ⟨2, _⟩ => ⟨S1x64, .f32⟩
  | .hbm, ⟨3, _⟩ => ⟨S64x64, .f32⟩
  | .hbm, ⟨4, _⟩ => ⟨S1x64, .f32⟩
  | .hbm, ⟨5, _⟩ => ⟨S64x64, .f32⟩
  | .hbm, ⟨6, _⟩ => ⟨S1x64, .f32⟩
  | .hbm, ⟨7, _⟩ => ⟨S64x128, .f32⟩
  | .hbm, ⟨8, _⟩ => ⟨S1x128, .f32⟩
  | .hbm, ⟨9, _⟩ => ⟨S128x128, .f32⟩
  | .hbm, ⟨10, _⟩ => ⟨S1x128, .f32⟩
  | .hbm, ⟨11, _⟩ => ⟨S128x512, .f32⟩
  | .hbm, ⟨12, _⟩ => ⟨S1x512, .f32⟩
  | .hbm, ⟨13, _⟩ => ⟨S512x40, .f32⟩
  | .hbm, ⟨14, _⟩ => ⟨S1x40, .f32⟩
  | .hbm, ⟨15, _⟩ => ⟨S3x2048x1024, .f32⟩
  | .hbm, ⟨16, _⟩ => ⟨S3x16x2x65536, .f32⟩
  | .hbm, ⟨17, _⟩ => ⟨S2x3x16x65536, .f32⟩
  | .hbm, ⟨18, _⟩ => ⟨S6x1048576, .f32⟩
  | .hbm, ⟨19, _⟩ => ⟨S6x1048576, .bf16⟩
  | .hbm, ⟨20, _⟩ => ⟨S_, .f32⟩
  | .hbm, ⟨21, _⟩ => ⟨S6x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S6x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S6x128, .f32⟩
  | .hbm, ⟨34, _⟩ => ⟨S6x128, .bf16⟩
  | .hbm, ⟨35, _⟩ => ⟨S_, .f32⟩
  | .hbm, ⟨36, _⟩ => ⟨S64x64, .f32⟩
  | .hbm, ⟨37, _⟩ => ⟨S64x128, .f32⟩
  | .hbm, ⟨38, _⟩ => ⟨S64x128, .f32⟩
  | .hbm, ⟨39, _⟩ => ⟨S128x128, .f32⟩
  | .hbm, ⟨40, _⟩ => ⟨S128x128, .bf16⟩
  | .hbm, ⟨41, _⟩ => ⟨S_, .f32⟩
  | .hbm, ⟨42, _⟩ => ⟨S64x64, .f32⟩
  | .hbm, ⟨43, _⟩ => ⟨S64x128, .f32⟩
  | .hbm, ⟨44, _⟩ => ⟨S64x128, .f32⟩
  | .hbm, ⟨45, _⟩ => ⟨S128x128, .f32⟩
  | .hbm, ⟨46, _⟩ => ⟨S128x128, .bf16⟩
  | .hbm, ⟨47, _⟩ => ⟨S_, .f32⟩
  | .hbm, ⟨48, _⟩ => ⟨S64x128, .f32⟩
  | .hbm, ⟨49, _⟩ => ⟨S64x256, .f32⟩
  | .hbm, ⟨50, _⟩ => ⟨S64x256, .f32⟩
  | .hbm, ⟨51, _⟩ => ⟨S128x256, .f32⟩
  | .hbm, ⟨52, _⟩ => ⟨S128x256, .bf16⟩
  | .hbm, ⟨53, _⟩ => ⟨S_, .f32⟩
  | .hbm, ⟨54, _⟩ => ⟨S128x128, .f32⟩
  | .hbm, ⟨55, _⟩ => ⟨S128x256, .f32⟩
  | .hbm, ⟨56, _⟩ => ⟨S128x256, .f32⟩
  | .hbm, ⟨57, _⟩ => ⟨S256x256, .f32⟩
  | .hbm, ⟨58, _⟩ => ⟨S256x256, .bf16⟩
  | .hbm, ⟨59, _⟩ => ⟨S1x128, .f32⟩
  | .hbm, ⟨60, _⟩ => ⟨S1x128, .bf16⟩
  | .hbm, ⟨61, _⟩ => ⟨S1x128, .f32⟩
  | .hbm, ⟨62, _⟩ => ⟨S1x128, .bf16⟩
  | .hbm, ⟨63, _⟩ => ⟨S1x128, .f32⟩
  | .hbm, ⟨64, _⟩ => ⟨S1x128, .bf16⟩
  | .hbm, ⟨65, _⟩ => ⟨S1x256, .f32⟩
  | .hbm, ⟨66, _⟩ => ⟨S1x256, .bf16⟩
  | .hbm, ⟨67, _⟩ => ⟨S1x256, .f32⟩
  | .hbm, ⟨68, _⟩ => ⟨S2048x128, .f32⟩
  | .hbm, ⟨69, _⟩ => ⟨S_, .i32⟩
  | .hbm, ⟨70, _⟩ => ⟨S_, .f32⟩
  | .hbm, ⟨71, _⟩ => ⟨S512x128, .f32⟩
  | .hbm, ⟨72, _⟩ => ⟨S_, .i32⟩
  | .hbm, ⟨73, _⟩ => ⟨S_, .f32⟩
  | .hbm, ⟨74, _⟩ => ⟨S1x128, .f32⟩
  | .hbm, ⟨75, _⟩ => ⟨S2048x128, .f32⟩
  | .hbm, ⟨76, _⟩ => ⟨S2048x40, .f32⟩
  | .local _ .vmem, ⟨0, _⟩ => ⟨S6x65536, .bf16⟩
  | .local _ .vmem, ⟨1, _⟩ => ⟨S6x65536, .bf16⟩
  | .local _ .vmem, ⟨2, _⟩ => ⟨S6x128, .bf16⟩
  | .local _ .vmem, ⟨3, _⟩ => ⟨S1x128, .bf16⟩
  | .local _ .vmem, ⟨4, _⟩ => ⟨S128x128, .bf16⟩
  | .local _ .vmem, ⟨5, _⟩ => ⟨S1x128, .bf16⟩
  | .local _ .vmem, ⟨6, _⟩ => ⟨S128x128, .bf16⟩
  | .local _ .vmem, ⟨7, _⟩ => ⟨S1x128, .bf16⟩
  | .local _ .vmem, ⟨8, _⟩ => ⟨S128x256, .bf16⟩
  | .local _ .vmem, ⟨9, _⟩ => ⟨S1x256, .bf16⟩
  | .local _ .vmem, ⟨10, _⟩ => ⟨S256x256, .bf16⟩
  | .local _ .vmem, ⟨11, _⟩ => ⟨S1x256, .f32⟩
  | .local _ .vmem, ⟨12, _⟩ => ⟨S128x128, .f32⟩
  | .local _ .vmem, ⟨13, _⟩ => ⟨S128x128, .f32⟩
  | .local _ .vmem, ⟨14, _⟩ => ⟨S1024x128, .f32⟩
  | .local _ .vmem, ⟨15, _⟩ => ⟨S1024x128, .f32⟩
  | .local _ .vmem, ⟨16, _⟩ => ⟨S128x512, .f32⟩
  | .local _ .vmem, ⟨17, _⟩ => ⟨S1x512, .f32⟩
  | .local _ .vmem, ⟨18, _⟩ => ⟨S512x128, .f32⟩
  | .local _ .vmem, ⟨19, _⟩ => ⟨S1x128, .f32⟩
  | .local _ .vmem, ⟨20, _⟩ => ⟨S1024x128, .f32⟩
  | .local _ .vmem, ⟨21, _⟩ => ⟨S1024x128, .f32⟩
  | _, _ => ⟨S2048x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_7 : Ref sig .tc := ⟨.hbm, 69, rfl⟩
abbrev main_call0_v0 : Ref sig .tc := ⟨.hbm, 70, rfl⟩
abbrev main_v45 : Ref sig .tc := ⟨.hbm, 71, rfl⟩
abbrev main_c_8 : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x65536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S2048x3x1024_S3x2048x1024_1_0_2 : S2048x3x1024.Transposes [1, 0, 2] S3x2048x1024
  shapeCasts_S3x2048x1024_S3x16x2x65536 : S3x2048x1024.ShapeCasts S3x16x2x65536
  transposes_S3x16x2x65536_S2x3x16x65536_2_0_1_3 : S3x16x2x65536.Transposes [2, 0, 1, 3] S2x3x16x65536
  shapeCasts_S2x3x16x65536_S6x1048576 : S2x3x16x65536.ShapeCasts S6x1048576
  bitsLt_bf16_f32 : FTy.bits .bf16 < FTy.bits .f32
  bcast_S_S6x128 : S_.BroadcastsInDim S6x128 (![] : Fin 0 → Fin S6x128.rank)
  bcast_S_S1 : S_.BroadcastsInDim S1 (![] : Fin 0 → Fin S1.rank)
  concatenates_S1_S1_S2_d0 : Shape.Concatenates [S1, S1] S2 0
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  bcast_S_S64x128 : S_.BroadcastsInDim S64x128 (![] : Fin 0 → Fin S64x128.rank)
  concatenates_S64x128_S64x128_S64x256_d1 : Shape.Concatenates [S64x128, S64x128] S64x256 1
  concatenates_S64x256_S64x256_S128x256_d0 : Shape.Concatenates [S64x256, S64x256] S128x256 0
  bcast_S_S128x128 : S_.BroadcastsInDim S128x128 (![] : Fin 0 → Fin S128x128.rank)
  concatenates_S128x128_S128x128_S128x256_d1 : Shape.Concatenates [S128x128, S128x128] S128x256 1
  concatenates_S128x256_S128x256_S256x256_d0 : Shape.Concatenates [S128x256, S128x256] S256x256 0
  concatenates_S1x64_S1x64_S1x128_d1 : Shape.Concatenates [S1x64, S1x64] S1x128 1
  concatenates_S1x128_S1x128_S1x256_d1 : Shape.Concatenates [S1x128, S1x128] S1x256 1
  inb_S6x65536_S6x8192_0_0 : ∀ a, (![0, 0] : Fin 2 → Nat) a + S6x8192.size a ≤ S6x65536.size a
  h_S6x8192 : 0 < S6x8192.numel
  shapeCasts_S6x8192_S6x8192 : S6x8192.ShapeCasts S6x8192
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S8192x256_S8x1024x256 : S8192x256.ShapeCasts S8x1024x256
  reduces_S8x1024x256_S8x256 : S8x1024x256.Reduces [1] S8x256
  inb_S6x65536_S6x8192_0_8192 : ∀ a, (![0, 8192] : Fin 2 → Nat) a + S6x8192.size a ≤ S6x65536.size a
  inb_S6x65536_S6x8192_0_16384 : ∀ a, (![0, 16384] : Fin 2 → Nat) a + S6x8192.size a ≤ S6x65536.size a
  inb_S6x65536_S6x8192_0_24576 : ∀ a, (![0, 24576] : Fin 2 → Nat) a + S6x8192.size a ≤ S6x65536.size a
  inb_S6x65536_S6x8192_0_32768 : ∀ a, (![0, 32768] : Fin 2 → Nat) a + S6x8192.size a ≤ S6x65536.size a
  inb_S6x65536_S6x8192_0_40960 : ∀ a, (![0, 40960] : Fin 2 → Nat) a + S6x8192.size a ≤ S6x65536.size a
  inb_S6x65536_S6x8192_0_49152 : ∀ a, (![0, 49152] : Fin 2 → Nat) a + S6x8192.size a ≤ S6x65536.size a
  inb_S6x65536_S6x8192_0_57344 : ∀ a, (![0, 57344] : Fin 2 → Nat) a + S6x8192.size a ≤ S6x65536.size a
  concatenates_S8x256_S8x256_S8x256_S8x256_S8x256_S8x256_S8x256_S8x256_S64x256_d0 : Shape.Concatenates [S8x256, S8x256, S8x256, S8x256, S8x256, S8x256, S8x256, S8x256] S64x256 0
  broadcasts_S1x256_S64x256 : S1x256.Broadcasts S64x256
  slices_S64x256_o0_0_S64x128 : S64x256.Slices ![0, 0] S64x128
  slices_S64x256_o0_128_S64x128 : S64x256.Slices ![0, 128] S64x128
  pads_S512x40_S512x128_000_0880 : S512x40.Pads (![0, 0] : Fin 2 → Nat) ![0, 88] ![0, 0] S512x128
  h_S_ : 0 < S_.numel
  pads_S1x40_S1x128_000_0880 : S1x40.Pads (![0, 0] : Fin 2 → Nat) ![0, 88] ![0, 0] S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  broadcasts_S1x512_S1024x512 : S1x512.Broadcasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S1024x128 : S1x128.Broadcasts S1024x128
  slices_S2048x128_S2048x40_0_0 : S2048x128.Slices ![0, 0] S2048x40
  scatter_S6x128_S2_S3x64_01_n_01_0_wf : ScatterDims.WF S6x128 S2 S3x64 [0, 1] [] [0, 1] 0
  dot_S6x8192_S6x128_S8192x128_0_0_1_1_n_n_wf : DotDims.WF S6x8192 S6x128 S8192x128 [0] [0] [1] [1] [] []
  dot_S8192x128_S128x128_S8192x128_1_0_0_1_n_n_wf : DotDims.WF S8192x128 S128x128 S8192x128 [1] [0] [0] [1] [] []
  dot_S8192x128_S128x256_S8192x256_1_0_0_1_n_n_wf : DotDims.WF S8192x128 S128x256 S8192x256 [1] [0] [0] [1] [] []
  dot_S8192x256_S256x256_S8192x256_1_0_0_1_n_n_wf : DotDims.WF S8192x256 S256x256 S8192x256 [1] [0] [0] [1] [] []
  dot_S1024x128_S128x512_S1024x512_1_0_0_1_n_n_wf : DotDims.WF S1024x128 S128x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x65536.size a ≤ S6x1048576.size a
  hwx0_0 : ∀ i : grid0.Coords, EltTy.bits .bf16 = 32 ∨ (Rect.block (s := S6x1048576) S6x65536.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x128.size a ≤ S6x128.size a
  hwx0_1 : ∀ i : grid0.Coords, EltTy.bits .bf16 = 32 ∨ (Rect.block (s := S6x128) S6x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .bf16 = 32 ∨ (Rect.block (s := S1x128) S1x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .bf16 = 32 ∨ (Rect.block (s := S1x128) S1x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .bf16 = 32 ∨ (Rect.block (s := S1x128) S1x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .bf16 = 32 ∨ (Rect.block (s := S1x256) S1x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S2048x128.size a
  hwx0_11 : ∀ i : grid0.Coords, EltTy.bits .f32 = 32 ∨ (Rect.block (s := S2048x128) S128x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S2048x128.size a
  hwx1_0 : ∀ i : grid1.Coords, EltTy.bits .f32 = 32 ∨ (Rect.block (s := S2048x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S2048x128.size a
  hwx1_5 : ∀ i : grid1.Coords, EltTy.bits .f32 = 32 ∨ (Rect.block (s := S2048x128) S1024x128.size (cc1_transform_5 i) (hinb1_5 i)).WholeWords (EltTy.packing .f32)

variable [Facts₀]

def scatter_S6x128_S2_S3x64_01_n_01_0 : ScatterDims S6x128 S2 S3x64 where
  updateWindowDims := [0, 1]
  insertedWindowDims := []
  scatterDimsToOperandDims := [0, 1]
  indexVectorDim := 0
  wf := scatter_S6x128_S2_S3x64_01_n_01_0_wf
def dot_S6x8192_S6x128_S8192x128_0_0_1_1_n_n : DotDims S6x8192 S6x128 S8192x128 where
  lhsContracting := [0]
  rhsContracting := [0]
  lhsNonContracting := [1]
  rhsNonContracting := [1]
  lhsBatch := []
  rhsBatch := []
  wf := dot_S6x8192_S6x128_S8192x128_0_0_1_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v4) S6x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S6x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v44) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2048x3x1024 : Shape := ⟨3, ![2048, 3, 1024]⟩
abbrev S3x64 : Shape := ⟨2, ![3, 64]⟩
abbrev S1x64 : Shape := ⟨2, ![1, 64]⟩
abbrev S64x64 : Shape := ⟨2, ![64, 64]⟩
abbrev S64x128 : Shape := ⟨2, ![64, 128]⟩
abbrev S1x128 : Shape := ⟨2, ![1, 128]⟩
abbrev S128x128 : Shape := ⟨2, ![128, 128]⟩
abbrev S128x512 : Shape := ⟨2, ![128, 512]⟩
abbrev S1x512 : Shape := ⟨2, ![1, 512]⟩
abbrev S512x40 : Shape := ⟨2, ![512, 40]⟩
abbrev S1x40 : Shape := ⟨2, ![1, 40]⟩
abbrev S1024x2x128 : Shape := ⟨3, ![1024, 2, 128]⟩
abbrev S2x3x1024 : Shape := ⟨3, ![2, 3, 1024]⟩
abbrev S1x2x128 : Shape := ⟨3, ![1, 2, 128]⟩
abbrev S1x3x1024 : Shape := ⟨3, ![1, 3, 1024]⟩
abbrev S3x1024 : Shape := ⟨2, ![3, 1024]⟩
abbrev S1024x64 : Shape := ⟨2, ![1024, 64]⟩
abbrev S2048x64 : Shape := ⟨2, ![2048, 64]⟩
abbrev S2048x128 : Shape := ⟨2, ![2048, 128]⟩
abbrev S1024x128 : Shape := ⟨2, ![1024, 128]⟩
abbrev S128 : Shape := ⟨1, ![128]⟩
abbrev S2x128 : Shape := ⟨2, ![2, 128]⟩
abbrev S_ : Shape := ⟨0, ![]⟩
abbrev S512x128 : Shape := ⟨2, ![512, 128]⟩
abbrev S2048x512 : Shape := ⟨2, ![2048, 512]⟩
abbrev S2048x40 : Shape := ⟨2, ![2048, 40]⟩

abbrev nBuf : Space → Nat
  | .hbm => 25
  | .vmem => 20
  | .smem => 0
  | _ => 0

abbrev bufTy : (tb : Table) → Fin (tcTables nBuf tb) → BufTy
  | .hbm, ⟨0, _⟩ => ⟨S2048x3x1024, .f32⟩
  | .hbm, ⟨1, _⟩ => ⟨S3x64, .f32⟩
  | .hbm, ⟨2, _⟩ => ⟨S1x64, .f32⟩
  | .hbm, ⟨3, _⟩ => ⟨S64x64, .f32⟩
  | .hbm, ⟨4, _⟩ => ⟨S1x64, .f32⟩
  | .hbm, ⟨5, _⟩ => ⟨S64x64, .f32⟩
  | .hbm, ⟨6, _⟩ => ⟨S1x64, .f32⟩
  | .hbm, ⟨7, _⟩ => ⟨S64x128, .f32⟩
  | .hbm, ⟨8, _⟩ => ⟨S1x128, .f32⟩
  | .hbm, ⟨9, _⟩ => ⟨S128x128, .f32⟩
  | .hbm, ⟨10, _⟩ => ⟨S1x128, .f32⟩
  | .hbm, ⟨11, _⟩ => ⟨S128x512, .f32⟩
  | .hbm, ⟨12, _⟩ => ⟨S1x512, .f32⟩
  | .hbm, ⟨13, _⟩ => ⟨S512x40, .f32⟩
  | .hbm, ⟨14, _⟩ => ⟨S1x40, .f32⟩
  | .hbm, ⟨15, _⟩ => ⟨S1024x2x128, .f32⟩
  | .hbm, ⟨16, _⟩ => ⟨S2048x128, .f32⟩
  | .hbm, ⟨17, _⟩ => ⟨S_, .i32⟩
  | .hbm, ⟨18, _⟩ => ⟨S_, .f32⟩
  | .hbm, ⟨19, _⟩ => ⟨S512x128, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S2048x128, .f32⟩
  | .hbm, ⟨24, _⟩ => ⟨S2048x40, .f32⟩
  | .local _ .vmem, ⟨0, _⟩ => ⟨S2x3x1024, .f32⟩
  | .local _ .vmem, ⟨1, _⟩ => ⟨S2x3x1024, .f32⟩
  | .local _ .vmem, ⟨2, _⟩ => ⟨S3x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x2x128, .f32⟩
  | .local _ .vmem, ⟨13, _⟩ => ⟨S1x2x128, .f32⟩
  | .local _ .vmem, ⟨14, _⟩ => ⟨S2048x128, .f32⟩
  | .local _ .vmem, ⟨15, _⟩ => ⟨S128x512, .f32⟩
  | .local _ .vmem, ⟨16, _⟩ => ⟨S1x512, .f32⟩
  | .local _ .vmem, ⟨17, _⟩ => ⟨S512x128, .f32⟩
  | .local _ .vmem, ⟨18, _⟩ => ⟨S1x128, .f32⟩
  | .local _ .vmem, ⟨19, _⟩ => ⟨S2048x128, .f32⟩
  | _, _ => ⟨S2048x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S2x3x1024_S1x3x1024_0_0_0 : ∀ a, (![0, 0, 0] : Fin 3 → Nat) a + S1x3x1024.size a ≤ S2x3x1024.size a
  h_S1x3x1024 : 0 < S1x3x1024.numel
  shapeCasts_S1x3x1024_S3x1024 : S1x3x1024.ShapeCasts S3x1024
  inb_S3x64_S3x64_0_0 : ∀ a, (![0, 0] : Fin 2 → Nat) a + S3x64.size a ≤ S3x64.size a
  h_S3x64 : 0 < S3x64.numel
  inb_S2x3x1024_S1x3x1024_1_0_0 : ∀ a, (![1, 0, 0] : Fin 3 → Nat) a + S1x3x1024.size a ≤ S2x3x1024.size a
  concatenates_S1024x64_S1024x64_S2048x64_d0 : Shape.Concatenates [S1024x64, S1024x64] S2048x64 0
  inb_S1x64_S1x64_0_0 : ∀ a, (![0, 0] : Fin 2 → Nat) a + S1x64.size a ≤ S1x64.size a
  h_S1x64 : 0 < S1x64.numel
  broadcasts_S1x64_S2048x64 : S1x64.Broadcasts S2048x64
  inb_S64x64_S64x64_0_0 : ∀ a, (![0, 0] : Fin 2 → Nat) a + S64x64.size a ≤ S64x64.size a
  h_S64x64 : 0 < S64x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  broadcasts_S1x128_S2048x128 : S1x128.Broadcasts S2048x128
  inb_S128x128_S128x128_0_0 : ∀ a, (![0, 0] : Fin 2 → Nat) a + S128x128.size a ≤ S128x128.size a
  h_S128x128 : 0 < S128x128.numel
  slices_S2048x128_o0_0_S1024x128 : S2048x128.Slices ![0, 0] S1024x128
  reduces_S1024x128_S128 : S1024x128.Reduces [0] S128
  shapeCasts_S128_S1x128 : S128.ShapeCasts S1x128
  slices_S2048x128_o1024_0_S1024x128 : S2048x128.Slices ![1024, 0] S1024x128
  concatenates_S1x128_S1x128_S2x128_d0 : Shape.Concatenates [S1x128, S1x128] S2x128 0
  inb_S1x2x128_S1x2x128_0_0_0 : ∀ a, (![0, 0, 0] : Fin 3 → Nat) a + S1x2x128.size a ≤ S1x2x128.size a
  h_S1x2x128 : 0 < S1x2x128.numel
  shapeCasts_S1x2x128_S2x128 : S1x2x128.ShapeCasts S2x128
  shapeCasts_S2x128_S1x2x128 : S2x128.ShapeCasts S1x2x128
  shapeCasts_S1024x2x128_S2048x128 : S1024x2x128.ShapeCasts S2048x128
  pads_S512x40_S512x128_000_0880 : S512x40.Pads (![0, 0] : Fin 2 → Nat) ![0, 88] ![0, 0] S512x128
  h_S_ : 0 < S_.numel
  pads_S1x40_S1x128_000_0880 : S1x40.Pads (![0, 0] : Fin 2 → Nat) ![0, 88] ![0, 0] S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  broadcasts_S1x512_S2048x512 : S1x512.Broadcasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S1x128_S1x128 : S1x128.ShapeCasts S1x128
  slices_S2048x128_S2048x40_0_0 : S2048x128.Slices ![0, 0] S2048x40
  dot_S3x1024_S3x64_S1024x64_0_0_1_1_n_n_wf : DotDims.WF S3x1024 S3x64 S1024x64 [0] [0] [1] [1] [] []
  dot_S2048x64_S64x64_S2048x64_1_0_0_1_n_n_wf : DotDims.WF S2048x64 S64x64 S2048x64 [1] [0] [0] [1] [] []
  dot_S2048x64_S64x128_S2048x128_1_0_0_1_n_n_wf : DotDims.WF S2048x64 S64x128 S2048x128 [1] [0] [0] [1] [] []
  dot_S2048x128_S128x128_S2048x128_1_0_0_1_n_n_wf : DotDims.WF S2048x128 S128x128 S2048x128 [1] [0] [0] [1] [] []
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x1024.size a ≤ S2048x3x1024.size a
  hwx0_0 : ∀ i : grid0.Coords, EltTy.bits .f32 = 32 ∨ (Rect.block (s := S2048x3x1024) S2x3x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x2x128.size a ≤ S1024x2x128.size a
  hwx0_11 : ∀ i : grid0.Coords, EltTy.bits .f32 = 32 ∨ (Rect.block (s := S1024x2x128) S1x2x128.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S2048x128.size a
  hwx1_0 : ∀ i : grid1.Coords, EltTy.bits .f32 = 32 ∨ (Rect.block (s := S2048x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S2048x128.size a
  hwx1_5 : ∀ i : grid1.Coords, EltTy.bits .f32 = 32 ∨ (Rect.block (s := S2048x128) S2048x128.size (cc1_transform_5 i) (hinb1_5 i)).WholeWords (EltTy.packing .f32)

variable [Facts₀]

def dot_S3x1024_S3x64_S1024x64_0_0_1_1_n_n : DotDims S3x1024 S3x64 S1024x64 where
  lhsContracting := [0]
  rhsContracting := [0]
  lhsNonContracting := [1]
  rhsNonContracting := [1]
  lhsBatch := []
  rhsBatch := []
  wf := dot_S3x1024_S3x64_S1024x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x2x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v1) S2048x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2048x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.Spec.lean ====
/-
  The point-cloud classifier, entry by entry on the extended reals.

  Every point of every cloud goes through four rectified affine layers and a fifth linear map; a cloud's
  feature is the maximum over its points, taken either after the fifth layer's bias and rectifier or before
  them; the classifier head is a rectified affine layer followed by an affine layer. Adding a bias and
  taking the maximum with zero are monotone maps of the extended reals, so they commute with the maximum over
  a cloud's points: the two orders give one feature.
-/
import proofs.«171346_g2000606842809313_pallasbulk_193_5_alg».proof.Proof.LibDense

noncomputable section

open scoped BigOperators

namespace Cert.PointNet

open Idealize.ShloMosaic Idealize.ShloMosaic.ValueIdx Cert.Dense

/-- A row through a rectified affine layer: entry j is max(∑ₖ h k · W(k, j) + b(j), 0). -/
def dense {K N : ℕ} (W : Mat K N) (b : Mat 1 N) (h : Fin K → EReal) : Fin N → EReal :=
  fun j => max (∑ k : Fin K, h k * W (ix2 k j) + b (ix2 (0 : Fin 1) j)) 0

/-- A row through a linear map: entry j is ∑ₖ h k · W(k, j). -/
def lin {K N : ℕ} (W : Mat K N) (h : Fin K → EReal) : Fin N → EReal :=
  fun j => ∑ k : Fin K, h k * W (ix2 k j)

/-- The clouds: 2048 clouds of 1024 points with 3 coordinates, coordinate-major within a cloud. -/
abbrev Clouds : Type := (⟨3, ![2048, 3, 1024]⟩ : Shape).Idx → EReal

/-- Point p of cloud B as a row of 3 coordinates. -/
def point (x : Clouds) (B : Fin 2048) (p : Fin 1024) : Fin 3 → EReal := fun k => x (ix3 B k p)

/-- A point's 128 features before the fifth layer's bias and rectifier. -/
def feat (w0 : Mat 3 64) (b0 : Mat 1 64) (w1 : Mat 64 64) (b1 : Mat 1 64) (w2 : Mat 64 64) (b2 : Mat 1 64)
    (w3 : Mat 64 128) (b3 : Mat 1 128) (w4 : Mat 128 128) (v : Fin 3 → EReal) : Fin 128 → EReal :=
  lin w4 (dense w3 b3 (dense w2 b2 (dense w1 b1 (dense w0 b0 v))))

/-- The value a maximum over a cloud's points starts from: the f32 word of −∞. -/
def negInf : EReal := FloatOps.ofBits (F := Ideal) .f32 0xFF800000#32

theorem negInf_eq_bot : negInf = ⊥ := by
  simp [negInf, FloatOps.ofBits, Ideal.ofBits, Ideal.ieee]

/-- A cloud's features when the bias and the rectifier come BEFORE the maximum over its points. -/
def pooledAfter (x : Clouds) (w0 : Mat 3 64) (b0 : Mat 1 64) (w1 : Mat 64 64) (b1 : Mat 1 64) (w2 : Mat 64 64) (b2 : Mat 1 64)
    (w3 : Mat 64 128) (b3 : Mat 1 128) (w4 : Mat 128 128) (b4 : Mat 1 128) : Mat 2048 128 :=
  fun i => (Finset.univ : Finset (Fin 1024)).fold max negInf
    (fun p => max (feat w0 b0 w1 b1 w2 b2 w3 b3 w4 (point x (i 0) p) (i 1) + b4 (ix2 (0 : Fin 1) (i 1))) 0)

/-- A cloud's features when the bias and the rectifier come AFTER the maximum over its points. -/
def pooledBefore (x : Clouds) (w0 : Mat 3 64) (b0 : Mat 1 64) (w1 : Mat 64 64) (b1 : Mat 1 64) (w2 : Mat 64 64) (b2 : Mat 1 64)
    (w3 : Mat 64 128) (b3 : Mat 1 128) (w4 : Mat 128 128) (b4 : Mat 1 128) : Mat 2048 128 :=
  fun i => max ((Finset.univ : Finset (Fin 1024)).fold max negInf
    (fun p => feat w0 b0 w1 b1 w2 b2 w3 b3 w4 (point x (i 0) p) (i 1)) + b4 (ix2 (0 : Fin 1) (i 1))) 0

/-- A monotone-in-the-sense-of-max map commutes with a fold of max. -/
theorem fold_max_map {ι : Type} (s : Finset ι) (f : ι → EReal) (g : EReal → EReal)
    (hg : ∀ a b, g (max a b) = max (g a) (g b)) (z : EReal) :
    g (s.fold max z f) = s.fold max (g z) (fun p => g (f p)) :=
  (Finset.fold_hom (op := max) (op' := max) (m := g) (s := s) (b := z) (f := f) hg).symm

/-- Adding a bias and then taking the maximum with zero is monotone, so it distributes over max. -/
theorem bias_relu_max (c a b : EReal) : max (max a b + c) 0 = max (max (a + c) 0) (max (b + c) 0) := by
  rcases le_total a b with h | h
  · have h1 : a + c ≤ b + c := add_le_add_left h c
    rw [max_eq_right h, max_eq_right (max_le_max h1 le_rfl)]
  · have h1 : b + c ≤ a + c := add_le_add_left h c
    rw [max_eq_left h, max_eq_left (max_le_max h1 le_rfl)]

/-- The two orders give one feature: the bias and the rectifier commute with the maximum over the 1024 points. -/
theorem pooledBefore_eq_pooledAfter (x : Clouds) (w0 : Mat 3 64) (b0 : Mat 1 64) (w1 : Mat 64 64) (b1 : Mat 1 64) (w2 : Mat 64 64)
    (b2 : Mat 1 64) (w3 : Mat 64 128) (b3 : Mat 1 128) (w4 : Mat 128 128) (b4 : Mat 1 128) :
    pooledBefore x w0 b0 w1 b1 w2 b2 w3 b3 w4 b4 = pooledAfter x w0 b0 w1 b1 w2 b2 w3 b3 w4 b4 := by
  funext i
  unfold pooledBefore pooledAfter
  rw [fold_max_map _ _ (fun a => max (a + b4 (ix2 (0 : Fin 1) (i 1))) 0) (bias_relu_max _)]
  -- the fold now starts from max(−∞ + b, 0) = 0 instead of −∞; every term is ≥ 0 and there is a point
  have h0 : max (negInf + b4 (ix2 (0 : Fin 1) (i 1))) 0 = 0 := by
    rw [negInf_eq_bot, EReal.bot_add]; exact max_eq_right bot_le
  show Finset.fold max (max (negInf + b4 (ix2 (0 : Fin 1) (i 1))) 0) _ _ = _
  rw [h0]
  apply le_antisymm
  · rw [Finset.fold_max_le]
    refine ⟨?_, fun p hp => (Finset.le_fold_max _).mpr (Or.inr ⟨p, hp, le_rfl⟩)⟩
    exact (Finset.le_fold_max _).mpr (Or.inr ⟨(0 : Fin 1024), Finset.mem_univ _, le_max_right _ _⟩)
  · rw [Finset.fold_max_le]
    refine ⟨?_, fun p hp => (Finset.le_fold_max _).mpr (Or.inr ⟨p, hp, le_rfl⟩)⟩
    rw [negInf_eq_bot]; exact bot_le

/-- The classifier head on M pooled rows: a rectified affine layer into 512, then an affine layer into 128. -/
def head {M : ℕ} (P : Mat M 128) (w5 : Mat 128 512) (b5 : Mat 1 512) (w7 : Mat 512 128) (b7 : Mat 1 128) : Mat M 128 :=
  affine2 (relu (affine2 P w5 b5)) w7 b7

/-- The head on a block of rows is the head on the whole array at those rows. -/
theorem head_rows {M M' : ℕ} (P : Mat M' 128) (blk : Mat M 128) (w5 : Mat 128 512) (b5 : Mat 1 512) (w7 : Mat 512 128)
    (b7 : Mat 1 128) (ρ : Fin M → Fin M') (h : ∀ p k, blk (ix2 p k) = P (ix2 (ρ p) k)) (p : Fin M) (q : Fin 128) :
    head blk w5 b5 w7 b7 (ix2 p q) = head P w5 b5 w7 b7 (ix2 (ρ p) q) :=
  affine2_rows _ _ w7 b7 ρ (fun p k => relu_affine2_rows P blk w5 b5 ρ h p k) p q

end Cert.PointNet

end
-- ==== Proof.TailKernel.lean ====
/-
  The tail of the kernel's program: its run with the result buffer named, and that result as the classifier head
  of the pooled array.

  The head region walks the 2048 pooled rows in two blocks of 1024 rows; on each block it computes a rectified
  affine layer into 512 and an affine layer into 128 with the whole weight matrices and bias rows, so what each
  point writes back is the matching block of rows of the head of the whole pooled array, and the two blocks cover
  the array. The second layer's weights and bias enter padded with zero columns from 40 to 128, and the host
  keeps the first 40 columns of the result.
-/
import proofs.«171346_g2000606842809313_pallasbulk_193_5_alg».proof.Proof.Gen.KernelIdeal.Frame
import proofs.«171346_g2000606842809313_pallasbulk_193_5_alg».proof.Proof.Spec

set_option maxRecDepth 16384

noncomputable section

namespace Cert.KernelIdeal.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx Cert.Dense Cert.PointNet

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run with its result named: every weakly fair execution of the program terminates without a fault, and in
    every final state the result buffer holds the last boundary's contents at the result, the arguments being as
    launched. -/
theorem run_named : θ_run defs (onTc (τ := τ) (main (F := Ideal))) ⟨m, fun _ => 0, ρ⟩ (fun r => ∀ c : Dev nD,
      r.2.mem ((c.tc : Thread nD τ).loc main_v48) = Gen.W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

theorem hz : (![0, 0] : Fin 2 → Nat) = fun _ => 0 := funext fun a => by fin_cases a <;> rfl

/-- The head's body on a block of 1024 rows is the head on that block. -/
theorem pay_eq (x0 : Vec Ideal S1024x128 .f32) (x1 : Vec Ideal S128x512 .f32) (x2 : Vec Ideal S1x512 .f32)
    (x3 : Vec Ideal S512x128 .f32) (x4 : Vec Ideal S1x128 .f32) :
    k1_pay1 (F := Ideal) x0 x1 x2 x3 x4 = head (M := 1024) x0 x1 x2 x3 x4 := by
  unfold k1_pay1
  simp only [shapeCast_self]
  rw [show dot_S1024x128_S128x512_S1024x512_1_0_0_1_n_n = DotDims.plain 1024 128 512 from rfl,
    show dot_S1024x512_S512x128_S1024x128_1_0_0_1_n_n = DotDims.plain 1024 512 128 from rfl]
  rw [addf_matmul_broadcastTo, maximumf_splat_zero, addf_matmul_broadcastTo]
  rfl

section Blocks
variable (V : (c : Dev nD) → (b : Ref sig .tc) → Buf (Elt Ideal) ((c : Thread nD τ).loc b))

/-- The head region's index maps over its two grid points: the pooled rows and the result move with the point, one
    block of 1024 rows per point; the weights and biases are whole at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 2 :=
  (by decide +kernel : ∀ t : Fin grid1.N, _)

/-! The weight and bias windows hold their whole arrays at every point. -/

theorem iblk_w1 (c : Dev nD) (t : Fin cfg1.N) : iblk1 V c 1 t = (V c main_arg11 : S128x512.Idx → Elt Ideal .f32) := by
  obtain ⟨e00, e01, e10, e11, e20, e21, e30, e31, e40, e41, -⟩ := idx_facts t
  funext j
  unfold iblk1
  rw [View.read_apply]
  show V c main_arg11 (((cfg1.win 1).blk t).view.emb j) = V c main_arg11 j
  congr 1
  funext a; apply Fin.ext
  match a with
  | ⟨0, _⟩ => show win1_1.index t (0 : Fin 2) * 128 + 1 * (j 0).val = (j 0).val; omega
  | ⟨1, _⟩ => show win1_1.index t (1 : Fin 2) * 512 + 1 * (j 1).val = (j 1).val; omega

theorem iblk_w2 (c : Dev nD) (t : Fin cfg1.N) : iblk1 V c 2 t = (V c main_arg12 : S1x512.Idx → Elt Ideal .f32) := by
  obtain ⟨e00, e01, e10, e11, e20, e21, e30, e31, e40, e41, -⟩ := idx_facts t
  funext j
  unfold iblk1
  rw [View.read_apply]
  show V c main_arg12 (((cfg1.win 2).blk t).view.emb j) = V c main_arg12 j
  congr 1
  funext a; apply Fin.ext
  match a with
  | ⟨0, _⟩ => show win1_2.index t (0 : Fin 2) * 1 + 1 * (j 0).val = (j 0).val; omega
  | ⟨1, _⟩ => show win1_2.index t (1 : Fin 2) * 512 + 1 * (j 1).val = (j 1).val; omega

theorem iblk_w3 (c : Dev nD) (t : Fin cfg1.N) : iblk1 V c 3 t = (V c main_v45 : S512x128.Idx → Elt Ideal .f32) := by
  obtain ⟨e00, e01, e10, e11, e20, e21, e30, e31, e40, e41, -⟩ := idx_facts t
  funext j
  unfold iblk1
  rw [View.read_apply]
  show V c main_v45 (((cfg1.win 3).blk t).view.emb j) = V c main_v45 j
  congr 1
  funext a; apply Fin.ext
  match a with
  | ⟨0, _⟩ => show win1_3.index t (0 : Fin 2) * 512 + 1 * (j 0).val = (j 0).val; omega
  | ⟨1, _⟩ => show win1_3.index t (1 : Fin 2) * 128 + 1 * (j 1).val = (j 1).val; omega

theorem iblk_w4 (c : Dev nD) (t : Fin cfg1.N) : iblk1 V c 4 t = (V c main_v46 : S1x128.Idx → Elt Ideal .f32) := by
  obtain ⟨e00, e01, e10, e11, e20, e21, e30, e31, e40, e41, -⟩ := idx_facts t
  funext j
  unfold iblk1
  rw [View.read_apply]
  show V c main_v46 (((cfg1.win 4).blk t).view.emb j) = V c main_v46 j
  congr 1
  funext a; apply Fin.ext
  match a with
  | ⟨0, _⟩ => show win1_4.index t (0 : Fin 2) * 1 + 1 * (j 0).val = (j 0).val; omega
  | ⟨1, _⟩ => show win1_4.index t (1 : Fin 2) * 128 + 1 * (j 1).val = (j 1).val; omega

/-- The pooled window's block at point t is rows 1024·t … 1024·t + 1023 of the pooled array. -/
theorem iblk_w0 (c : Dev nD) (t : Fin cfg1.N) (j : S1024x128.Idx) (k : S2048x128.Idx)
    (hk0 : (k 0).val = t.val * 1024 + (j 0).val) (hk1 : (k 1).val = (j 1).val) :
    iblk1 V c 0 t j = (V c main_v44 : S2048x128.Idx → Elt Ideal .f32) k := by
  obtain ⟨e0, e1, -⟩ := idx_facts t
  unfold iblk1
  rw [View.read_apply]
  show V c main_v44 (((cfg1.win 0).blk t).view.emb j) = V c main_v44 k
  congr 1
  funext a; apply Fin.ext
  match a with
  | ⟨0, _⟩ => show win1_0.index t (0 : Fin 2) * 1024 + 1 * (j 0).val = (k 0).val; omega
  | ⟨1, _⟩ => show win1_0.index t (1 : Fin 2) * 128 + 1 * (j 1).val = (k 1).val; omega

/-- The head of the pooled array as the region finds it, with the weights and biases as the region finds them. -/
abbrev headOf (c : Dev nD) : S2048x128.Idx → Elt Ideal .f32 :=
  head (M := 2048) (V c main_v44) (V c main_arg11) (V c main_arg12) (V c main_v45) (V c main_v46)

/-- What point t writes back is block t of the head of the whole pooled array. -/
theorem flushed_eq (c : Dev nD) (t : Fin cfg1.N) :
    (dat1 V c).flushed 5 t = ((cfg1.win 5).blk t).view.read (Elt Ideal) (headOf V c) := by
  show (cfg1.win 5).cut (grid1.coords t) ((dat1 V c).after 5 t) = _
  rw [after1_5]
  unfold out1_5
  rw [View.canon_unit_zero hz]
  simp only [View.ld_unit_zero (S := S1024x128) hz, View.ld_unit_zero (S := S128x512) hz, View.ld_unit_zero (S := S1x512) hz,
    View.ld_unit_zero (S := S512x128) hz, View.ld_unit_zero (S := S1x128) hz]
  rw [pay_eq, iblk_w1, iblk_w2, iblk_w3, iblk_w4]
  obtain ⟨-, -, -, -, -, -, -, -, -, -, e0, e1, ht⟩ := idx_facts t
  have hr : ∀ p : Fin 1024, t.val * 1024 + p.val < 2048 := fun p => by have := p.isLt; omega
  funext j
  show head (M := 1024) (iblk1 V c 0 t) (V c main_arg11) (V c main_arg12) (V c main_v45) (V c main_v46) j
    = headOf V c (((cfg1.win 5).blk t).view.emb j)
  have he : ((cfg1.win 5).blk t).view.emb j = ix2 (⟨t.val * 1024 + (j 0).val, hr (j 0)⟩ : Fin 2048) (j 1) := by
    funext a; apply Fin.ext
    match a with
    | ⟨0, _⟩ => show win1_5.index t (0 : Fin 2) * 1024 + 1 * (j 0).val = t.val * 1024 + (j 0).val; omega
    | ⟨1, _⟩ => show win1_5.index t (1 : Fin 2) * 128 + 1 * (j 1).val = (j 1).val; omega
  rw [he]
  conv_lhs => rw [eq_ix2 j]
  exact head_rows (M := 1024) (M' := 2048) (V c main_v44) (iblk1 V c 0 t) _ _ _ _ (fun p => ⟨t.val * 1024 + p.val, hr p⟩)
    (fun p k => iblk_w0 V c t (ix2 p k) _ rfl rfl) (j 0) (j 1)

/-- An index of the result array is in point t's block iff each coordinate is in the block's range on its axis. -/
theorem mem_blk (t : Fin cfg1.N) (i : S2048x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v47).slice (win1_5.rect t)).set ↔ _
  rw [View.set_slice_whole, Rect.mem_set_unit]
  exact Iff.rfl

/-- The two blocks of 1024 rows cover the 2048 rows: row r is in the block of point r / 1024. -/
theorem cover (i : S2048x128.Idx) : ∃ t : Fin cfg1.N, (cfg1.win 5).flush t = true ∧ i ∈ ((cfg1.win 5).blk t).view.set := by
  have hi0 : (i 0).val < 2048 := (i 0).isLt
  have hi1 : (i 1).val < 128 := (i 1).isLt
  have hN : cfg1.N = 2 := N_1
  have htv : ∀ (t : Fin cfg1.N), t.val = (i 0).val / 1024 → i ∈ ((cfg1.win 5).blk t).view.set := fun t h => by
    obtain ⟨-, -, -, -, -, -, -, -, -, -, e0, e1, -⟩ := idx_facts t
    rw [mem_blk]
    intro a
    match a with
    | ⟨0, _⟩ => show win1_5.index t (0 : Fin 2) * 1024 ≤ (i 0).val ∧ (i 0).val < win1_5.index t (0 : Fin 2) * 1024 + 1024; omega
    | ⟨1, _⟩ => show win1_5.index t (1 : Fin 2) * 128 ≤ (i 1).val ∧ (i 1).val < win1_5.index t (1 : Fin 2) * 128 + 128; omega
  exact ⟨⟨(i 0).val / 1024, by rw [hN]; omega⟩, flush1_5 _, htv _ rfl⟩

/-- So the result array of the head region ends holding the head of the whole pooled array. -/
theorem final (c : Dev nD) : (dat1 V c).arrAt 5 cfg1.N = headOf V c :=
  (dat1 V c).arrAt_eq_of_cover 5 (headOf V c) (fun t _ => flushed_eq V c t) cover

end Blocks

section Result
variable (m : (ℓ : Loc nD τ sig) → Buf (Elt Ideal) ℓ) (ρ : Dev nD → PrngReg)

/-! The head region's entry contents, read back through the host stretches: the pooled array is what the feature
    region left, the first layer's weights and bias are the launch contents, the second layer's are the launch
    contents padded with zero columns from 40 to 128. -/

theorem W6_arg11 (c : Dev nD) : Gen.W6 m ρ c (Proc.devRef .tc main_arg11) = m ((c.tc : Thread nD τ).loc main_arg11) := by
  have h87 : Gen.W8 m ρ c (Proc.devRef .tc main_arg11) = Gen.W7 m ρ c (Proc.devRef .tc main_arg11) := by
    show StableHlo.after hostOps2 (Gen.W7 m ρ c) (Proc.devRef .tc main_arg11) = _
    after_results
  have h76 : Gen.W7 m ρ c (Proc.devRef .tc main_arg11) = Gen.W6 m ρ c (Proc.devRef .tc main_arg11) :=
    (Gen.W7_arr m ρ c 1).trans (((Gen.dat1 (Gen.V6 m ρ) c).arrAt_in 1 rfl _).trans (Gen.A_eq1 (Gen.V6 m ρ) c 1))
  exact (h76.symm.trans h87.symm).trans (Gen.W8_main_arg11 m ρ c)
theorem W2_arg11 (c : Dev nD) : Gen.W2 m ρ c (Proc.devRef .tc main_arg11) = m ((c.tc : Thread nD τ).loc main_arg11) := by
  have h62 : Gen.W6 m ρ c (Proc.devRef .tc main_arg11) = Gen.W2 m ρ c (Proc.devRef .tc main_arg11) := by
    show StableHlo.after hostOps1_3 (StableHlo.after hostOps1_2 (StableHlo.after hostOps1_1 (StableHlo.after hostOps1 (Gen.W2 m ρ c)))) (Proc.devRef .tc main_arg11) = _
    after_results
  exact h62.symm.trans (W6_arg11 m ρ c)

theorem W6_arg12 (c : Dev nD) : Gen.W6 m ρ c (Proc.devRef .tc main_arg12) = m ((c.tc : Thread nD τ).loc main_arg12) := by
  have h87 : Gen.W8 m ρ c (Proc.devRef .tc main_arg12) = Gen.W7 m ρ c (Proc.devRef .tc main_arg12) := by
    show StableHlo.after hostOps2 (Gen.W7 m ρ c) (Proc.devRef .tc main_arg12) = _
    after_results
  have h76 : Gen.W7 m ρ c (Proc.devRef .tc main_arg12) = Gen.W6 m ρ c (Proc.devRef .tc main_arg12) :=
    (Gen.W7_arr m ρ c 2).trans (((Gen.dat1 (Gen.V6 m ρ) c).arrAt_in 2 rfl _).trans (Gen.A_eq1 (Gen.V6 m ρ) c 2))
  exact (h76.symm.trans h87.symm).trans (Gen.W8_main_arg12 m ρ c)
theorem W2_arg12 (c : Dev nD) : Gen.W2 m ρ c (Proc.devRef .tc main_arg12) = m ((c.tc : Thread nD τ).loc main_arg12) := by
  have h62 : Gen.W6 m ρ c (Proc.devRef .tc main_arg12) = Gen.W2 m ρ c (Proc.devRef .tc main_arg12) := by
    show StableHlo.after hostOps1_3 (StableHlo.after hostOps1_2 (StableHlo.after hostOps1_1 (StableHlo.after hostOps1 (Gen.W2 m ρ c)))) (Proc.devRef .tc main_arg12) = _
    after_results
  exact h62.symm.trans (W6_arg12 m ρ c)

theorem W6_arg13 (c : Dev nD) : Gen.W6 m ρ c (Proc.devRef .tc main_arg13) = m ((c.tc : Thread nD τ).loc main_arg13) := by
  have h87 : Gen.W8 m ρ c (Proc.devRef .tc main_arg13) = Gen.W7 m ρ c (Proc.devRef .tc main_arg13) := by
    show StableHlo.after hostOps2 (Gen.W7 m ρ c) (Proc.devRef .tc main_arg13) = _
    after_results
  have h76 : Gen.W7 m ρ c (Proc.devRef .tc main_arg13) = Gen.W6 m ρ c (Proc.devRef .tc main_arg13) :=
    Gen.W7_of_ne m ρ c main_arg13 (by decide)
  exact (h76.symm.trans h87.symm).trans (Gen.W8_main_arg13 m ρ c)
theorem W2_arg13 (c : Dev nD) : Gen.W2 m ρ c (Proc.devRef .tc main_arg13) = m ((c.tc : Thread nD τ).loc main_arg13) := by
  have h62 : Gen.W6 m ρ c (Proc.devRef .tc main_arg13) = Gen.W2 m ρ c (Proc.devRef .tc main_arg13) := by
    show StableHlo.after hostOps1_3 (StableHlo.after hostOps1_2 (StableHlo.after hostOps1_1 (StableHlo.after hostOps1 (Gen.W2 m ρ c)))) (Proc.devRef .tc main_arg13) = _
    after_results
  exact h62.symm.trans (W6_arg13 m ρ c)

theorem W6_arg14 (c : Dev nD) : Gen.W6 m ρ c (Proc.devRef .tc main_arg14) = m ((c.tc : Thread nD τ).loc main_arg14) := by
  have h87 : Gen.W8 m ρ c (Proc.devRef .tc main_arg14) = Gen.W7 m ρ c (Proc.devRef .tc main_arg14) := by
    show StableHlo.after hostOps2 (Gen.W7 m ρ c) (Proc.devRef .tc main_arg14) = _
    after_results
  have h76 : Gen.W7 m ρ c (Proc.devRef .tc main_arg14) = Gen.W6 m ρ c (Proc.devRef .tc main_arg14) :=
    Gen.W7_of_ne m ρ c main_arg14 (by decide)
  exact (h76.symm.trans h87.symm).trans (Gen.W8_main_arg14 m ρ c)
theorem W2_arg14 (c : Dev nD) : Gen.W2 m ρ c (Proc.devRef .tc main_arg14) = m ((c.tc : Thread nD τ).loc main_arg14) := by
  have h62 : Gen.W6 m ρ c (Proc.devRef .tc main_arg14) = Gen.W2 m ρ c (Proc.devRef .tc main_arg14) := by
    show StableHlo.after hostOps1_3 (StableHlo.after hostOps1_2 (StableHlo.after hostOps1_1 (StableHlo.after hostOps1 (Gen.W2 m ρ c)))) (Proc.devRef .tc main_arg14) = _
    after_results
  exact h62.symm.trans (W6_arg14 m ρ c)

theorem W6_v44 (c : Dev nD) : Gen.W6 m ρ c (Proc.devRef .tc main_v44) = Gen.W2 m ρ c (Proc.devRef .tc main_v44) := by
  show StableHlo.after hostOps1_3 (StableHlo.after hostOps1_2 (StableHlo.after hostOps1_1 (StableHlo.after hostOps1 (Gen.W2 m ρ c)))) (Proc.devRef .tc main_v44) = _
  after_results

theorem W6_v45 (c : Dev nD) : (Gen.W6 m ρ c (Proc.devRef .tc main_v45) : S512x128.Idx → Elt Ideal .f32)
    = pad S512x128 ![0, 0] ![0, 88] ![0, 0] (m ((c.tc : Thread nD τ).loc main_arg13)) (sitofp (F := Ideal) .f32 (constantI S_ 32 0#32)) pads_S512x40_S512x128_000_0880 h_S_ := by
  show StableHlo.after hostOps1_3 (StableHlo.after hostOps1_2 (StableHlo.after hostOps1_1 (StableHlo.after hostOps1 (Gen.W2 m ρ c)))) (Proc.devRef .tc main_v45) = _
  after_results
  rw [W2_arg13]
  rfl

theorem W6_v46 (c : Dev nD) : (Gen.W6 m ρ c (Proc.devRef .tc main_v46) : S1x128.Idx → Elt Ideal .f32)
    = pad S1x128 ![0, 0] ![0, 88] ![0, 0] (m ((c.tc : Thread nD τ).loc main_arg14)) (sitofp (F := Ideal) .f32 (constantI S_ 32 0#32)) pads_S1x40_S1x128_000_0880 h_S_ := by
  show StableHlo.after hostOps1_3 (StableHlo.after hostOps1_2 (StableHlo.after hostOps1_1 (StableHlo.after hostOps1 (Gen.W2 m ρ c)))) (Proc.devRef .tc main_v46) = _
  after_results
  rw [W2_arg14]
  rfl

/-- The program's result: the first 40 columns of the classifier head of the pooled array the feature region left, the
    second layer's weights and bias padded with zero columns. -/
theorem result (c : Dev nD) : Gen.W8 (F := Ideal) m ρ c (Proc.devRef .tc main_v48)
    = extractStridedSlice S2048x40 ![0, 0]
        (head (M := 2048) (Gen.W2 (F := Ideal) m ρ c (Proc.devRef .tc main_v44)) (m ((c.tc : Thread nD τ).loc main_arg11)) (m ((c.tc : Thread nD τ).loc main_arg12))
          (pad S512x128 ![0, 0] ![0, 88] ![0, 0] (m ((c.tc : Thread nD τ).loc main_arg13)) (sitofp (F := Ideal) .f32 (constantI S_ 32 0#32)) pads_S512x40_S512x128_000_0880 h_S_)
          (pad S1x128 ![0, 0] ![0, 88] ![0, 0] (m ((c.tc : Thread nD τ).loc main_arg14)) (sitofp (F := Ideal) .f32 (constantI S_ 32 0#32)) pads_S1x40_S1x128_000_0880 h_S_))
        slices_S2048x128_S2048x40_0_0 := by
  show StableHlo.after hostOps2 (Gen.W7 m ρ c) (Proc.devRef .tc main_v48) = _
  after_results
  have h47 : Gen.W7 m ρ c (Proc.devRef .tc main_v47) = headOf (Gen.V6 m ρ) c :=
    (Gen.W7_arr m ρ c 5).trans (final (Gen.V6 m ρ) c)
  rw [h47]
  unfold headOf
  rw [show Gen.V6 m ρ c main_v44 = Gen.W2 m ρ c (Proc.devRef .tc main_v44) from W6_v44 m ρ c,
    show Gen.V6 m ρ c main_arg11 = m ((c.tc : Thread nD τ).loc main_arg11) from W6_arg11 m ρ c,
    show Gen.V6 m ρ c main_arg12 = m ((c.tc : Thread nD τ).loc main_arg12) from W6_arg12 m ρ c,
    show (Gen.V6 m ρ c main_v45 : S512x128.Idx → Elt Ideal .f32) = _ from W6_v45 m ρ c,
    show (Gen.V6 m ρ c main_v46 : S1x128.Idx → Elt Ideal .f32) = _ from W6_v46 m ρ c]

end Result

end Cert.KernelIdeal.Tail

end
-- ==== Proof.TailReference.lean ====
/-
  The tail of the reference program: its run with the result buffer named, and that result as the classifier head
  of the pooled array.

  The head region has one grid point, whose block is the whole array of 2048 pooled rows; on it it computes a
  rectified affine layer into 512 and an affine layer into 128, so what the point writes back is the head of the
  whole pooled array. The pooled array enters reshaped from 1024 × 2 × 128 to 2048 × 128, the second layer's weights
  and bias enter padded with zero columns from 40 to 128, and the host keeps the first 40 columns of the result.
-/
import proofs.«171346_g2000606842809313_pallasbulk_193_5_alg».proof.Proof.Gen.ReferenceIdeal.Frame
import proofs.«171346_g2000606842809313_pallasbulk_193_5_alg».proof.Proof.Spec

set_option maxRecDepth 16384

noncomputable section

namespace Cert.ReferenceIdeal.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen
open Idealize.ShloMosaic.ValueIdx Cert.Dense Cert.PointNet

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run with its result named: every weakly fair execution of the program terminates without a fault, and in
    every final state the result buffer holds the last boundary's contents at the result, the arguments being as
    launched. -/
theorem run_named : θ_run defs (onTc (τ := τ) (main (F := Ideal))) ⟨m, fun _ => 0, ρ⟩ (fun r => ∀ c : Dev nD,
      r.2.mem ((c.tc : Thread nD τ).loc main_v5) = Gen.W7 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v5 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

theorem hz : (![0, 0] : Fin 2 → Nat) = fun _ => 0 := funext fun a => by fin_cases a <;> rfl

/-- The head's body on the block of 2048 rows is the head on that block. -/
theorem pay_eq (x0 : Vec Ideal S2048x128 .f32) (x1 : Vec Ideal S128x512 .f32) (x2 : Vec Ideal S1x512 .f32)
    (x3 : Vec Ideal S512x128 .f32) (x4 : Vec Ideal S1x128 .f32) :
    k1_pay1 (F := Ideal) x0 x1 x2 x3 x4 = head (M := 2048) x0 x1 x2 x3 x4 := by
  unfold k1_pay1
  simp only [shapeCast_self]
  rw [show dot_S2048x128_S128x512_S2048x512_1_0_0_1_n_n = DotDims.plain 2048 128 512 from rfl,
    show dot_S2048x512_S512x128_S2048x128_1_0_0_1_n_n = DotDims.plain 2048 512 128 from rfl]
  rw [addf_matmul_broadcastTo, maximumf_splat_zero, addf_matmul_broadcastTo]
  rfl

section Blocks
variable (V : (c : Dev nD) → (b : Ref sig .tc) → Buf (Elt Ideal) ((c : Thread nD τ).loc b))

/-- The head region's index maps at its one grid point: every window holds its whole array. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! The input windows hold their whole arrays at the point. -/

theorem iblk_w0 (c : Dev nD) (t : Fin cfg1.N) : iblk1 V c 0 t = (V c main_v1 : S2048x128.Idx → Elt Ideal .f32) := by
  obtain ⟨e00, e01, e10, e11, e20, e21, e30, e31, e40, e41, -⟩ := idx_facts t
  funext j
  unfold iblk1
  rw [View.read_apply]
  show V c main_v1 (((cfg1.win 0).blk t).view.emb j) = V c main_v1 j
  congr 1
  funext a; apply Fin.ext
  match a with
  | ⟨0, _⟩ => show win1_0.index t (0 : Fin 2) * 2048 + 1 * (j 0).val = (j 0).val; omega
  | ⟨1, _⟩ => show win1_0.index t (1 : Fin 2) * 128 + 1 * (j 1).val = (j 1).val; omega

theorem iblk_w1 (c : Dev nD) (t : Fin cfg1.N) : iblk1 V c 1 t = (V c main_arg11 : S128x512.Idx → Elt Ideal .f32) := by
  obtain ⟨e00, e01, e10, e11, e20, e21, e30, e31, e40, e41, -⟩ := idx_facts t
  funext j
  unfold iblk1
  rw [View.read_apply]
  show V c main_arg11 (((cfg1.win 1).blk t).view.emb j) = V c main_arg11 j
  congr 1
  funext a; apply Fin.ext
  match a with
  | ⟨0, _⟩ => show win1_1.index t (0 : Fin 2) * 128 + 1 * (j 0).val = (j 0).val; omega
  | ⟨1, _⟩ => show win1_1.index t (1 : Fin 2) * 512 + 1 * (j 1).val = (j 1).val; omega

theorem iblk_w2 (c : Dev nD) (t : Fin cfg1.N) : iblk1 V c 2 t = (V c main_arg12 : S1x512.Idx → Elt Ideal .f32) := by
  obtain ⟨e00, e01, e10, e11, e20, e21, e30, e31, e40, e41, -⟩ := idx_facts t
  funext j
  unfold iblk1
  rw [View.read_apply]
  show V c main_arg12 (((cfg1.win 2).blk t).view.emb j) = V c main_arg12 j
  congr 1
  funext a; apply Fin.ext
  match a with
  | ⟨0, _⟩ => show win1_2.index t (0 : Fin 2) * 1 + 1 * (j 0).val = (j 0).val; omega
  | ⟨1, _⟩ => show win1_2.index t (1 : Fin 2) * 512 + 1 * (j 1).val = (j 1).val; omega

theorem iblk_w3 (c : Dev nD) (t : Fin cfg1.N) : iblk1 V c 3 t = (V c main_v2 : S512x128.Idx → Elt Ideal .f32) := by
  obtain ⟨e00, e01, e10, e11, e20, e21, e30, e31, e40, e41, -⟩ := idx_facts t
  funext j
  unfold iblk1
  rw [View.read_apply]
  show V c main_v2 (((cfg1.win 3).blk t).view.emb j) = V c main_v2 j
  congr 1
  funext a; apply Fin.ext
  match a with
  | ⟨0, _⟩ => show win1_3.index t (0 : Fin 2) * 512 + 1 * (j 0).val = (j 0).val; omega
  | ⟨1, _⟩ => show win1_3.index t (1 : Fin 2) * 128 + 1 * (j 1).val = (j 1).val; omega

theorem iblk_w4 (c : Dev nD) (t : Fin cfg1.N) : iblk1 V c 4 t = (V c main_v3 : S1x128.Idx → Elt Ideal .f32) := by
  obtain ⟨e00, e01, e10, e11, e20, e21, e30, e31, e40, e41, -⟩ := idx_facts t
  funext j
  unfold iblk1
  rw [View.read_apply]
  show V c main_v3 (((cfg1.win 4).blk t).view.emb j) = V c main_v3 j
  congr 1
  funext a; apply Fin.ext
  match a with
  | ⟨0, _⟩ => show win1_4.index t (0 : Fin 2) * 1 + 1 * (j 0).val = (j 0).val; omega
  | ⟨1, _⟩ => show win1_4.index t (1 : Fin 2) * 128 + 1 * (j 1).val = (j 1).val; omega

/-- The head of the pooled array as the region finds it, with the weights and biases as the region finds them. -/
abbrev headOf (c : Dev nD) : S2048x128.Idx → Elt Ideal .f32 :=
  head (M := 2048) (V c main_v1) (V c main_arg11) (V c main_arg12) (V c main_v2) (V c main_v3)

/-- What the point writes back is the head of the whole pooled array, read through the whole-array block. -/
theorem flushed_eq (c : Dev nD) (t : Fin cfg1.N) :
    (dat1 V c).flushed 5 t = ((cfg1.win 5).blk t).view.read (Elt Ideal) (headOf V c) := by
  show (cfg1.win 5).cut (grid1.coords t) ((dat1 V c).after 5 t) = _
  rw [after1_5]
  unfold out1_5
  rw [View.canon_unit_zero hz]
  simp only [View.ld_unit_zero (S := S2048x128) hz, View.ld_unit_zero (S := S128x512) hz, View.ld_unit_zero (S := S1x512) hz,
    View.ld_unit_zero (S := S512x128) hz, View.ld_unit_zero (S := S1x128) hz]
  rw [pay_eq, iblk_w0, iblk_w1, iblk_w2, iblk_w3, iblk_w4]
  obtain ⟨-, -, -, -, -, -, -, -, -, -, e0, e1⟩ := idx_facts t
  funext j
  show headOf V c j = headOf V c (((cfg1.win 5).blk t).view.emb j)
  congr 1
  funext a; apply Fin.ext
  match a with
  | ⟨0, _⟩ => show (j 0).val = win1_5.index t (0 : Fin 2) * 2048 + 1 * (j 0).val; omega
  | ⟨1, _⟩ => show (j 1).val = win1_5.index t (1 : Fin 2) * 128 + 1 * (j 1).val; omega

/-- An index of the result array is in the point's block iff each coordinate is in the block's range on its axis. -/
theorem mem_blk (t : Fin cfg1.N) (i : S2048x128.Idx) :
    i ∈ ((cfg1.win 5).blk t).view.set ↔ ∀ a : Fin 2, win1_5.index t a * S2048x128.size a ≤ (i a).val ∧ (i a).val < win1_5.index t a * S2048x128.size a + S2048x128.size a := by
  show i ∈ ((View.whole main_v4).slice (win1_5.rect t)).set ↔ _
  rw [View.set_slice_whole, Rect.mem_set_unit]
  exact Iff.rfl

/-- The one block covers the array. -/
theorem cover (i : S2048x128.Idx) : ∃ t : Fin cfg1.N, (cfg1.win 5).flush t = true ∧ i ∈ ((cfg1.win 5).blk t).view.set := by
  have hi0 : (i 0).val < 2048 := (i 0).isLt
  have hi1 : (i 1).val < 128 := (i 1).isLt
  have hN : cfg1.N = 1 := N_1
  have htv : ∀ (t : Fin cfg1.N), i ∈ ((cfg1.win 5).blk t).view.set := fun t => by
    obtain ⟨-, -, -, -, -, -, -, -, -, -, e0, e1⟩ := idx_facts t
    rw [mem_blk]
    intro a
    match a with
    | ⟨0, _⟩ => show win1_5.index t (0 : Fin 2) * 2048 ≤ (i 0).val ∧ (i 0).val < win1_5.index t (0 : Fin 2) * 2048 + 2048; omega
    | ⟨1, _⟩ => show win1_5.index t (1 : Fin 2) * 128 ≤ (i 1).val ∧ (i 1).val < win1_5.index t (1 : Fin 2) * 128 + 128; omega
  exact ⟨⟨0, by rw [hN]; omega⟩, flush1_5 _, htv _⟩

/-- So the result array of the head region ends holding the head of the whole pooled array. -/
theorem final (c : Dev nD) : (dat1 V c).arrAt 5 cfg1.N = headOf V c :=
  (dat1 V c).arrAt_eq_of_cover 5 (headOf V c) (fun t _ => flushed_eq V c t) cover

end Blocks

section Result
variable (m : (ℓ : Loc nD τ sig) → Buf (Elt Ideal) ℓ) (ρ : Dev nD → PrngReg)

/-! The head region's entry contents, read back through the host stretches: the pooled array is what the feature
    region left, reshaped to 2048 rows; the first layer's weights and bias are the launch contents; the second layer's
    are the launch contents padded with zero columns from 40 to 128. -/

theorem W5_arg11 (c : Dev nD) : Gen.W5 m ρ c (Proc.devRef .tc main_arg11) = m ((c.tc : Thread nD τ).loc main_arg11) := by
  have h76 : Gen.W7 m ρ c (Proc.devRef .tc main_arg11) = Gen.W6 m ρ c (Proc.devRef .tc main_arg11) := by
    show StableHlo.after hostOps2 (Gen.W6 m ρ c) (Proc.devRef .tc main_arg11) = _
    after_results
  have h65 : Gen.W6 m ρ c (Proc.devRef .tc main_arg11) = Gen.W5 m ρ c (Proc.devRef .tc main_arg11) :=
    (Gen.W6_arr m ρ c 1).trans (((Gen.dat1 (Gen.V5 m ρ) c).arrAt_in 1 rfl _).trans (Gen.A_eq1 (Gen.V5 m ρ) c 1))
  exact (h65.symm.trans h76.symm).trans (Gen.W7_main_arg11 m ρ c)

theorem W5_arg12 (c : Dev nD) : Gen.W5 m ρ c (Proc.devRef .tc main_arg12) = m ((c.tc : Thread nD τ).loc main_arg12) := by
  have h76 : Gen.W7 m ρ c (Proc.devRef .tc main_arg12) = Gen.W6 m ρ c (Proc.devRef .tc main_arg12) := by
    show StableHlo.after hostOps2 (Gen.W6 m ρ c) (Proc.devRef .tc main_arg12) = _
    after_results
  have h65 : Gen.W6 m ρ c (Proc.devRef .tc main_arg12) = Gen.W5 m ρ c (Proc.devRef .tc main_arg12) :=
    (Gen.W6_arr m ρ c 2).trans (((Gen.dat1 (Gen.V5 m ρ) c).arrAt_in 2 rfl _).trans (Gen.A_eq1 (Gen.V5 m ρ) c 2))
  exact (h65.symm.trans h76.symm).trans (Gen.W7_main_arg12 m ρ c)

theorem W5_arg13 (c : Dev nD) : Gen.W5 m ρ c (Proc.devRef .tc main_arg13) = m ((c.tc : Thread nD τ).loc main_arg13) := by
  have h76 : Gen.W7 m ρ c (Proc.devRef .tc main_arg13) = Gen.W6 m ρ c (Proc.devRef .tc main_arg13) := by
    show StableHlo.after hostOps2 (Gen.W6 m ρ c) (Proc.devRef .tc main_arg13) = _
    after_results
  have h65 : Gen.W6 m ρ c (Proc.devRef .tc main_arg13) = Gen.W5 m ρ c (Proc.devRef .tc main_arg13) :=
    Gen.W6_of_ne m ρ c main_arg13 (by decide)
  exact (h65.symm.trans h76.symm).trans (Gen.W7_main_arg13 m ρ c)
theorem W1_arg13 (c : Dev nD) : Gen.W1 m ρ c (Proc.devRef .tc main_arg13) = m ((c.tc : Thread nD τ).loc main_arg13) := by
  have h51 : Gen.W5 m ρ c (Proc.devRef .tc main_arg13) = Gen.W1 m ρ c (Proc.devRef .tc main_arg13) := by
    show StableHlo.after hostOps1_3 (StableHlo.after hostOps1_2 (StableHlo.after hostOps1_1 (StableHlo.after hostOps1 (Gen.W1 m ρ c)))) (Proc.devRef .tc main_arg13) = _
    after_results
  exact h51.symm.trans (W5_arg13 m ρ c)

theorem W5_arg14 (c : Dev nD) : Gen.W5 m ρ c (Proc.devRef .tc main_arg14) = m ((c.tc : Thread nD τ).loc main_arg14) := by
  have h76 : Gen.W7 m ρ c (Proc.devRef .tc main_arg14) = Gen.W6 m ρ c (Proc.devRef .tc main_arg14) := by
    show StableHlo.after hostOps2 (Gen.W6 m ρ c) (Proc.devRef .tc main_arg14) = _
    after_results
  have h65 : Gen.W6 m ρ c (Proc.devRef .tc main_arg14) = Gen.W5 m ρ c (Proc.devRef .tc main_arg14) :=
    Gen.W6_of_ne m ρ c main_arg14 (by decide)
  exact (h65.symm.trans h76.symm).trans (Gen.W7_main_arg14 m ρ c)
theorem W1_arg14 (c : Dev nD) : Gen.W1 m ρ c (Proc.devRef .tc main_arg14) = m ((c.tc : Thread nD τ).loc main_arg14) := by
  have h51 : Gen.W5 m ρ c (Proc.devRef .tc main_arg14) = Gen.W1 m ρ c (Proc.devRef .tc main_arg14) := by
    show StableHlo.after hostOps1_3 (StableHlo.after hostOps1_2 (StableHlo.after hostOps1_1 (StableHlo.after hostOps1 (Gen.W1 m ρ c)))) (Proc.devRef .tc main_arg14) = _
    after_results
  exact h51.symm.trans (W5_arg14 m ρ c)

theorem W5_v1 (c : Dev nD) : (Gen.W5 m ρ c (Proc.devRef .tc main_v1) : S2048x128.Idx → Elt Ideal .f32)
    = shapeCast S2048x128 (Gen.W1 m ρ c (Proc.devRef .tc main_v0)) shapeCasts_S1024x2x128_S2048x128 := by
  show StableHlo.after hostOps1_3 (StableHlo.after hostOps1_2 (StableHlo.after hostOps1_1 (StableHlo.after hostOps1 (Gen.W1 m ρ c)))) (Proc.devRef .tc main_v1) = _
  after_results
  rfl

theorem W5_v2 (c : Dev nD) : (Gen.W5 m ρ c (Proc.devRef .tc main_v2) : S512x128.Idx → Elt Ideal .f32)
    = pad S512x128 ![0, 0] ![0, 88] ![0, 0] (m ((c.tc : Thread nD τ).loc main_arg13)) (sitofp (F := Ideal) .f32 (constantI S_ 32 0#32)) pads_S512x40_S512x128_000_0880 h_S_ := by
  show StableHlo.after hostOps1_3 (StableHlo.after hostOps1_2 (StableHlo.after hostOps1_1 (StableHlo.after hostOps1 (Gen.W1 m ρ c)))) (Proc.devRef .tc main_v2) = _
  after_results
  rw [W1_arg13]
  rfl

theorem W5_v3 (c : Dev nD) : (Gen.W5 m ρ c (Proc.devRef .tc main_v3) : S1x128.Idx → Elt Ideal .f32)
    = pad S1x128 ![0, 0] ![0, 88] ![0, 0] (m ((c.tc : Thread nD τ).loc main_arg14)) (sitofp (F := Ideal) .f32 (constantI S_ 32 0#32)) pads_S1x40_S1x128_000_0880 h_S_ := by
  show StableHlo.after hostOps1_3 (StableHlo.after hostOps1_2 (StableHlo.after hostOps1_1 (StableHlo.after hostOps1 (Gen.W1 m ρ c)))) (Proc.devRef .tc main_v3) = _
  after_results
  rw [W1_arg14]
  rfl

/-- The program's result: the first 40 columns of the classifier head of the pooled array the feature region left
    (reshaped to 2048 rows), the second layer's weights and bias padded with zero columns. -/
theorem result (c : Dev nD) : Gen.W7 (F := Ideal) m ρ c (Proc.devRef .tc main_v5)
    = extractStridedSlice S2048x40 ![0, 0]
        (head (M := 2048) (shapeCast S2048x128 (Gen.W1 (F := Ideal) m ρ c (Proc.devRef .tc main_v0)) shapeCasts_S1024x2x128_S2048x128)
          (m ((c.tc : Thread nD τ).loc main_arg11)) (m ((c.tc : Thread nD τ).loc main_arg12))
          (pad S512x128 ![0, 0] ![0, 88] ![0, 0] (m ((c.tc : Thread nD τ).loc main_arg13)) (sitofp (F := Ideal) .f32 (constantI S_ 32 0#32)) pads_S512x40_S512x128_000_0880 h_S_)
          (pad S1x128 ![0, 0] ![0, 88] ![0, 0] (m ((c.tc : Thread nD τ).loc main_arg14)) (sitofp (F := Ideal) .f32 (constantI S_ 32 0#32)) pads_S1x40_S1x128_000_0880 h_S_))
        slices_S2048x128_S2048x40_0_0 := by
  show StableHlo.after hostOps2 (Gen.W6 m ρ c) (Proc.devRef .tc main_v5) = _
  after_results
  have h4 : Gen.W6 m ρ c (Proc.devRef .tc main_v4) = headOf (Gen.V5 m ρ) c :=
    (Gen.W6_arr m ρ c 5).trans (final (Gen.V5 m ρ) c)
  rw [h4]
  unfold headOf
  rw [show (Gen.V5 m ρ c main_v1 : S2048x128.Idx → Elt Ideal .f32) = _ from W5_v1 m ρ c,
    show Gen.V5 m ρ c main_arg11 = m ((c.tc : Thread nD τ).loc main_arg11) from W5_arg11 m ρ c,
    show Gen.V5 m ρ c main_arg12 = m ((c.tc : Thread nD τ).loc main_arg12) from W5_arg12 m ρ c,
    show (Gen.V5 m ρ c main_v2 : S512x128.Idx → Elt Ideal .f32) = _ from W5_v2 m ρ c,
    show (Gen.V5 m ρ c main_v3 : S1x128.Idx → Elt Ideal .f32) = _ from W5_v3 m ρ c]

end Result

end Cert.ReferenceIdeal.Tail

end
-- ==== Proof.FeatKernelBody.lean ====
/-
  The features body of the packed kernel as eight copies of one chunk function.

  A grid point's 65536 packed columns are processed as eight chunks of 8192 columns; every chunk goes through the
  same five products with the same weights, and its 8 × 256 maxima over the 1024 points of each cloud are set one
  under the other before the last bias, the rectifier, and the re-laying of the two 128-lane halves as rows.
-/
import proofs.«171346_g2000606842809313_pallasbulk_193_5_alg».proof.Proof.Gen.KernelIdeal.Frame
import proofs.«171346_g2000606842809313_pallasbulk_193_5_alg».proof.Proof.Spec

noncomputable section

open scoped BigOperators

namespace Cert.KernelIdeal.Feat

open Idealize.ShloMosaic Idealize.ShloMosaic.TcCoe Idealize.SL.Sem Cert.KernelIdeal Cert.KernelIdeal.Gen

/-- One chunk: 8192 packed columns through the five products; the maxima of the fifth product over each cloud's
    1024 points. -/
def chunk (xc : Vec Ideal S6x8192 .bf16) (w1 : Vec Ideal S6x128 .bf16) (b1 : Vec Ideal S1x128 .bf16) (w2 : Vec Ideal S128x128 .bf16)
    (b2 : Vec Ideal S1x128 .bf16) (w3 : Vec Ideal S128x128 .bf16) (b3 : Vec Ideal S1x128 .bf16) (w4 : Vec Ideal S128x256 .bf16)
    (b4 : Vec Ideal S1x256 .bf16) (w5 : Vec Ideal S256x256 .bf16) : FVec Ideal S8x256 .f32 :=
  k0_pay3 (F := Ideal) (k0_pay2 xc w1 b1 w2 b2 w3 b3 w4) b4 w5

/-- The eight chunks' maxima set one under the other, the last bias, the rectifier, and the two lane halves as rows. -/
def finish (c0 c1 c2 c3 c4 c5 c6 c7 : FVec Ideal S8x256 .f32) (b5 : Vec Ideal S1x256 .f32) : FVec Ideal S128x128 .f32 :=
  have v376 : FVec Ideal S64x256 .f32 := concatenate S64x256 0 [⟨S8x256, c0⟩, ⟨S8x256, c1⟩, ⟨S8x256, c2⟩, ⟨S8x256, c3⟩, ⟨S8x256, c4⟩, ⟨S8x256, c5⟩, ⟨S8x256, c6⟩, ⟨S8x256, c7⟩] concatenates_S8x256_S8x256_S8x256_S8x256_S8x256_S8x256_S8x256_S8x256_S64x256_d0
  have v378 : FVec Ideal S1x256 .f32 := shapeCast S1x256 b5 shapeCasts_S1x256_S1x256
  have v379 : FVec Ideal S64x256 .f32 := broadcastTo S64x256 v378 broadcasts_S1x256_S64x256
  have v380 : FVec Ideal S64x256 .f32 := addf v376 v379
  have v382 : FVec Ideal S64x256 .f32 := maximumf v380 (broadcast S64x256 (Scalar.ofBits .f32 0x00000000#32))
  have v383 : FVec Ideal S64x128 .f32 := extractStridedSlice S64x128 ![0, 0] v382 slices_S64x256_o0_0_S64x128
  have v384 : FVec Ideal S64x128 .f32 := extractStridedSlice S64x128 ![0, 128] v382 slices_S64x256_o0_128_S64x128
  concatenate S128x128 0 [⟨S64x128, v383⟩, ⟨S64x128, v384⟩] concatenates_S64x128_S64x128_S128x128_d0

/-- What the body leaves in the output block: the finish of the eight chunks of the x block. -/
theorem out_eq (x0 : Vec Ideal S6x65536 .bf16) (x1 : Vec Ideal S6x128 .bf16) (x2 : Vec Ideal S1x128 .bf16) (x3 : Vec Ideal S128x128 .bf16)
    (x4 : Vec Ideal S1x128 .bf16) (x5 : Vec Ideal S128x128 .bf16) (x6 : Vec Ideal S1x128 .bf16) (x7 : Vec Ideal S128x256 .bf16)
    (x8 : Vec Ideal S1x256 .bf16) (x9 : Vec Ideal S256x256 .bf16) (x10 : Vec Ideal S1x256 .f32) :
    out0_11 (F := Ideal) x0 x1 x2 x3 x4 x5 x6 x7 x8 x9 x10
      = View.canon [⟨r0_3, finish
          (chunk (View.ld x0 r0_0) (View.ld x1 r0_1) (View.ld x2 r0_2) (View.ld x3 r0_3) (View.ld x4 r0_2) (View.ld x5 r0_3) (View.ld x6 r0_2) (View.ld x7 r0_4) (View.ld x8 r0_5) (View.ld x9 r0_6))
          (chunk (View.ld x0 r0_7) (View.ld x1 r0_1) (View.ld x2 r0_2) (View.ld x3 r0_3) (View.ld x4 r0_2) (View.ld x5 r0_3) (View.ld x6 r0_2) (View.ld x7 r0_4) (View.ld x8 r0_5) (View.ld x9 r0_6))
          (chunk (View.ld x0 r0_8) (View.ld x1 r0_1) (View.ld x2 r0_2) (View.ld x3 r0_3) (View.ld x4 r0_2) (View.ld x5 r0_3) (View.ld x6 r0_2) (View.ld x7 r0_4) (View.ld x8 r0_5) (View.ld x9 r0_6))
          (chunk (View.ld x0 r0_9) (View.ld x1 r0_1) (View.ld x2 r0_2) (View.ld x3 r0_3) (View.ld x4 r0_2) (View.ld x5 r0_3) (View.ld x6 r0_2) (View.ld x7 r0_4) (View.ld x8 r0_5) (View.ld x9 r0_6))
          (chunk (View.ld x0 r0_10) (View.ld x1 r0_1) (View.ld x2 r0_2) (View.ld x3 r0_3) (View.ld x4 r0_2) (View.ld x5 r0_3) (View.ld x6 r0_2) (View.ld x7 r0_4) (View.ld x8 r0_5) (View.ld x9 r0_6))
          (chunk (View.ld x0 r0_11) (View.ld x1 r0_1) (View.ld x2 r0_2) (View.ld x3 r0_3) (View.ld x4 r0_2) (View.ld x5 r0_3) (View.ld x6 r0_2) (View.ld x7 r0_4) (View.ld x8 r0_5) (View.ld x9 r0_6))
          (chunk (View.ld x0 r0_12) (View.ld x1 r0_1) (View.ld x2 r0_2) (View.ld x3 r0_3) (View.ld x4 r0_2) (View.ld x5 r0_3) (View.ld x6 r0_2) (View.ld x7 r0_4) (View.ld x8 r0_5) (View.ld x9 r0_6))
          (chunk (View.ld x0 r0_13) (View.ld x1 r0_1) (View.ld x2 r0_2) (View.ld x3 r0_3) (View.ld x4 r0_2) (View.ld x5 r0_3) (View.ld x6 r0_2) (View.ld x7 r0_4) (View.ld x8 r0_5) (View.ld x9 r0_6))
          (View.ld x10 r0_5)⟩] := rfl

end Cert.KernelIdeal.Feat

end
-- ==== Proof.LibBlockSum.lean ====
/-
  Regrouping a sum over `Fin (a * b)` as `a` blocks of `b` consecutive terms.
-/
import Idealize.ShloMosaic.PureOps.Ideal

namespace Cert.LibBlockSum

/-- The position `k * b + j` of the `j`-th entry of block `k` lies below `a * b`. -/
theorem block_lt {a b : Nat} (k : Fin a) (j : Fin b) : k.val * b + j.val < a * b := by
  have hk : k.val + 1 ≤ a := k.isLt
  have hj : j.val < b := j.isLt
  calc k.val * b + j.val < k.val * b + b := by omega
    _ = (k.val + 1) * b := by ring
    _ ≤ a * b := Nat.mul_le_mul_right b hk

/-- A sum over `Fin (a * b)` is the sum over the `a` blocks of the sums of the `b` consecutive
terms of each block: `∑ n, f n = ∑ k, ∑ j, f (k * b + j)`. -/
theorem sum_blocks {M : Type*} [AddCommMonoid M] (a b : Nat) (f : Fin (a * b) → M) :
    ∑ n : Fin (a * b), f n
      = ∑ k : Fin a, ∑ j : Fin b, f ⟨k.val * b + j.val, block_lt k j⟩ := by
  -- the bijection (k, j) ↦ j + b * k of Mathlib, then the sum over a product as a double sum
  rw [← (finProdFinEquiv : Fin a × Fin b ≃ Fin (a * b)).sum_comp f, Fintype.sum_prod_type]
  refine Finset.sum_congr rfl (fun k _ => Finset.sum_congr rfl (fun j _ => ?_))
  congr 1
  apply Fin.ext
  simp [finProdFinEquiv, Nat.mul_comm, Nat.add_comm]

/-- The same regrouping when the length is given as a number `N` known to equal `a * b`. -/
theorem sum_blocks_of_eq {M : Type*} [AddCommMonoid M] {N : Nat} (a b : Nat) (h : a * b = N)
    (f : Fin N → M) :
    ∑ n : Fin N, f n
      = ∑ k : Fin a, ∑ j : Fin b, f ⟨k.val * b + j.val, h ▸ block_lt k j⟩ := by
  subst h
  exact sum_blocks a b f

/-- The instance used for 16384 nodes read as 4 blocks of 4096: a sum of extended reals over
`Fin 16384` is the sum over the 4 blocks of the sums of the 4096 terms of each block. -/
theorem sum_16384_blocks (g : Fin 16384 → EReal) :
    ∑ n : Fin 16384, g n
      = ∑ k : Fin 4, ∑ j : Fin 4096, g ⟨k.val * 4096 + j.val, by omega⟩ := by
  exact sum_blocks_of_eq (N := 16384) 4 4096 (by norm_num) g

end Cert.LibBlockSum
-- ==== Proof.Packed.lean ====
/-
  Two rows side by side through block-diagonal weights.

  A packed row holds two rows of K entries one after the other. Against a weight matrix that carries W twice on its
  diagonal and zero elsewhere, with the bias written twice, a layer acts on each half by itself: the products with
  the zero blocks vanish on the extended reals (x · 0 = 0 for every x), so half g of the layer's result is the
  layer of half g.
-/
import proofs.«171346_g2000606842809313_pallasbulk_193_5_alg».proof.Proof.Spec
import proofs.«171346_g2000606842809313_pallasbulk_193_5_alg».proof.Proof.LibBlockSum

noncomputable section

open scoped BigOperators

namespace Cert.PointNet

open Idealize.ShloMosaic Idealize.ShloMosaic.ValueIdx Cert.Dense

variable {K N K2 N2 : ℕ}

/-- The position of entry k of half g in a packed row of two halves of K entries. -/
def pk (hK : 2 * K = K2) (g : Fin 2) (k : Fin K) : Fin K2 := ⟨g.val * K + k.val, hK ▸ Cert.LibBlockSum.block_lt g k⟩

@[simp] theorem pk_val (hK : 2 * K = K2) (g : Fin 2) (k : Fin K) : (pk hK g k).val = g.val * K + k.val := rfl

/-- Half g of a packed row. -/
def half (hK : 2 * K = K2) (g : Fin 2) (h : Fin K2 → EReal) : Fin K → EReal := fun k => h (pk hK g k)

/-- The packed weights carry W twice on the diagonal and zero off it. -/
def BlockDiag (hK : 2 * K = K2) (hN : 2 * N = N2) (Wp : Mat K2 N2) (W : Mat K N) : Prop :=
  ∀ (g g' : Fin 2) (k : Fin K) (j : Fin N), Wp (ix2 (pk hK g k) (pk hN g' j)) = if g = g' then W (ix2 k j) else 0

/-- The packed bias row is the bias row written twice. -/
def Dup (hN : 2 * N = N2) (bp : Mat 1 N2) (b : Mat 1 N) : Prop :=
  ∀ (g : Fin 2) (j : Fin N), bp (ix2 (0 : Fin 1) (pk hN g j)) = b (ix2 (0 : Fin 1) j)

/-- A sum over a packed row is the sum over the two halves of the sums over each half. -/
theorem sum_packed (hK : 2 * K = K2) (f : Fin K2 → EReal) : ∑ n : Fin K2, f n = ∑ g : Fin 2, ∑ k : Fin K, f (pk hK g k) :=
  Cert.LibBlockSum.sum_blocks_of_eq 2 K hK f

/-- A linear map with block-diagonal weights acts on each half by itself. -/
theorem lin_packed (hK : 2 * K = K2) (hN : 2 * N = N2) (Wp : Mat K2 N2) (W : Mat K N) (hW : BlockDiag hK hN Wp W)
    (h : Fin K2 → EReal) (g : Fin 2) : half hN g (lin Wp h) = lin W (half hK g h) := by
  funext j
  show ∑ n : Fin K2, h n * Wp (ix2 n (pk hN g j)) = ∑ k : Fin K, h (pk hK g k) * W (ix2 k j)
  rw [sum_packed hK, Finset.sum_eq_single g]
  · exact Finset.sum_congr rfl fun k _ => by rw [hW, if_pos rfl]
  · intro g' _ hne
    exact Finset.sum_eq_zero fun k _ => by rw [hW, if_neg hne, mul_zero]
  · intro hg; exact absurd (Finset.mem_univ g) hg

/-- A rectified affine layer with block-diagonal weights and a doubled bias acts on each half by itself. -/
theorem dense_packed (hK : 2 * K = K2) (hN : 2 * N = N2) (Wp : Mat K2 N2) (W : Mat K N) (hW : BlockDiag hK hN Wp W)
    (bp : Mat 1 N2) (b : Mat 1 N) (hb : Dup hN bp b) (h : Fin K2 → EReal) (g : Fin 2) :
    half hN g (dense Wp bp h) = dense W b (half hK g h) := by
  funext j
  show max (∑ n : Fin K2, h n * Wp (ix2 n (pk hN g j)) + bp (ix2 (0 : Fin 1) (pk hN g j))) 0
    = max (∑ k : Fin K, h (pk hK g k) * W (ix2 k j) + b (ix2 (0 : Fin 1) j)) 0
  rw [hb g j]
  exact congrArg (fun s => max (s + b (ix2 (0 : Fin 1) j)) 0) (congrFun (lin_packed hK hN Wp W hW h g) j)

/-- The five packed products on a packed point are, on each half, the point's features. -/
theorem feat_packed (w0p : Mat 6 128) (b0p : Mat 1 128) (w1p : Mat 128 128) (b1p : Mat 1 128) (w2p : Mat 128 128) (b2p : Mat 1 128)
    (w3p : Mat 128 256) (b3p : Mat 1 256) (w4p : Mat 256 256)
    (w0 : Mat 3 64) (b0 : Mat 1 64) (w1 : Mat 64 64) (b1 : Mat 1 64) (w2 : Mat 64 64) (b2 : Mat 1 64) (w3 : Mat 64 128) (b3 : Mat 1 128)
    (w4 : Mat 128 128)
    (h0 : BlockDiag (by norm_num : 2 * 3 = 6) (by norm_num : 2 * 64 = 128) w0p w0) (hb0 : Dup (by norm_num : 2 * 64 = 128) b0p b0)
    (h1 : BlockDiag (by norm_num : 2 * 64 = 128) (by norm_num : 2 * 64 = 128) w1p w1) (hb1 : Dup (by norm_num : 2 * 64 = 128) b1p b1)
    (h2 : BlockDiag (by norm_num : 2 * 64 = 128) (by norm_num : 2 * 64 = 128) w2p w2) (hb2 : Dup (by norm_num : 2 * 64 = 128) b2p b2)
    (h3 : BlockDiag (by norm_num : 2 * 64 = 128) (by norm_num : 2 * 128 = 256) w3p w3) (hb3 : Dup (by norm_num : 2 * 128 = 256) b3p b3)
    (h4 : BlockDiag (by norm_num : 2 * 128 = 256) (by norm_num : 2 * 128 = 256) w4p w4)
    (v : Fin 6 → EReal) (g : Fin 2) :
    half (by norm_num : 2 * 128 = 256) g (lin w4p (dense w3p b3p (dense w2p b2p (dense w1p b1p (dense w0p b0p v)))))
      = feat w0 b0 w1 b1 w2 b2 w3 b3 w4 (half (by norm_num : 2 * 3 = 6) g v) := by
  unfold feat
  rw [lin_packed _ _ w4p w4 h4, dense_packed _ _ w3p w3 h3 b3p b3 hb3, dense_packed _ _ w2p w2 h2 b2p b2 hb2,
    dense_packed _ _ w1p w1 h1 b1p b1 hb1, dense_packed _ _ w0p w0 h0 b0p b0 hb0]

end Cert.PointNet

end
-- ==== Proof.FeatKernelChunk.lean ====
/-
  One chunk of the packed features body, entry by entry.

  The chunk's five products are rectified affine layers of matrices with 8192 rows, so row r of each stage is the
  row function of row r of the stage before; the fifth product is followed by the maximum over each cloud's 1024
  consecutive rows. Entry (cc, J) of the chunk is therefore the maximum over p of the packed row function of
  column cc·1024 + p of the chunk's x block.
-/
import proofs.«171346_g2000606842809313_pallasbulk_193_5_alg».proof.Proof.FeatKernelBody
import proofs.«171346_g2000606842809313_pallasbulk_193_5_alg».proof.Proof.Packed

noncomputable section

open scoped BigOperators

namespace Cert.KernelIdeal.Feat

open Idealize.ShloMosaic Idealize.ShloMosaic.ValueIdx Idealize.SL.Sem Cert.KernelIdeal Cert.KernelIdeal.Gen Cert.Dense Cert.PointNet

theorem ofBits_zero_bf16 : Ideal.ofBits .bf16 0x0000#16 = 0 := by simp [Ideal.ofBits, Ideal.ieee]

/-- Row r of a matrix. -/
def rowOf {M K : ℕ} (H : Mat M K) (r : Fin M) : Fin K → EReal := fun k => H (ix2 r k)

theorem rowOf_relu_affine2 {M K N : ℕ} (H : Mat M K) (W : Mat K N) (b : Mat 1 N) (r : Fin M) :
    rowOf (relu (affine2 H W b)) r = dense W b (rowOf H r) := rfl

theorem rowOf_mm {M K N : ℕ} (H : Mat M K) (W : Mat K N) (r : Fin M) : rowOf (mm H W) r = lin W (rowOf H r) := rfl

/-- A rectified affine layer as the vector unit spells it on narrow floats: the product into zero, narrowed, plus the bias
    row broadcast over the rows, then the maximum with a splat of zero. -/
theorem stage {M K N : ℕ} (d : DotDims ⟨2, ![M, K]⟩ ⟨2, ![K, N]⟩ ⟨2, ![M, N]⟩) (hd : d = DotDims.plain M K N)
    (h : FVec Ideal ⟨2, ![M, K]⟩ .bf16) (w : FVec Ideal ⟨2, ![K, N]⟩ .bf16) (b : FVec Ideal ⟨2, ![1, N]⟩ .bf16)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (hlt : FTy.bf16.bits < FTy.f32.bits) :
    maximumf (addf (truncf .bf16 (matmul d none h (shapeCast ⟨2, ![K, N]⟩ w hw) (constant (F := Ideal) ⟨2, ![M, N]⟩ .f32 0x00000000#32)) hlt)
        (broadcastTo ⟨2, ![M, N]⟩ (shapeCast ⟨2, ![1, N]⟩ b hb) hbc)) (broadcast ⟨2, ![M, N]⟩ (Scalar.ofBits (F := Ideal) .bf16 0x0000#16))
      = relu (affine2 h w b) := by
  subst hd
  rw [shapeCast_self, shapeCast_self]
  funext i
  obtain ⟨p, q, rfl⟩ : ∃ (p : Fin M) (q : Fin N), i = ix2 p q := ⟨i 0, i 1, eq_ix2 i⟩
  show max (matmul (DotDims.plain M K N) none h w (constant (F := Ideal) ⟨2, ![M, N]⟩ .f32 0x00000000#32) (ix2 p q)
      + broadcastTo ⟨2, ![M, N]⟩ b hbc (ix2 p q)) (Ideal.ofBits .bf16 0x0000#16) = max (mm h w (ix2 p q) + b (ix2 (0 : Fin 1) q)) 0
  rw [matmul_plain_zero, broadcastTo_1b_ab_apply, ofBits_zero_bf16]

/-- The first layer contracts the SIX packed coordinate rows of the x block against the six rows of the packed weights:
    row r of its result is the layer of column r of the block. -/
theorem stage1 (xc : FVec Ideal S6x8192 .bf16) (w : FVec Ideal S6x128 .bf16) (b : FVec Ideal S1x128 .bf16) :
    maximumf (addf (truncf .bf16 (matmul dot_S6x8192_S6x128_S8192x128_0_0_1_1_n_n none (shapeCast S6x8192 xc shapeCasts_S6x8192_S6x8192)
          (shapeCast S6x128 w shapeCasts_S6x128_S6x128) (constant (F := Ideal) S8192x128 .f32 0x00000000#32)) bitsLt_bf16_f32)
        (broadcastTo S8192x128 (shapeCast S1x128 b shapeCasts_S1x128_S1x128) broadcasts_S1x128_S8192x128))
        (broadcast S8192x128 (Scalar.ofBits (F := Ideal) .bf16 0x0000#16))
      = fun i => dense w b (fun k : Fin 6 => xc (ix2 k (i 0))) (i 1) := by
  rw [shapeCast_self, shapeCast_self, shapeCast_self]
  funext i
  obtain ⟨p, q, rfl⟩ : ∃ (p : Fin 8192) (q : Fin 128), i = ix2 p q := ⟨i 0, i 1, eq_ix2 i⟩
  show max (matmul dot_S6x8192_S6x128_S8192x128_0_0_1_1_n_n none xc w (constant (F := Ideal) S8192x128 .f32 0x00000000#32) (ix2 p q)
      + broadcastTo S8192x128 b broadcasts_S1x128_S8192x128 (ix2 p q)) (Ideal.ofBits .bf16 0x0000#16)
    = max (∑ k : Fin 6, xc (ix2 k p) * w (ix2 k q) + b (ix2 (0 : Fin 1) q)) 0
  rw [broadcastTo_1b_ab_apply, ofBits_zero_bf16]
  simp only [matmul]
  rw [Ideal.matmul_constant_zero_apply,
    ← Equiv.sum_comp (contrEquiv1 dot_S6x8192_S6x128_S8192x128_0_0_1_1_n_n 6 rfl rfl).symm]
  refine congrArg (fun s => max (s + b (ix2 (0 : Fin 1) q)) 0) (Finset.sum_congr rfl fun k _ => ?_)
  have hk := contrEquiv1_symm_val dot_S6x8192_S6x128_S8192x128_0_0_1_1_n_n 6 rfl rfl k
  have el : dot_S6x8192_S6x128_S8192x128_0_0_1_1_n_n.lhsIdx (ix2 p q)
      ((contrEquiv1 dot_S6x8192_S6x128_S8192x128_0_0_1_1_n_n 6 rfl rfl).symm k) = ix2 k p :=
    funext fun a => Fin.ext (by
      match a with
      | ⟨0, _⟩ => exact hk
      | ⟨1, _⟩ => rfl)
  have er : dot_S6x8192_S6x128_S8192x128_0_0_1_1_n_n.rhsIdx (ix2 p q)
      ((contrEquiv1 dot_S6x8192_S6x128_S8192x128_0_0_1_1_n_n 6 rfl rfl).symm k) = ix2 k q :=
    funext fun a => Fin.ext (by
      match a with
      | ⟨0, _⟩ => exact hk
      | ⟨1, _⟩ => rfl)
  exact congr (congrArg _ (congrArg xc el)) (congrArg w er)

/-- Row cc·1024 + p of an 8192-row matrix. -/
def rowAt (cc : Fin 8) (p : Fin 1024) : Fin 8192 := ⟨cc.val * 1024 + p.val, by have := cc.isLt; have := p.isLt; omega⟩

/-- The maximum over each cloud's 1024 consecutive rows of an 8192 × 256 matrix, as the vector unit takes it (the rows
    re-laid as 8 × 1024 and reduced along the middle axis from −∞). -/
theorem cloud_max (Z : FVec Ideal S8192x256 .f32) (cc : Fin 8) (J : Fin 256) :
    multiReduction (F := Ideal) .maximumf [1] S8x256 (shapeCast S8x1024x256 Z shapeCasts_S8192x256_S8x1024x256) 0xFF800000#32
        reduces_S8x1024x256_S8x256 (.inl rfl) rfl (ix2 cc J)
      = (Finset.univ : Finset (Fin 1024)).fold max negInf (fun p => Z (ix2 (rowAt cc p) J)) := by
  refine (Ideal.multiReduction_maximumf_single (shapeCast S8x1024x256 Z shapeCasts_S8192x256_S8x1024x256) 0xFF800000#32
    reduces_S8x1024x256_S8x256 (.inl rfl) rfl (ix2 cc J)).trans ?_
  refine congrArg (fun f => (Finset.univ : Finset (Fin 1024)).fold max negInf f) (funext fun p => ?_)
  show shapeCast S8x1024x256 Z shapeCasts_S8192x256_S8x1024x256 (reduces_S8x1024x256_S8x256.lift (ix2 cc J) p) = _
  refine shapeCast_apply Z _ _ (ix2 (rowAt cc p) J) ?_
  rw [Shape.rowMajor_val_two, Shape.rowMajor_val_three]
  show (cc.val * 1024 + p.val) * 256 + J.val = (cc.val * 1024 + p.val) * 256 + J.val
  rfl

/-- Entry (cc, J) of a chunk: the maximum over the 1024 points p of cloud cc of the packed row function of column
    cc·1024 + p of the chunk's x block. -/
theorem chunk_apply (xc : Vec Ideal S6x8192 .bf16) (w1 : Vec Ideal S6x128 .bf16) (b1 : Vec Ideal S1x128 .bf16) (w2 : Vec Ideal S128x128 .bf16)
    (b2 : Vec Ideal S1x128 .bf16) (w3 : Vec Ideal S128x128 .bf16) (b3 : Vec Ideal S1x128 .bf16) (w4 : Vec Ideal S128x256 .bf16)
    (b4 : Vec Ideal S1x256 .bf16) (w5 : Vec Ideal S256x256 .bf16) (cc : Fin 8) (J : Fin 256) :
    chunk xc w1 b1 w2 b2 w3 b3 w4 b4 w5 (ix2 cc J)
      = (Finset.univ : Finset (Fin 1024)).fold max negInf (fun p =>
          lin w5 (dense w4 b4 (dense w3 b3 (dense w2 b2 (dense w1 b1 (fun k : Fin 6 => xc (ix2 k (rowAt cc p))))))) J) := by
  unfold chunk k0_pay3 k0_pay2
  dsimp only
  rw [stage1 xc w1 b1]
  rw [stage dot_S8192x128_S128x128_S8192x128_1_0_0_1_n_n rfl _ w2 b2, stage dot_S8192x128_S128x128_S8192x128_1_0_0_1_n_n rfl _ w3 b3,
    stage dot_S8192x128_S128x256_S8192x256_1_0_0_1_n_n rfl _ w4 b4]
  refine (cloud_max _ cc J).trans ?_
  refine congrArg (fun f => (Finset.univ : Finset (Fin 1024)).fold max negInf f) (funext fun p => ?_)
  rw [shapeCast_self]
  show matmul (DotDims.plain 8192 256 256) none _ w5 (constant (F := Ideal) ⟨2, ![8192, 256]⟩ .f32 0x00000000#32) (ix2 (rowAt cc p) J) = _
  rw [matmul_plain_zero]
  rfl

end Cert.KernelIdeal.Feat

end
-- ==== Proof.FeatKernelFinish.lean ====
/-
  The end of the packed features body, entry by entry.

  The eight chunks' 8 × 256 maxima are set one under the other (row c·8 + cc of the 64 × 256 result is row cc of
  chunk c), the last bias row is added, the maximum with zero is taken, and the two 128-lane halves are set one
  under the other: row g·64 + cl of the 128 × 128 block is half g of row cl.
-/
import proofs.«171346_g2000606842809313_pallasbulk_193_5_alg».proof.Proof.FeatKernelBody
import proofs.«171346_g2000606842809313_pallasbulk_193_5_alg».proof.Proof.Packed

noncomputable section

open scoped BigOperators

namespace Cert.KernelIdeal.Feat

open Idealize.ShloMosaic Idealize.ShloMosaic.ValueIdx Idealize.SL.Sem Cert.KernelIdeal Cert.KernelIdeal.Gen Cert.Dense Cert.PointNet

/-- Row c·8 + cc of a 64-row matrix. -/
def row64 (c cc : Fin 8) : Fin 64 := ⟨c.val * 8 + cc.val, by have := c.isLt; have := cc.isLt; omega⟩

/-- Eight 8 × 256 pieces one under the other: row c·8 + cc is row cc of piece c. -/
theorem concat8_apply (cs : Fin 8 → FVec Ideal S8x256 .f32) (c cc : Fin 8) (J : Fin 256) :
    concatenate S64x256 0 [⟨S8x256, cs 0⟩, ⟨S8x256, cs 1⟩, ⟨S8x256, cs 2⟩, ⟨S8x256, cs 3⟩, ⟨S8x256, cs 4⟩, ⟨S8x256, cs 5⟩, ⟨S8x256, cs 6⟩, ⟨S8x256, cs 7⟩]
        concatenates_S8x256_S8x256_S8x256_S8x256_S8x256_S8x256_S8x256_S8x256_S64x256_d0 (ix2 (row64 c cc) J)
      = cs c (ix2 cc J) :=
  concatenate_ofFn_apply (t := S64x256) (s₁ := S8x256) 0 cs concatenates_S8x256_S8x256_S8x256_S8x256_S8x256_S8x256_S8x256_S8x256_S64x256_d0
    rfl 8 rfl (ix2 (row64 c cc) J) c (by show (c.val * 8 + cc.val) / 8 = c.val; omega) (ix2 cc J)
    (by show cc.val = (c.val * 8 + cc.val) % 8; omega)
    (fun b hb => by
      match b with
      | ⟨0, _⟩ => exact absurd rfl hb
      | ⟨1, _⟩ => rfl)

theorem h64 : 2 * 64 = 128 := by norm_num
theorem h128 : 2 * 128 = 256 := by norm_num

/-- Entry (g·64 + c·8 + cc, jj) of the block the body leaves: the rectified, biased maximum of chunk c at row cc, lane
    g·128 + jj. -/
theorem finish_apply (cs : Fin 8 → FVec Ideal S8x256 .f32) (b5 : Vec Ideal S1x256 .f32) (g : Fin 2) (c cc : Fin 8) (jj : Fin 128) :
    finish (cs 0) (cs 1) (cs 2) (cs 3) (cs 4) (cs 5) (cs 6) (cs 7) b5 (ix2 (pk h64 g (row64 c cc)) jj)
      = max (cs c (ix2 cc (pk h128 g jj)) + b5 (ix2 (0 : Fin 1) (pk h128 g jj))) 0 := by
  unfold finish
  have key : ∀ J : Fin 256, maximumf (addf (concatenate S64x256 0 [⟨S8x256, cs 0⟩, ⟨S8x256, cs 1⟩, ⟨S8x256, cs 2⟩, ⟨S8x256, cs 3⟩, ⟨S8x256, cs 4⟩, ⟨S8x256, cs 5⟩, ⟨S8x256, cs 6⟩, ⟨S8x256, cs 7⟩]
        concatenates_S8x256_S8x256_S8x256_S8x256_S8x256_S8x256_S8x256_S8x256_S64x256_d0)
        (broadcastTo S64x256 (shapeCast S1x256 b5 shapeCasts_S1x256_S1x256) broadcasts_S1x256_S64x256))
        (broadcast S64x256 (Scalar.ofBits (F := Ideal) .f32 0x00000000#32)) (ix2 (row64 c cc) J)
      = max (cs c (ix2 cc J) + b5 (ix2 (0 : Fin 1) J)) 0 := by
    intro J
    show max (concatenate S64x256 0 _ _ (ix2 (row64 c cc) J) + broadcastTo S64x256 (shapeCast S1x256 b5 shapeCasts_S1x256_S1x256) broadcasts_S1x256_S64x256 (ix2 (row64 c cc) J))
      (Ideal.ofBits .f32 0x00000000#32) = _
    rw [concat8_apply cs c cc J, shapeCast_self, broadcastTo_1b_ab_apply, Ideal.ofBits_zero_f32]
  match g with
  | ⟨0, _⟩ =>
    refine (concatenate_pair_apply_left 0 _ _ concatenates_S64x128_S64x128_S128x128_d0 _ rfl (ix2 (row64 c cc) jj) (fun b => by
      match b with
      | ⟨0, _⟩ => show c.val * 8 + cc.val = 0 * 64 + (c.val * 8 + cc.val); omega
      | ⟨1, _⟩ => rfl)).trans ?_
    refine (extractStridedSlice_apply _ _ slices_S64x256_o0_0_S64x128 _ (ix2 (row64 c cc) (pk h128 ⟨0, by omega⟩ jj)) (fun a => by
      match a with
      | ⟨0, _⟩ => show c.val * 8 + cc.val = 0 + (c.val * 8 + cc.val); omega
      | ⟨1, _⟩ => show 0 * 128 + jj.val = 0 + jj.val; omega)).trans ?_
    exact key _
  | ⟨1, _⟩ =>
    refine (concatenate_pair_apply_right 0 _ _ concatenates_S64x128_S64x128_S128x128_d0 _ rfl rfl (ix2 (row64 c cc) jj) (fun b hb => by
      match b with
      | ⟨0, _⟩ => exact absurd rfl hb
      | ⟨1, _⟩ => rfl) (by show c.val * 8 + cc.val + 64 = 1 * 64 + (c.val * 8 + cc.val); omega)).trans ?_
    refine (extractStridedSlice_apply _ _ slices_S64x256_o0_128_S64x128 _ (ix2 (row64 c cc) (pk h128 ⟨1, by omega⟩ jj)) (fun a => by
      match a with
      | ⟨0, _⟩ => show c.val * 8 + cc.val = 0 + (c.val * 8 + cc.val); omega
      | ⟨1, _⟩ => show 1 * 128 + jj.val = 128 + jj.val; omega)).trans ?_
    exact key _

end Cert.KernelIdeal.Feat

end
-- ==== Proof.FeatKernel.lean ====
/-
  The packed features region as one function of its arrays.

  Grid point t handles clouds 128·t … 128·t + 127: its x block is the 65536 packed columns of those clouds (half g of
  the six coordinate rows holds clouds 128·t + 64·g …), every weight and bias window is whole, and its output block is
  rows 128·t … of the pooled array. Entry (128·t + 64·g + cl, j) of the pooled array is therefore the rectified,
  biased maximum over the 1024 points of that cloud of the point's features: the blocks of the sixteen points tile
  the array.
-/
import proofs.«171346_g2000606842809313_pallasbulk_193_5_alg».proof.Proof.FeatKernelChunk
import proofs.«171346_g2000606842809313_pallasbulk_193_5_alg».proof.Proof.FeatKernelFinish
import proofs.«171346_g2000606842809313_pallasbulk_193_5_alg».proof.Proof.Packed

noncomputable section

open scoped BigOperators

namespace Cert.KernelIdeal.Feat

open Idealize.ShloMosaic Idealize.ShloMosaic.TcCoe Idealize.ShloMosaic.ValueIdx Idealize.SL.Sem Cert.KernelIdeal Cert.KernelIdeal.Gen Cert.Dense Cert.PointNet
open Idealize.ShloMosaic.Pipeline (Dat)

theorem h3 : 2 * 3 = 6 := by norm_num

theorem hz : (![0, 0] : Fin 2 → Nat) = fun _ => 0 := funext fun a => by fin_cases a <;> rfl

/-- A chunk's loaded columns are the x block's columns from its offset on. -/
theorem ld_cols (X : Vec Ideal S6x65536 .bf16) (off : ℕ) (inb : ∀ a, (![0, off] : Fin 2 → ℕ) a + S6x8192.size a ≤ S6x65536.size a)
    (r : Fin 6) (q : Fin 8192) (col : Fin 65536) (h : col.val = off + q.val) :
    View.ld X (Rect.unit (s := S6x65536) ![0, off] S6x8192.size inb) (ix2 r q) = X (ix2 r col) := by
  show X ((Rect.unit (s := S6x65536) ![0, off] S6x8192.size inb).idx (ix2 r q)) = X (ix2 r col)
  congr 1
  funext a; apply Fin.ext
  match a with
  | ⟨0, _⟩ => show 0 + 1 * r.val = r.val; omega
  | ⟨1, _⟩ => show off + 1 * q.val = col.val; omega

/-- Column 8192·c' + 1024·cc + p of a grid point's x block: point p of cloud cc of chunk c'. -/
def colAt (c' cc : Fin 8) (p : Fin 1024) : Fin 65536 :=
  ⟨c'.val * 8192 + (cc.val * 1024 + p.val), by have := c'.isLt; have := cc.isLt; have := p.isLt; omega⟩

/-- The eight chunks of a grid point's x block. -/
def chunks (X : Vec Ideal S6x65536 .bf16) (w1 : Vec Ideal S6x128 .bf16) (b1 : Vec Ideal S1x128 .bf16) (w2 : Vec Ideal S128x128 .bf16)
    (b2 : Vec Ideal S1x128 .bf16) (w3 : Vec Ideal S128x128 .bf16) (b3 : Vec Ideal S1x128 .bf16) (w4 : Vec Ideal S128x256 .bf16)
    (b4 : Vec Ideal S1x256 .bf16) (w5 : Vec Ideal S256x256 .bf16) : Fin 8 → FVec Ideal S8x256 .f32
  | ⟨0, _⟩ => chunk (View.ld X r0_0) w1 b1 w2 b2 w3 b3 w4 b4 w5
  | ⟨1, _⟩ => chunk (View.ld X r0_7) w1 b1 w2 b2 w3 b3 w4 b4 w5
  | ⟨2, _⟩ => chunk (View.ld X r0_8) w1 b1 w2 b2 w3 b3 w4 b4 w5
  | ⟨3, _⟩ => chunk (View.ld X r0_9) w1 b1 w2 b2 w3 b3 w4 b4 w5
  | ⟨4, _⟩ => chunk (View.ld X r0_10) w1 b1 w2 b2 w3 b3 w4 b4 w5
  | ⟨5, _⟩ => chunk (View.ld X r0_11) w1 b1 w2 b2 w3 b3 w4 b4 w5
  | ⟨6, _⟩ => chunk (View.ld X r0_12) w1 b1 w2 b2 w3 b3 w4 b4 w5
  | ⟨7, _⟩ => chunk (View.ld X r0_13) w1 b1 w2 b2 w3 b3 w4 b4 w5
  | ⟨_ + 8, h⟩ => absurd h (Nat.not_lt.2 (Nat.le_add_left _ _))

/-- What the body leaves in the output block, the chunks named by their number. -/
theorem out_eq' (x0 : Vec Ideal S6x65536 .bf16) (x1 : Vec Ideal S6x128 .bf16) (x2 : Vec Ideal S1x128 .bf16) (x3 : Vec Ideal S128x128 .bf16)
    (x4 : Vec Ideal S1x128 .bf16) (x5 : Vec Ideal S128x128 .bf16) (x6 : Vec Ideal S1x128 .bf16) (x7 : Vec Ideal S128x256 .bf16)
    (x8 : Vec Ideal S1x256 .bf16) (x9 : Vec Ideal S256x256 .bf16) (x10 : Vec Ideal S1x256 .f32) :
    out0_11 (F := Ideal) x0 x1 x2 x3 x4 x5 x6 x7 x8 x9 x10
      = View.canon [⟨r0_3, finish
          (chunks x0 (View.ld x1 r0_1) (View.ld x2 r0_2) (View.ld x3 r0_3) (View.ld x4 r0_2) (View.ld x5 r0_3) (View.ld x6 r0_2) (View.ld x7 r0_4) (View.ld x8 r0_5) (View.ld x9 r0_6) 0)
          (chunks x0 (View.ld x1 r0_1) (View.ld x2 r0_2) (View.ld x3 r0_3) (View.ld x4 r0_2) (View.ld x5 r0_3) (View.ld x6 r0_2) (View.ld x7 r0_4) (View.ld x8 r0_5) (View.ld x9 r0_6) 1)
          (chunks x0 (View.ld x1 r0_1) (View.ld x2 r0_2) (View.ld x3 r0_3) (View.ld x4 r0_2) (View.ld x5 r0_3) (View.ld x6 r0_2) (View.ld x7 r0_4) (View.ld x8 r0_5) (View.ld x9 r0_6) 2)
          (chunks x0 (View.ld x1 r0_1) (View.ld x2 r0_2) (View.ld x3 r0_3) (View.ld x4 r0_2) (View.ld x5 r0_3) (View.ld x6 r0_2) (View.ld x7 r0_4) (View.ld x8 r0_5) (View.ld x9 r0_6) 3)
          (chunks x0 (View.ld x1 r0_1) (View.ld x2 r0_2) (View.ld x3 r0_3) (View.ld x4 r0_2) (View.ld x5 r0_3) (View.ld x6 r0_2) (View.ld x7 r0_4) (View.ld x8 r0_5) (View.ld x9 r0_6) 4)
          (chunks x0 (View.ld x1 r0_1) (View.ld x2 r0_2) (View.ld x3 r0_3) (View.ld x4 r0_2) (View.ld x5 r0_3) (View.ld x6 r0_2) (View.ld x7 r0_4) (View.ld x8 r0_5) (View.ld x9 r0_6) 5)
          (chunks x0 (View.ld x1 r0_1) (View.ld x2 r0_2) (View.ld x3 r0_3) (View.ld x4 r0_2) (View.ld x5 r0_3) (View.ld x6 r0_2) (View.ld x7 r0_4) (View.ld x8 r0_5) (View.ld x9 r0_6) 6)
          (chunks x0 (View.ld x1 r0_1) (View.ld x2 r0_2) (View.ld x3 r0_3) (View.ld x4 r0_2) (View.ld x5 r0_3) (View.ld x6 r0_2) (View.ld x7 r0_4) (View.ld x8 r0_5) (View.ld x9 r0_6) 7)
          (View.ld x10 r0_5)⟩] :=
  out_eq x0 x1 x2 x3 x4 x5 x6 x7 x8 x9 x10

/-- Entry (cc, J) of chunk c': the maximum over the points p of the packed row function of column 8192·c' + 1024·cc + p. -/
theorem chunks_apply (X : Vec Ideal S6x65536 .bf16) (w1 : Vec Ideal S6x128 .bf16) (b1 : Vec Ideal S1x128 .bf16) (w2 : Vec Ideal S128x128 .bf16)
    (b2 : Vec Ideal S1x128 .bf16) (w3 : Vec Ideal S128x128 .bf16) (b3 : Vec Ideal S1x128 .bf16) (w4 : Vec Ideal S128x256 .bf16)
    (b4 : Vec Ideal S1x256 .bf16) (w5 : Vec Ideal S256x256 .bf16) (c' cc : Fin 8) (J : Fin 256) :
    chunks X w1 b1 w2 b2 w3 b3 w4 b4 w5 c' (ix2 cc J)
      = (Finset.univ : Finset (Fin 1024)).fold max negInf (fun p =>
          lin w5 (dense w4 b4 (dense w3 b3 (dense w2 b2 (dense w1 b1 (fun k : Fin 6 => X (ix2 k (colAt c' cc p))))))) J) := by
  match c' with
  | ⟨0, _⟩ =>
    exact (chunk_apply (View.ld X r0_0) w1 b1 w2 b2 w3 b3 w4 b4 w5 cc J).trans
      (congrArg (fun f => (Finset.univ : Finset (Fin 1024)).fold max negInf f) (funext fun p =>
        congrArg (fun v => lin w5 (dense w4 b4 (dense w3 b3 (dense w2 b2 (dense w1 b1 v)))) J) (funext fun k =>
          ld_cols X 0 _ k (rowAt cc p) _ (by show 0 * 8192 + (cc.val * 1024 + p.val) = 0 + (cc.val * 1024 + p.val); omega))))
  | ⟨1, _⟩ =>
    exact (chunk_apply (View.ld X r0_7) w1 b1 w2 b2 w3 b3 w4 b4 w5 cc J).trans
      (congrArg (fun f => (Finset.univ : Finset (Fin 1024)).fold max negInf f) (funext fun p =>
        congrArg (fun v => lin w5 (dense w4 b4 (dense w3 b3 (dense w2 b2 (dense w1 b1 v)))) J) (funext fun k =>
          ld_cols X 8192 _ k (rowAt cc p) _ (by show 1 * 8192 + (cc.val * 1024 + p.val) = 8192 + (cc.val * 1024 + p.val); omega))))
  | ⟨2, _⟩ =>
    exact (chunk_apply (View.ld X r0_8) w1 b1 w2 b2 w3 b3 w4 b4 w5 cc J).trans
      (congrArg (fun f => (Finset.univ : Finset (Fin 1024)).fold max negInf f) (funext fun p =>
        congrArg (fun v => lin w5 (dense w4 b4 (dense w3 b3 (dense w2 b2 (dense w1 b1 v)))) J) (funext fun k =>
          ld_cols X 16384 _ k (rowAt cc p) _ (by show 2 * 8192 + (cc.val * 1024 + p.val) = 16384 + (cc.val * 1024 + p.val); omega))))
  | ⟨3, _⟩ =>
    exact (chunk_apply (View.ld X r0_9) w1 b1 w2 b2 w3 b3 w4 b4 w5 cc J).trans
      (congrArg (fun f => (Finset.univ : Finset (Fin 1024)).fold max negInf f) (funext fun p =>
        congrArg (fun v => lin w5 (dense w4 b4 (dense w3 b3 (dense w2 b2 (dense w1 b1 v)))) J) (funext fun k =>
          ld_cols X 24576 _ k (rowAt cc p) _ (by show 3 * 8192 + (cc.val * 1024 + p.val) = 24576 + (cc.val * 1024 + p.val); omega))))
  | ⟨4, _⟩ =>
    exact (chunk_apply (View.ld X r0_10) w1 b1 w2 b2 w3 b3 w4 b4 w5 cc J).trans
      (congrArg (fun f => (Finset.univ : Finset (Fin 1024)).fold max negInf f) (funext fun p =>
        congrArg (fun v => lin w5 (dense w4 b4 (dense w3 b3 (dense w2 b2 (dense w1 b1 v)))) J) (funext fun k =>
          ld_cols X 32768 _ k (rowAt cc p) _ (by show 4 * 8192 + (cc.val * 1024 + p.val) = 32768 + (cc.val * 1024 + p.val); omega))))
  | ⟨5, _⟩ =>
    exact (chunk_apply (View.ld X r0_11) w1 b1 w2 b2 w3 b3 w4 b4 w5 cc J).trans
      (congrArg (fun f => (Finset.univ : Finset (Fin 1024)).fold max negInf f) (funext fun p =>
        congrArg (fun v => lin w5 (dense w4 b4 (dense w3 b3 (dense w2 b2 (dense w1 b1 v)))) J) (funext fun k =>
          ld_cols X 40960 _ k (rowAt cc p) _ (by show 5 * 8192 + (cc.val * 1024 + p.val) = 40960 + (cc.val * 1024 + p.val); omega))))
  | ⟨6, _⟩ =>
    exact (chunk_apply (View.ld X r0_12) w1 b1 w2 b2 w3 b3 w4 b4 w5 cc J).trans
      (congrArg (fun f => (Finset.univ : Finset (Fin 1024)).fold max negInf f) (funext fun p =>
        congrArg (fun v => lin w5 (dense w4 b4 (dense w3 b3 (dense w2 b2 (dense w1 b1 v)))) J) (funext fun k =>
          ld_cols X 49152 _ k (rowAt cc p) _ (by show 6 * 8192 + (cc.val * 1024 + p.val) = 49152 + (cc.val * 1024 + p.val); omega))))
  | ⟨7, _⟩ =>
    exact (chunk_apply (View.ld X r0_13) w1 b1 w2 b2 w3 b3 w4 b4 w5 cc J).trans
      (congrArg (fun f => (Finset.univ : Finset (Fin 1024)).fold max negInf f) (funext fun p =>
        congrArg (fun v => lin w5 (dense w4 b4 (dense w3 b3 (dense w2 b2 (dense w1 b1 v)))) J) (funext fun k =>
          ld_cols X 57344 _ k (rowAt cc p) _ (by show 7 * 8192 + (cc.val * 1024 + p.val) = 57344 + (cc.val * 1024 + p.val); omega))))

/-- Row R of a 128-row block is row cc of chunk c' in half g. -/
theorem split_row (R : Fin 128) : ∃ (g : Fin 2) (c' cc : Fin 8), R = pk h64 g (row64 c' cc) := by
  have hR := R.isLt
  refine ⟨⟨R.val / 64, by omega⟩, ⟨R.val % 64 / 8, by omega⟩, ⟨R.val % 8, by omega⟩, Fin.ext ?_⟩
  show R.val = R.val / 64 * 64 + (R.val % 64 / 8 * 8 + R.val % 8)
  omega

section Blocks

variable (V : (c : Dev nD) → (b : Ref sig .tc) → Buf (Elt Ideal) ((c : Thread nD τ).loc b))

/-- The features region's index maps over its sixteen grid points: the x window moves along the columns and the output
    along the rows, one block per point; every weight and bias window is whole at every point. -/
theorem idx_facts : ∀ t : Fin cfg0.N, win0_0.index t (0 : Fin 2) = 0
    ∧ win0_0.index t (1 : Fin 2) = t.val
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0
    ∧ t.val < 16 :=
  (by decide +kernel : ∀ t : Fin grid0.N, _)

/-! The weight and bias windows hold their whole arrays at every point. -/

theorem iblk_w1 (c : Dev nD) (t : Fin cfg0.N) : iblk0 V c 1 t = (V c main_v14 : S6x128.Idx → Elt Ideal .bf16) := by
  have hf := idx_facts t
  funext j
  unfold iblk0
  rw [View.read_apply]
  show V c main_v14 (((cfg0.win 1).blk t).view.emb j) = V c main_v14 j
  congr 1
  funext a; apply Fin.ext
  match a with
  | ⟨0, _⟩ => show win0_1.index t (0 : Fin 2) * 6 + 1 * (j 0).val = (j 0).val; omega
  | ⟨1, _⟩ => show win0_1.index t (1 : Fin 2) * 128 + 1 * (j 1).val = (j 1).val; omega

theorem iblk_w2 (c : Dev nD) (t : Fin cfg0.N) : iblk0 V c 2 t = (V c main_v36 : S1x128.Idx → Elt Ideal .bf16) := by
  have hf := idx_facts t
  funext j
  unfold iblk0
  rw [View.read_apply]
  show V c main_v36 (((cfg0.win 2).blk t).view.emb j) = V c main_v36 j
  congr 1
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

theorem iblk_w3 (c : Dev nD) (t : Fin cfg0.N) : iblk0 V c 3 t = (V c main_v19 : S128x128.Idx → Elt Ideal .bf16) := by
  have hf := idx_facts t
  funext j
  unfold iblk0
  rw [View.read_apply]
  show V c main_v19 (((cfg0.win 3).blk t).view.emb j) = V c main_v19 j
  congr 1
  funext a; apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

theorem iblk_w4 (c : Dev nD) (t : Fin cfg0.N) : iblk0 V c 4 t = (V c main_v38 : S1x128.Idx → Elt Ideal .bf16) := by
  have hf := idx_facts t
  funext j
  unfold iblk0
  rw [View.read_apply]
  show V c main_v38 (((cfg0.win 4).blk t).view.emb j) = V c main_v38 j
  congr 1
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

theorem iblk_w5 (c : Dev nD) (t : Fin cfg0.N) : iblk0 V c 5 t = (V c main_v24 : S128x128.Idx → Elt Ideal .bf16) := by
  have hf := idx_facts t
  funext j
  unfold iblk0
  rw [View.read_apply]
  show V c main_v24 (((cfg0.win 5).blk t).view.emb j) = V c main_v24 j
  congr 1
  funext a; apply Fin.ext
  match a with
  | ⟨0, _⟩ => show win0_5.index t (0 : Fin 2) * 128 + 1 * (j 0).val = (j 0).val; omega
  | ⟨1, _⟩ => show win0_5.index t (1 : Fin 2) * 128 + 1 * (j 1).val = (j 1).val; omega

theorem iblk_w6 (c : Dev nD) (t : Fin cfg0.N) : iblk0 V c 6 t = (V c main_v40 : S1x128.Idx → Elt Ideal .bf16) := by
  have hf := idx_facts t
  funext j
  unfold iblk0
  rw [View.read_apply]
  show V c main_v40 (((cfg0.win 6).blk t).view.emb j) = V c main_v40 j
  congr 1
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

theorem iblk_w7 (c : Dev nD) (t : Fin cfg0.N) : iblk0 V c 7 t = (V c main_v29 : S128x256.Idx → Elt Ideal .bf16) := by
  have hf := idx_facts t
  funext j
  unfold iblk0
  rw [View.read_apply]
  show V c main_v29 (((cfg0.win 7).blk t).view.emb j) = V c main_v29 j
  congr 1
  funext a; apply Fin.ext
  match a with
  | ⟨0, _⟩ => show win0_7.index t (0 : Fin 2) * 128 + 1 * (j 0).val = (j 0).val; omega
  | ⟨1, _⟩ => show win0_7.index t (1 : Fin 2) * 256 + 1 * (j 1).val = (j 1).val; omega

theorem iblk_w8 (c : Dev nD) (t : Fin cfg0.N) : iblk0 V c 8 t = (V c main_v42 : S1x256.Idx → Elt Ideal .bf16) := by
  have hf := idx_facts t
  funext j
  unfold iblk0
  rw [View.read_apply]
  show V c main_v42 (((cfg0.win 8).blk t).view.emb j) = V c main_v42 j
  congr 1
  funext a; apply Fin.ext
  match a with
  | ⟨0, _⟩ => show win0_8.index t (0 : Fin 2) * 1 + 1 * (j 0).val = (j 0).val; omega
  | ⟨1, _⟩ => show win0_8.index t (1 : Fin 2) * 256 + 1 * (j 1).val = (j 1).val; omega

theorem iblk_w9 (c : Dev nD) (t : Fin cfg0.N) : iblk0 V c 9 t = (V c main_v34 : S256x256.Idx → Elt Ideal .bf16) := by
  have hf := idx_facts t
  funext j
  unfold iblk0
  rw [View.read_apply]
  show V c main_v34 (((cfg0.win 9).blk t).view.emb j) = V c main_v34 j
  congr 1
  funext a; apply Fin.ext
  match a with
  | ⟨0, _⟩ => show win0_9.index t (0 : Fin 2) * 256 + 1 * (j 0).val = (j 0).val; omega
  | ⟨1, _⟩ => show win0_9.index t (1 : Fin 2) * 256 + 1 * (j 1).val = (j 1).val; omega

theorem iblk_w10 (c : Dev nD) (t : Fin cfg0.N) : iblk0 V c 10 t = (V c main_v43 : S1x256.Idx → Elt Ideal .f32) := by
  have hf := idx_facts t
  funext j
  unfold iblk0
  rw [View.read_apply]
  show V c main_v43 (((cfg0.win 10).blk t).view.emb j) = V c main_v43 j
  congr 1
  funext a; apply Fin.ext
  match a with
  | ⟨0, _⟩ => show win0_10.index t (0 : Fin 2) * 1 + 1 * (j 0).val = (j 0).val; omega
  | ⟨1, _⟩ => show win0_10.index t (1 : Fin 2) * 256 + 1 * (j 1).val = (j 1).val; omega

/-- The x window's block at point t is columns 65536·t … of the re-laid clouds. -/
theorem iblk_w0 (c : Dev nD) (t : Fin cfg0.N) (j : S6x65536.Idx) (k : S6x1048576.Idx)
    (hk0 : (k 0).val = (j 0).val) (hk1 : (k 1).val = t.val * 65536 + (j 1).val) :
    iblk0 V c 0 t j = (V c main_v4 : S6x1048576.Idx → Elt Ideal .bf16) k := by
  have hf := idx_facts t
  unfold iblk0
  rw [View.read_apply]
  show V c main_v4 (((cfg0.win 0).blk t).view.emb j) = V c main_v4 k
  congr 1
  funext a; apply Fin.ext
  match a with
  | ⟨0, _⟩ => show win0_0.index t (0 : Fin 2) * 6 + 1 * (j 0).val = (k 0).val; omega
  | ⟨1, _⟩ => show win0_0.index t (1 : Fin 2) * 65536 + 1 * (j 1).val = (k 1).val; omega

/-- What the region is entered with, as far as the features need it: the re-laid clouds hold cloud 128·i + 64·g + cl's
    point p at row 3·g + k, column 65536·i + 1024·cl + p; the weights are block-diagonal and the biases doubled. -/
structure Entry (c : Dev nD) (x : Clouds) (w0 : Mat 3 64) (b0 : Mat 1 64) (w1 : Mat 64 64) (b1 : Mat 1 64) (w2 : Mat 64 64) (b2 : Mat 1 64)
    (w3 : Mat 64 128) (b3 : Mat 1 128) (w4 : Mat 128 128) (b4 : Mat 1 128) : Prop where
  hx : ∀ (g : Fin 2) (k : Fin 3) (i : Fin 16) (cl : Fin 64) (p : Fin 1024) (col : Fin 1048576) (B : Fin 2048),
    col.val = i.val * 65536 + cl.val * 1024 + p.val → B.val = i.val * 128 + g.val * 64 + cl.val →
    (V c main_v4 : S6x1048576.Idx → EReal) (ix2 (pk h3 g k) col) = x (ix3 B k p)
  h0 : BlockDiag h3 h64 (V c main_v14 : S6x128.Idx → EReal) w0
  hb0 : Dup h64 (V c main_v36 : S1x128.Idx → EReal) b0
  h1 : BlockDiag h64 h64 (V c main_v19 : S128x128.Idx → EReal) w1
  hb1 : Dup h64 (V c main_v38 : S1x128.Idx → EReal) b1
  h2 : BlockDiag h64 h64 (V c main_v24 : S128x128.Idx → EReal) w2
  hb2 : Dup h64 (V c main_v40 : S1x128.Idx → EReal) b2
  h3' : BlockDiag h64 h128 (V c main_v29 : S128x256.Idx → EReal) w3
  hb3 : Dup h128 (V c main_v42 : S1x256.Idx → EReal) b3
  h4 : BlockDiag h128 h128 (V c main_v34 : S256x256.Idx → EReal) w4
  hb4 : Dup h128 (V c main_v43 : S1x256.Idx → EReal) b4

variable {c : Dev nD} {x : Clouds} {w0 : Mat 3 64} {b0 : Mat 1 64} {w1 : Mat 64 64} {b1 : Mat 1 64} {w2 : Mat 64 64} {b2 : Mat 1 64}
  {w3 : Mat 64 128} {b3 : Mat 1 128} {w4 : Mat 128 128} {b4 : Mat 1 128}

set_option maxHeartbeats 1600000 in
/-- What point t writes back is block t of the pooled features of the whole array of clouds. -/
theorem flushed_eq (hE : Entry V c x w0 b0 w1 b1 w2 b2 w3 b3 w4 b4) (t : Fin cfg0.N) :
    (dat0 V c).flushed 11 t = ((cfg0.win 11).blk t).view.read (Elt Ideal) (pooledBefore x w0 b0 w1 b1 w2 b2 w3 b3 w4 b4) := by
  show (cfg0.win 11).cut (grid0.coords t) ((dat0 V c).after 11 t) = _
  rw [after0_11, out_eq', View.canon_unit_zero hz]
  have hf := idx_facts t
  have ht : t.val < 16 := hf.2.2.2.2.2.2.2.2.2.2.2.2.2.2.2.2.2.2.2.2.2.2.2.2
  funext y
  obtain ⟨R, jj, rfl⟩ : ∃ (R : Fin 128) (jj : Fin 128), y = ix2 R jj := ⟨y 0, y 1, eq_ix2 y⟩
  obtain ⟨g, c', cc, rfl⟩ := split_row R
  have hB : t.val * 128 + g.val * 64 + (row64 c' cc).val < 2048 := by
    have := g.isLt; have := (row64 c' cc).isLt; omega
  have he : ((cfg0.win 11).blk t).view.emb (ix2 (pk h64 g (row64 c' cc)) jj)
      = ix2 (⟨t.val * 128 + g.val * 64 + (row64 c' cc).val, hB⟩ : Fin 2048) jj := by
    funext a; apply Fin.ext
    match a with
    | ⟨0, _⟩ => show win0_11.index t (0 : Fin 2) * 128 + 1 * (g.val * 64 + (row64 c' cc).val) = t.val * 128 + g.val * 64 + (row64 c' cc).val; omega
    | ⟨1, _⟩ => show win0_11.index t (1 : Fin 2) * 128 + 1 * jj.val = jj.val; omega
  refine (finish_apply (chunks (iblk0 V c 0 t) (View.ld (iblk0 V c 1 t) r0_1) (View.ld (iblk0 V c 2 t) r0_2) (View.ld (iblk0 V c 3 t) r0_3) (View.ld (iblk0 V c 4 t) r0_2) (View.ld (iblk0 V c 5 t) r0_3) (View.ld (iblk0 V c 6 t) r0_2) (View.ld (iblk0 V c 7 t) r0_4) (View.ld (iblk0 V c 8 t) r0_5) (View.ld (iblk0 V c 9 t) r0_6)) (View.ld (iblk0 V c 10 t) r0_5) g c' cc jj).trans ?_
  rw [chunks_apply]
  show _ = pooledBefore x w0 b0 w1 b1 w2 b2 w3 b3 w4 b4 (((cfg0.win 11).blk t).view.emb (ix2 (pk h64 g (row64 c' cc)) jj))
  rw [he]
  simp only [View.ld_unit_zero (S := S6x128) hz, View.ld_unit_zero (S := S1x128) hz, View.ld_unit_zero (S := S128x128) hz,
    View.ld_unit_zero (S := S128x256) hz, View.ld_unit_zero (S := S1x256) hz, View.ld_unit_zero (S := S256x256) hz]
  rw [iblk_w1, iblk_w2, iblk_w3, iblk_w4, iblk_w5, iblk_w6, iblk_w7, iblk_w8, iblk_w9, iblk_w10]
  have hld : View.ld (V c main_v43 : S1x256.Idx → Elt Ideal .f32) r0_5 = V c main_v43 := View.ld_unit_zero (S := S1x256) hz _ _
  rw [hld, hE.hb4 g jj]
  unfold pooledBefore
  refine congrArg (fun f => max ((Finset.univ : Finset (Fin 1024)).fold max negInf f + b4 (ix2 (0 : Fin 1) jj)) 0) (funext fun p => ?_)
  refine (congrFun (feat_packed (V c main_v14) (V c main_v36) (V c main_v19) (V c main_v38) (V c main_v24) (V c main_v40) (V c main_v29) (V c main_v42) (V c main_v34) w0 b0 w1 b1 w2 b2 w3 b3 w4
    hE.h0 hE.hb0 hE.h1 hE.hb1 hE.h2 hE.hb2 hE.h3' hE.hb3 hE.h4
    (fun k : Fin 6 => iblk0 V c 0 t (ix2 k (colAt c' cc p))) g) jj).trans ?_
  refine congrArg (fun v => feat w0 b0 w1 b1 w2 b2 w3 b3 w4 v jj) (funext fun k => ?_)
  show iblk0 V c 0 t (ix2 (pk h3 g k) (colAt c' cc p)) = x (ix3 _ k p)
  have hcol : t.val * 65536 + (colAt c' cc p).val < 1048576 := by have := (colAt c' cc p).isLt; omega
  rw [iblk_w0 V c t _ (ix2 (pk h3 g k) ⟨t.val * 65536 + (colAt c' cc p).val, hcol⟩) rfl rfl]
  exact hE.hx g k ⟨t.val, ht⟩ (row64 c' cc) p _ _
    (by show t.val * 65536 + (c'.val * 8192 + (cc.val * 1024 + p.val)) = t.val * 65536 + (c'.val * 8 + cc.val) * 1024 + p.val; omega)
    rfl

/-- An index of the pooled array is in point t's block iff each coordinate is in the block's range on its axis. -/
theorem mem_blk (t : Fin cfg0.N) (i : S2048x128.Idx) :
    i ∈ ((cfg0.win 11).blk t).view.set ↔ ∀ a : Fin 2, win0_11.index t a * S128x128.size a ≤ (i a).val ∧ (i a).val < win0_11.index t a * S128x128.size a + S128x128.size a := by
  show i ∈ ((View.whole main_v44).slice (win0_11.rect t)).set ↔ _
  rw [View.set_slice_whole, Rect.mem_set_unit]
  exact Iff.rfl

/-- The sixteen blocks of 128 rows cover the 2048 rows: row r is in the block of point r / 128. -/
theorem cover (i : S2048x128.Idx) : ∃ t : Fin cfg0.N, (cfg0.win 11).flush t = true ∧ i ∈ ((cfg0.win 11).blk t).view.set := by
  have hi0 : (i 0).val < 2048 := (i 0).isLt
  have hi1 : (i 1).val < 128 := (i 1).isLt
  have hN : cfg0.N = 16 := N_0
  have htv : ∀ (t : Fin cfg0.N), t.val = (i 0).val / 128 → i ∈ ((cfg0.win 11).blk t).view.set := fun t h => by
    have hf := idx_facts t
    rw [mem_blk]
    intro a
    match a with
    | ⟨0, _⟩ => show win0_11.index t (0 : Fin 2) * 128 ≤ (i 0).val ∧ (i 0).val < win0_11.index t (0 : Fin 2) * 128 + 128; omega
    | ⟨1, _⟩ => show win0_11.index t (1 : Fin 2) * 128 ≤ (i 1).val ∧ (i 1).val < win0_11.index t (1 : Fin 2) * 128 + 128; omega
  exact ⟨⟨(i 0).val / 128, by rw [hN]; omega⟩, flush0_11 _, htv _ rfl⟩

/-- So the pooled array the features region leaves is the pooled features of the whole array of clouds. -/
theorem final (hE : Entry V c x w0 b0 w1 b1 w2 b2 w3 b3 w4 b4) :
    (dat0 V c).arrAt 11 cfg0.N = pooledBefore x w0 b0 w1 b1 w2 b2 w3 b3 w4 b4 :=
  (dat0 V c).arrAt_eq_of_cover 11 _ (fun t _ => flushed_eq V hE t) cover

end Blocks

end Cert.KernelIdeal.Feat

end
-- ==== Proof.FeatKernelHostA.lean ====
/-
  The arrays the packed features region is entered with, as the host operations before it leave them: the re-laid
  clouds, the packed first-layer weights, and the first two block-diagonal weight matrices.
-/
import proofs.«171346_g2000606842809313_pallasbulk_193_5_alg».proof.Proof.Gen.KernelIdeal.Frame
import proofs.«171346_g2000606842809313_pallasbulk_193_5_alg».proof.Proof.Spec

noncomputable section

open scoped BigOperators

namespace Cert.KernelIdeal.Feat

open Idealize.ShloMosaic Idealize.ShloMosaic.TcCoe Idealize.ShloMosaic.Tactic Idealize.ShloMosaic.StableHlo Idealize.SL.Sem Cert.KernelIdeal Cert.KernelIdeal.Gen

variable (m : (ℓ : Loc nD τ sig) → Buf (Elt Ideal) ℓ) (ρ : Dev nD → PrngReg) (c : Dev nD)

set_option maxHeartbeats 8000000 in
/-- What the features region finds at main_v4: the host operations before it, composed. -/
theorem V1_main_v4 : (Gen.V1 (F := Ideal) m ρ c main_v4 : S6x1048576.Idx → EReal) = truncf (F := Ideal) .bf16 (shapeCast S6x1048576 (transpose S2x3x16x65536 [2, 0, 1, 3] (shapeCast S3x16x2x65536 (transpose S3x2048x1024 [1, 0, 2] (m ((c.tc : Thread nD τ).loc main_arg0)) transposes_S2048x3x1024_S3x2048x1024_1_0_2) shapeCasts_S3x2048x1024_S3x16x2x65536) transposes_S3x16x2x65536_S2x3x16x65536_2_0_1_3) shapeCasts_S2x3x16x65536_S6x1048576) bitsLt_bf16_f32 := by
  show StableHlo.after (hostOps0 (F := Ideal)) (Gen.W0 m ρ c) (Proc.devRef .tc main_v4) = _
  after_results
  all_goals rfl

set_option maxHeartbeats 8000000 in
/-- What the features region finds at main_v14: the host operations before it, composed. -/
theorem V1_main_v14 : (Gen.V1 (F := Ideal) m ρ c main_v14 : S6x128.Idx → EReal) = truncf (F := Ideal) .bf16 (Host.scatter scatter_S6x128_S2_S3x64_01_n_01_0 (fun _ b => b) (Host.scatter scatter_S6x128_S2_S3x64_01_n_01_0 (fun _ b => b) (broadcastInDim S6x128 ![] bcast_S_S6x128 (constant (F := Ideal) S_ .f32 0x00000000#32)) (concatenate S2 0 [⟨S1, broadcastInDim S1 ![] bcast_S_S1 (constantI S_ 32 0#32)⟩, ⟨S1, broadcastInDim S1 ![] bcast_S_S1 (constantI S_ 32 0#32)⟩] concatenates_S1_S1_S2_d0) (m ((c.tc : Thread nD τ).loc main_arg1))) (concatenate S2 0 [⟨S1, broadcastInDim S1 ![] bcast_S_S1 (constantI S_ 32 3#32)⟩, ⟨S1, broadcastInDim S1 ![] bcast_S_S1 (constantI S_ 32 64#32)⟩] concatenates_S1_S1_S2_d0) (m ((c.tc : Thread nD τ).loc main_arg1))) bitsLt_bf16_f32 := by
  show StableHlo.after (hostOps0 (F := Ideal)) (Gen.W0 m ρ c) (Proc.devRef .tc main_v14) = _
  after_results
  all_goals rfl

set_option maxHeartbeats 8000000 in
/-- What the features region finds at main_v19: the host operations before it, composed. -/
theorem V1_main_v19 : (Gen.V1 (F := Ideal) m ρ c main_v19 : S128x128.Idx → EReal) = truncf (F := Ideal) .bf16 (concatenate S128x128 0 [⟨S64x128, concatenate S64x128 1 [⟨S64x64, (m ((c.tc : Thread nD τ).loc main_arg3))⟩, ⟨S64x64, broadcastInDim S64x64 ![] bcast_S_S64x64 (constant (F := Ideal) S_ .f32 0x00000000#32)⟩] concatenates_S64x64_S64x64_S64x128_d1⟩, ⟨S64x128, concatenate S64x128 1 [⟨S64x64, broadcastInDim S64x64 ![] bcast_S_S64x64 (constant (F := Ideal) S_ .f32 0x00000000#32)⟩, ⟨S64x64, (m ((c.tc : Thread nD τ).loc main_arg3))⟩] concatenates_S64x64_S64x64_S64x128_d1⟩] concatenates_S64x128_S64x128_S128x128_d0) bitsLt_bf16_f32 := by
  show StableHlo.after (hostOps0 (F := Ideal)) (Gen.W0 m ρ c) (Proc.devRef .tc main_v19) = _
  after_results
  all_goals rfl

set_option maxHeartbeats 8000000 in
/-- What the features region finds at main_v24: the host operations before it, composed. -/
theorem V1_main_v24 : (Gen.V1 (F := Ideal) m ρ c main_v24 : S128x128.Idx → EReal) = truncf (F := Ideal) .bf16 (concatenate S128x128 0 [⟨S64x128, concatenate S64x128 1 [⟨S64x64, (m ((c.tc : Thread nD τ).loc main_arg5))⟩, ⟨S64x64, broadcastInDim S64x64 ![] bcast_S_S64x64 (constant (F := Ideal) S_ .f32 0x00000000#32)⟩] concatenates_S64x64_S64x64_S64x128_d1⟩, ⟨S64x128, concatenate S64x128 1 [⟨S64x64, broadcastInDim S64x64 ![] bcast_S_S64x64 (constant (F := Ideal) S_ .f32 0x00000000#32)⟩, ⟨S64x64, (m ((c.tc : Thread nD τ).loc main_arg5))⟩] concatenates_S64x64_S64x64_S64x128_d1⟩] concatenates_S64x128_S64x128_S128x128_d0) bitsLt_bf16_f32 := by
  show StableHlo.after (hostOps0 (F := Ideal)) (Gen.W0 m ρ c) (Proc.devRef .tc main_v24) = _
  after_results
  all_goals rfl

end Cert.KernelIdeal.Feat

end
-- ==== Proof.FeatKernelHostB.lean ====
/-
  The arrays the packed features region is entered with, as the host operations before it leave them: the last two
  block-diagonal weight matrices and the five doubled bias rows.
-/
import proofs.«171346_g2000606842809313_pallasbulk_193_5_alg».proof.Proof.Gen.KernelIdeal.Frame
import proofs.«171346_g2000606842809313_pallasbulk_193_5_alg».proof.Proof.Spec

noncomputable section

open scoped BigOperators

namespace Cert.KernelIdeal.Feat

open Idealize.ShloMosaic Idealize.ShloMosaic.TcCoe Idealize.ShloMosaic.Tactic Idealize.ShloMosaic.StableHlo Idealize.SL.Sem Cert.KernelIdeal Cert.KernelIdeal.Gen

variable (m : (ℓ : Loc nD τ sig) → Buf (Elt Ideal) ℓ) (ρ : Dev nD → PrngReg) (c : Dev nD)

set_option maxHeartbeats 8000000 in
/-- What the features region finds at main_v29: the host operations before it, composed. -/
theorem V1_main_v29 : (Gen.V1 (F := Ideal) m ρ c main_v29 : S128x256.Idx → EReal) = truncf (F := Ideal) .bf16 (concatenate S128x256 0 [⟨S64x256, concatenate S64x256 1 [⟨S64x128, (m ((c.tc : Thread nD τ).loc main_arg7))⟩, ⟨S64x128, broadcastInDim S64x128 ![] bcast_S_S64x128 (constant (F := Ideal) S_ .f32 0x00000000#32)⟩] concatenates_S64x128_S64x128_S64x256_d1⟩, ⟨S64x256, concatenate S64x256 1 [⟨S64x128, broadcastInDim S64x128 ![] bcast_S_S64x128 (constant (F := Ideal) S_ .f32 0x00000000#32)⟩, ⟨S64x128, (m ((c.tc : Thread nD τ).loc main_arg7))⟩] concatenates_S64x128_S64x128_S64x256_d1⟩] concatenates_S64x256_S64x256_S128x256_d0) bitsLt_bf16_f32 := by
  show StableHlo.after (hostOps0 (F := Ideal)) (Gen.W0 m ρ c) (Proc.devRef .tc main_v29) = _
  after_results
  all_goals rfl

set_option maxHeartbeats 8000000 in
/-- What the features region finds at main_v34: the host operations before it, composed. -/
theorem V1_main_v34 : (Gen.V1 (F := Ideal) m ρ c main_v34 : S256x256.Idx → EReal) = truncf (F := Ideal) .bf16 (concatenate S256x256 0 [⟨S128x256, concatenate S128x256 1 [⟨S128x128, (m ((c.tc : Thread nD τ).loc main_arg9))⟩, ⟨S128x128, broadcastInDim S128x128 ![] bcast_S_S128x128 (constant (F := Ideal) S_ .f32 0x00000000#32)⟩] concatenates_S128x128_S128x128_S128x256_d1⟩, ⟨S128x256, concatenate S128x256 1 [⟨S128x128, broadcastInDim S128x128 ![] bcast_S_S128x128 (constant (F := Ideal) S_ .f32 0x00000000#32)⟩, ⟨S128x128, (m ((c.tc : Thread nD τ).loc main_arg9))⟩] concatenates_S128x128_S128x128_S128x256_d1⟩] concatenates_S128x256_S128x256_S256x256_d0) bitsLt_bf16_f32 := by
  show StableHlo.after (hostOps0 (F := Ideal)) (Gen.W0 m ρ c) (Proc.devRef .tc main_v34) = _
  after_results
  all_goals rfl

set_option maxHeartbeats 8000000 in
/-- What the features region finds at main_v36: the host operations before it, composed. -/
theorem V1_main_v36 : (Gen.V1 (F := Ideal) m ρ c main_v36 : S1x128.Idx → EReal) = truncf (F := Ideal) .bf16 (concatenate S1x128 1 [⟨S1x64, (m ((c.tc : Thread nD τ).loc main_arg2))⟩, ⟨S1x64, (m ((c.tc : Thread nD τ).loc main_arg2))⟩] concatenates_S1x64_S1x64_S1x128_d1) bitsLt_bf16_f32 := by
  show StableHlo.after (hostOps0 (F := Ideal)) (Gen.W0 m ρ c) (Proc.devRef .tc main_v36) = _
  after_results
  all_goals rfl

set_option maxHeartbeats 8000000 in
/-- What the features region finds at main_v38: the host operations before it, composed. -/
theorem V1_main_v38 : (Gen.V1 (F := Ideal) m ρ c main_v38 : S1x128.Idx → EReal) = truncf (F := Ideal) .bf16 (concatenate S1x128 1 [⟨S1x64, (m ((c.tc : Thread nD τ).loc main_arg4))⟩, ⟨S1x64, (m ((c.tc : Thread nD τ).loc main_arg4))⟩] concatenates_S1x64_S1x64_S1x128_d1) bitsLt_bf16_f32 := by
  show StableHlo.after (hostOps0 (F := Ideal)) (Gen.W0 m ρ c) (Proc.devRef .tc main_v38) = _
  after_results
  all_goals rfl

set_option maxHeartbeats 8000000 in
/-- What the features region finds at main_v40: the host operations before it, composed. -/
theorem V1_main_v40 : (Gen.V1 (F := Ideal) m ρ c main_v40 : S1x128.Idx → EReal) = truncf (F := Ideal) .bf16 (concatenate S1x128 1 [⟨S1x64, (m ((c.tc : Thread nD τ).loc main_arg6))⟩, ⟨S1x64, (m ((c.tc : Thread nD τ).loc main_arg6))⟩] concatenates_S1x64_S1x64_S1x128_d1) bitsLt_bf16_f32 := by
  show StableHlo.after (hostOps0 (F := Ideal)) (Gen.W0 m ρ c) (Proc.devRef .tc main_v40) = _
  after_results
  all_goals rfl

set_option maxHeartbeats 8000000 in
/-- What the features region finds at main_v42: the host operations before it, composed. -/
theorem V1_main_v42 : (Gen.V1 (F := Ideal) m ρ c main_v42 : S1x256.Idx → EReal) = truncf (F := Ideal) .bf16 (concatenate S1x256 1 [⟨S1x128, (m ((c.tc : Thread nD τ).loc main_arg8))⟩, ⟨S1x128, (m ((c.tc : Thread nD τ).loc main_arg8))⟩] concatenates_S1x128_S1x128_S1x256_d1) bitsLt_bf16_f32 := by
  show StableHlo.after (hostOps0 (F := Ideal)) (Gen.W0 m ρ c) (Proc.devRef .tc main_v42) = _
  after_results
  all_goals rfl

set_option maxHeartbeats 8000000 in
/-- What the features region finds at main_v43: the host operations before it, composed. -/
theorem V1_main_v43 : (Gen.V1 (F := Ideal) m ρ c main_v43 : S1x256.Idx → EReal) = concatenate (α := EReal) S1x256 1 [⟨S1x128, (m ((c.tc : Thread nD τ).loc main_arg10))⟩, ⟨S1x128, (m ((c.tc : Thread nD τ).loc main_arg10))⟩] concatenates_S1x128_S1x128_S1x256_d1 := by
  show StableHlo.after (hostOps0 (F := Ideal)) (Gen.W0 m ρ c) (Proc.devRef .tc main_v43) = _
  after_results
  all_goals rfl

end Cert.KernelIdeal.Feat

end
-- ==== Proof.LibScatterWrite.lean ====
/-
  A scatter that writes (its combiner returns the update) read at an entry.

  The host's scatter is a left fold over the update entries, each replacing the result's entry at the place it lands
  on. When the update entries that land on a given place are all one entry, the result there is that update entry,
  whatever the order; where no update entry lands the operand is left.
-/
import Idealize.ShloMosaic.PureOps.ShapeOps
import Idealize.ShloMosaic.Lib.ValueIdx

noncomputable section

open scoped BigOperators

namespace Cert.ScatterWrite

open Idealize.ShloMosaic Idealize.ShloMosaic.ValueIdx

variable {ι α β : Type} [DecidableEq ι]

/-- A fold step g WRITES: update entry n replaces the entry it lands on (R n), if it lands, and changes nothing else. -/
structure Writes (R : β → Option ι) (upd : β → α) (g : (ι → α) → β → (ι → α)) : Prop where
  lands : ∀ r n i, R n = some i → ∀ i', g r n i' = if i' = i then upd n else r i'
  misses : ∀ r n, R n = none → g r n = r

variable {R : β → Option ι} {upd : β → α} {g : (ι → α) → β → (ι → α)}

/-- Where no update entry of the list lands, the fold leaves what was there. -/
theorem foldl_of_not_mem (hg : Writes R upd g) (l : List β) (x : ι → α) (i' : ι) (h : ∀ n ∈ l, R n ≠ some i') :
    l.foldl g x i' = x i' := by
  induction l generalizing x with
  | nil => rfl
  | cons n l ih =>
    rw [List.foldl_cons, ih _ (fun n' hn' => h n' (List.mem_cons_of_mem _ hn'))]
    have hn := h n (List.mem_cons_self ..)
    cases hR : R n with
    | none => rw [hg.misses x n hR]
    | some i =>
      rw [hg.lands x n i hR, if_neg]
      intro e; exact hn (by rw [hR, e])

/-- Where exactly one update entry of the list lands, the fold leaves that update entry. -/
theorem foldl_of_mem (hg : Writes R upd g) (l : List β) (x : ι → α) (i' : ι) (n₀ : β) (hn₀ : n₀ ∈ l)
    (hR : R n₀ = some i') (huniq : ∀ n ∈ l, R n = some i' → n = n₀) :
    l.foldl g x i' = upd n₀ := by
  induction l generalizing x with
  | nil => cases hn₀
  | cons n l ih =>
    rw [List.foldl_cons]
    by_cases hex : ∃ n' ∈ l, R n' = some i'
    · obtain ⟨n', hn', hR'⟩ := hex
      have e : n' = n₀ := huniq n' (List.mem_cons_of_mem _ hn') hR'
      exact ih _ (e ▸ hn') (fun n'' h'' => huniq n'' (List.mem_cons_of_mem _ h''))
    · have hnone : ∀ n' ∈ l, R n' ≠ some i' := fun n' hn' e => hex ⟨n', hn', e⟩
      rw [foldl_of_not_mem hg l _ i' hnone]
      have hn : n = n₀ := by
        rcases List.mem_cons.mp hn₀ with h | h
        · exact h.symm
        · exact absurd hR (hnone n₀ h)
      subst hn
      rw [hg.lands x n i' hR, if_pos rfl]

variable {s si u : Shape} {w : Nat}

/-- The writing scatter at a place where update entry j, and no other, lands. -/
theorem scatter_apply_of_lands (d : ScatterDims s si u) (x : s.Idx → α) (idx : IVec si w) (upd : u.Idx → α) (i : s.Idx) (j : u.Idx)
    (hj : d.resultIdx? j idx = some i) (huniq : ∀ j', d.resultIdx? j' idx = some i → j' = j) :
    Host.scatter d (fun _ b => b) x idx upd i = upd j := by
  unfold Host.scatter
  refine (foldl_of_mem (R := fun n => d.resultIdx? (u.rowMajor.symm n) idx) (upd := fun n => upd (u.rowMajor.symm n))
    ⟨fun r n i h i' => ?_, fun r n h => ?_⟩ _ x i (u.rowMajor j) (List.mem_finRange _) (by simpa using hj) (fun n _ hn => ?_)).trans (by simp)
  · show (match d.resultIdx? (u.rowMajor.symm n) idx with
      | some i => fun i' => if i' = i then upd (u.rowMajor.symm n) else r i'
      | none => r) i' = _
    rw [show d.resultIdx? (u.rowMajor.symm n) idx = some i from h]
  · show (match d.resultIdx? (u.rowMajor.symm n) idx with
      | some i => fun i' => if i' = i then upd (u.rowMajor.symm n) else r i'
      | none => r) = _
    rw [show d.resultIdx? (u.rowMajor.symm n) idx = none from h]
  · have := huniq _ hn
    rw [← this]; simp

/-- The writing scatter at a place where no update entry lands. -/
theorem scatter_apply_of_misses (d : ScatterDims s si u) (x : s.Idx → α) (idx : IVec si w) (upd : u.Idx → α) (i : s.Idx)
    (hmiss : ∀ j, d.resultIdx? j idx ≠ some i) :
    Host.scatter d (fun _ b => b) x idx upd i = x i := by
  unfold Host.scatter
  refine foldl_of_not_mem (R := fun n => d.resultIdx? (u.rowMajor.symm n) idx) (upd := fun n => upd (u.rowMajor.symm n))
    ⟨fun r n i h i' => ?_, fun r n h => ?_⟩ _ x i (fun n _ => hmiss _)
  · show (match d.resultIdx? (u.rowMajor.symm n) idx with
      | some i => fun i' => if i' = i then upd (u.rowMajor.symm n) else r i'
      | none => r) i' = _
    rw [show d.resultIdx? (u.rowMajor.symm n) idx = some i from h]
  · show (match d.resultIdx? (u.rowMajor.symm n) idx with
      | some i => fun i' => if i' = i then upd (u.rowMajor.symm n) else r i'
      | none => r) = _
    rw [show d.resultIdx? (u.rowMajor.symm n) idx = none from h]

end Cert.ScatterWrite

end
-- ==== Proof.FeatKernelW1.lean ====
/-
  The packed first-layer weights as the host writes them.

  The host writes the first layer's 3 × 64 weight matrix twice into a zero 6 × 128 matrix, once with its corner at
  (0, 0) and once with its corner at (3, 64). A window entry (a, b) written with the corner at (r0, c0) lands on
  (r0 + a, c0 + b), always inside the matrix, and (a, b) ↦ (r0 + a, c0 + b) is one-to-one; so each place of the result
  holds the one entry that lands there, or zero where none does: the weights twice on the diagonal, zero off it.
-/
import proofs.«171346_g2000606842809313_pallasbulk_193_5_alg».proof.Proof.Gen.KernelIdeal
import proofs.«171346_g2000606842809313_pallasbulk_193_5_alg».proof.Proof.Packed
import proofs.«171346_g2000606842809313_pallasbulk_193_5_alg».proof.Proof.LibScatterWrite
import Idealize.ShloMosaic.Lib.IdealHost
import Idealize.ShloMosaic.Lib.Pipeline.Value

noncomputable section

open scoped BigOperators

namespace Cert.KernelIdeal.Feat

open Idealize.ShloMosaic Idealize.ShloMosaic.ValueIdx Cert.KernelIdeal Cert.KernelIdeal.Facts₀ Cert.Dense Cert.PointNet

/-- The scatter's one start index is read at the two entries of the index vector. -/
theorem siIdx_eq (j : S3x64.Idx) (n : Fin 2) (hn : n.val < scatter_S6x128_S2_S3x64_01_n_01_0.scatterDimsToOperandDims.length) :
    scatter_S6x128_S2_S3x64_01_n_01_0.siIdx j ⟨n.val, hn⟩ = ix1 n := by
  funext b
  match b with
  | ⟨0, _⟩ => exact Fin.ext rfl

/-- Update entry (a, b) of a 3 × 64 window scattered at the start (r0, c0) lands on (r0 + a, c0 + b) when that is inside. -/
theorem lands (idx : IVec S2 32) (r0 c0 : ℕ) (h0 : (idx (ix1 (0 : Fin 2))).toInt = r0) (h1 : (idx (ix1 (1 : Fin 2))).toInt = c0)
    (a : Fin 3) (b : Fin 64) (hr : r0 + a.val < 6) (hc : c0 + b.val < 128) :
    scatter_S6x128_S2_S3x64_01_n_01_0.resultIdx? (ix2 a b) idx = some (ix2 (⟨r0 + a.val, hr⟩ : Fin 6) (⟨c0 + b.val, hc⟩ : Fin 128)) := by
  have hs0 : scatter_S6x128_S2_S3x64_01_n_01_0.start (ix2 a b) idx (0 : Fin 2) = r0 := by
    unfold ScatterDims.start
    rw [dif_pos (by decide)]
    rw [← h0]
    exact congrArg (fun k => (idx k).toInt) (siIdx_eq (ix2 a b) 0 _)
  have hs1 : scatter_S6x128_S2_S3x64_01_n_01_0.start (ix2 a b) idx (1 : Fin 2) = c0 := by
    unfold ScatterDims.start
    rw [dif_pos (by decide)]
    rw [← h1]
    exact congrArg (fun k => (idx k).toInt) (siIdx_eq (ix2 a b) 1 _)
  have hw0 : scatter_S6x128_S2_S3x64_01_n_01_0.window (ix2 a b) (0 : Fin 2) = a.val := by
    unfold ScatterDims.window
    rw [dif_pos (by decide)]
    rfl
  have hw1 : scatter_S6x128_S2_S3x64_01_n_01_0.window (ix2 a b) (1 : Fin 2) = b.val := by
    unfold ScatterDims.window
    rw [dif_pos (by decide)]
    rfl
  unfold ScatterDims.resultIdx?
  rw [dif_pos (fun x => by
    match x with
    | ⟨0, _⟩ =>
      show (0 : ℤ) ≤ scatter_S6x128_S2_S3x64_01_n_01_0.start (ix2 a b) idx (0 : Fin 2) + (scatter_S6x128_S2_S3x64_01_n_01_0.window (ix2 a b) (0 : Fin 2) : ℤ)
        ∧ scatter_S6x128_S2_S3x64_01_n_01_0.start (ix2 a b) idx (0 : Fin 2) + (scatter_S6x128_S2_S3x64_01_n_01_0.window (ix2 a b) (0 : Fin 2) : ℤ) < ((6 : ℕ) : ℤ)
      rw [hs0, hw0]; omega
    | ⟨1, _⟩ =>
      show (0 : ℤ) ≤ scatter_S6x128_S2_S3x64_01_n_01_0.start (ix2 a b) idx (1 : Fin 2) + (scatter_S6x128_S2_S3x64_01_n_01_0.window (ix2 a b) (1 : Fin 2) : ℤ)
        ∧ scatter_S6x128_S2_S3x64_01_n_01_0.start (ix2 a b) idx (1 : Fin 2) + (scatter_S6x128_S2_S3x64_01_n_01_0.window (ix2 a b) (1 : Fin 2) : ℤ) < ((128 : ℕ) : ℤ)
      rw [hs1, hw1]; omega)]
  refine congrArg some (funext fun x => Fin.ext ?_)
  match x with
  | ⟨0, _⟩ => show (scatter_S6x128_S2_S3x64_01_n_01_0.start (ix2 a b) idx (0 : Fin 2) + scatter_S6x128_S2_S3x64_01_n_01_0.window (ix2 a b) (0 : Fin 2)).toNat = r0 + a.val; rw [hs0, hw0]; omega
  | ⟨1, _⟩ => show (scatter_S6x128_S2_S3x64_01_n_01_0.start (ix2 a b) idx (1 : Fin 2) + scatter_S6x128_S2_S3x64_01_n_01_0.window (ix2 a b) (1 : Fin 2)).toNat = c0 + b.val; rw [hs1, hw1]; omega

/-- The only update entry that lands on (r0 + a, c0 + b) is (a, b). -/
theorem lands_unique (idx : IVec S2 32) (r0 c0 : ℕ) (h0 : (idx (ix1 (0 : Fin 2))).toInt = r0) (h1 : (idx (ix1 (1 : Fin 2))).toInt = c0)
    (hR : r0 + 3 ≤ 6) (hC : c0 + 64 ≤ 128) (a : Fin 3) (b : Fin 64) (hr : r0 + a.val < 6) (hc : c0 + b.val < 128) (j' : S3x64.Idx)
    (h : scatter_S6x128_S2_S3x64_01_n_01_0.resultIdx? j' idx = some (ix2 (⟨r0 + a.val, hr⟩ : Fin 6) (⟨c0 + b.val, hc⟩ : Fin 128))) : j' = ix2 a b := by
  obtain ⟨a', b', rfl⟩ : ∃ (a' : Fin 3) (b' : Fin 64), j' = ix2 a' b' := ⟨j' 0, j' 1, eq_ix2 j'⟩
  have ha' := a'.isLt
  have hb' := b'.isLt
  rw [lands idx r0 c0 h0 h1 a' b' (by omega) (by omega)] at h
  have e := Option.some.inj h
  have e0 : r0 + a'.val = r0 + a.val := congrArg Fin.val (congrFun e 0)
  have e1 : c0 + b'.val = c0 + b.val := congrArg Fin.val (congrFun e 1)
  have ea : a' = a := Fin.ext (by omega)
  have eb : b' = b := Fin.ext (by omega)
  rw [ea, eb]

/-- A writing scatter of a 3 × 64 window at the start (r0, c0), read inside the window: the window's entry. -/
theorem scatter_read_in (x : S6x128.Idx → EReal) (idx : IVec S2 32) (r0 c0 : ℕ) (h0 : (idx (ix1 (0 : Fin 2))).toInt = r0)
    (h1 : (idx (ix1 (1 : Fin 2))).toInt = c0) (hR : r0 + 3 ≤ 6) (hC : c0 + 64 ≤ 128) (w : S3x64.Idx → EReal) (a : Fin 3) (b : Fin 64)
    (i : S6x128.Idx) (hi0 : (i 0).val = r0 + a.val) (hi1 : (i 1).val = c0 + b.val) :
    Host.scatter scatter_S6x128_S2_S3x64_01_n_01_0 (fun _ b => b) x idx w i = w (ix2 a b) := by
  have ha := a.isLt
  have hb := b.isLt
  have hi : i = ix2 (⟨r0 + a.val, by omega⟩ : Fin 6) (⟨c0 + b.val, by omega⟩ : Fin 128) := by
    funext x
    match x with
    | ⟨0, _⟩ => exact Fin.ext hi0
    | ⟨1, _⟩ => exact Fin.ext hi1
  rw [hi]
  exact Cert.ScatterWrite.scatter_apply_of_lands scatter_S6x128_S2_S3x64_01_n_01_0 x idx w _ (ix2 a b) (lands idx r0 c0 h0 h1 a b _ _)
    (fun j' h => lands_unique idx r0 c0 h0 h1 hR hC a b _ _ j' h)

/-- The same scatter read outside the window: what was there. -/
theorem scatter_read_out (x : S6x128.Idx → EReal) (idx : IVec S2 32) (r0 c0 : ℕ) (h0 : (idx (ix1 (0 : Fin 2))).toInt = r0)
    (h1 : (idx (ix1 (1 : Fin 2))).toInt = c0) (hR : r0 + 3 ≤ 6) (hC : c0 + 64 ≤ 128) (w : S3x64.Idx → EReal)
    (i : S6x128.Idx) (hne : ∀ (a : Fin 3) (b : Fin 64), ¬ ((i 0).val = r0 + a.val ∧ (i 1).val = c0 + b.val)) :
    Host.scatter scatter_S6x128_S2_S3x64_01_n_01_0 (fun _ b => b) x idx w i = x i := by
  refine Cert.ScatterWrite.scatter_apply_of_misses scatter_S6x128_S2_S3x64_01_n_01_0 x idx w i fun j' h => ?_
  obtain ⟨a', b', rfl⟩ : ∃ (a' : Fin 3) (b' : Fin 64), j' = ix2 a' b' := ⟨j' 0, j' 1, eq_ix2 j'⟩
  have ha' := a'.isLt
  have hb' := b'.isLt
  rw [lands idx r0 c0 h0 h1 a' b' (by omega) (by omega)] at h
  have e := Option.some.inj h
  exact hne a' b' ⟨(congrArg Fin.val (congrFun e 0)).symm, (congrArg Fin.val (congrFun e 1)).symm⟩

/-- The index vector made of two one-entry vectors, read at its two entries. -/
theorem idxvec_apply (p q : BitVec 32) :
    concatenate S2 0 [⟨S1, broadcastInDim S1 ![] bcast_S_S1 (constantI S_ 32 p)⟩, ⟨S1, broadcastInDim S1 ![] bcast_S_S1 (constantI S_ 32 q)⟩]
        concatenates_S1_S1_S2_d0 (ix1 (0 : Fin 2)) = p
    ∧ concatenate S2 0 [⟨S1, broadcastInDim S1 ![] bcast_S_S1 (constantI S_ 32 p)⟩, ⟨S1, broadcastInDim S1 ![] bcast_S_S1 (constantI S_ 32 q)⟩]
        concatenates_S1_S1_S2_d0 (ix1 (1 : Fin 2)) = q := by
  constructor
  · rw [concatenate_pair_apply_left 0 _ _ concatenates_S1_S1_S2_d0 (ix1 (0 : Fin 2)) rfl (ix1 (0 : Fin 1)) (fun b => by
      match b with
      | ⟨0, _⟩ => rfl)]
    rw [broadcastInDim_scalar_apply]
    rfl
  · rw [concatenate_pair_apply_right 0 _ _ concatenates_S1_S1_S2_d0 (ix1 (1 : Fin 2)) rfl rfl (ix1 (0 : Fin 1)) (fun b hb => by
      match b with
      | ⟨0, _⟩ => exact absurd rfl hb) rfl]
    rw [broadcastInDim_scalar_apply]
    rfl

/-- The packed first-layer weights: the first layer's 3 × 64 weights written into a zero 6 × 128 matrix at the starts (0, 0)
    and (3, 64) carry the weights twice on the diagonal and zero off it. -/
theorem w1_blockDiag (w0 : FVec Ideal S3x64 .f32) :
    BlockDiag (by norm_num : 2 * 3 = 6) (by norm_num : 2 * 64 = 128)
      (truncf .bf16 (Host.scatter scatter_S6x128_S2_S3x64_01_n_01_0 (fun _ b => b)
        (Host.scatter scatter_S6x128_S2_S3x64_01_n_01_0 (fun _ b => b)
          (broadcastInDim S6x128 ![] bcast_S_S6x128 (constant (F := Ideal) S_ .f32 0x00000000#32))
          (concatenate S2 0 [⟨S1, broadcastInDim S1 ![] bcast_S_S1 (constantI S_ 32 0#32)⟩, ⟨S1, broadcastInDim S1 ![] bcast_S_S1 (constantI S_ 32 0#32)⟩] concatenates_S1_S1_S2_d0) w0)
        (concatenate S2 0 [⟨S1, broadcastInDim S1 ![] bcast_S_S1 (constantI S_ 32 3#32)⟩, ⟨S1, broadcastInDim S1 ![] bcast_S_S1 (constantI S_ 32 64#32)⟩] concatenates_S1_S1_S2_d0) w0)
        bitsLt_bf16_f32) w0 := by
  intro g g' k j
  have hk := k.isLt
  have hj := j.isLt
  have hA0 : ((concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) (ix1 (0 : Fin 2))).toInt = ((0 : ℕ) : ℤ) := by
    rw [(idxvec_apply 0#32 0#32).1]; decide
  have hA1 : ((concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) (ix1 (1 : Fin 2))).toInt = ((0 : ℕ) : ℤ) := by
    rw [(idxvec_apply 0#32 0#32).2]; decide
  have hB0 : ((concatenate S2 0 [⟨S1, broadcastInDim S1 ![] bcast_S_S1 (constantI S_ 32 3#32)⟩, ⟨S1, broadcastInDim S1 ![] bcast_S_S1 (constantI S_ 32 64#32)⟩] concatenates_S1_S1_S2_d0 : IVec S2 32) (ix1 (0 : Fin 2))).toInt = ((3 : ℕ) : ℤ) := by
    rw [(idxvec_apply 3#32 64#32).1]; decide
  have hB1 : ((concatenate S2 0 [⟨S1, broadcastInDim S1 ![] bcast_S_S1 (constantI S_ 32 3#32)⟩, ⟨S1, broadcastInDim S1 ![] bcast_S_S1 (constantI S_ 32 64#32)⟩] concatenates_S1_S1_S2_d0 : IVec S2 32) (ix1 (1 : Fin 2))).toInt = ((64 : ℕ) : ℤ) := by
    rw [(idxvec_apply 3#32 64#32).2]; decide
  have hZ : ∀ i : S6x128.Idx, broadcastInDim S6x128 ![] bcast_S_S6x128 (constant (F := Ideal) S_ .f32 0x00000000#32) i = (0 : EReal) := fun i => by
    rw [broadcastInDim_scalar_apply]
    show Ideal.ofBits .f32 0x00000000#32 = 0
    exact Ideal.ofBits_zero_f32
  have hg := g.isLt
  have hg' := g'.isLt
  have key : ∀ I : S6x128.Idx, (I 0).val = g.val * 3 + k.val → (I 1).val = g'.val * 64 + j.val →
      Host.scatter scatter_S6x128_S2_S3x64_01_n_01_0 (fun _ b => b)
        (Host.scatter scatter_S6x128_S2_S3x64_01_n_01_0 (fun _ b => b)
          (broadcastInDim S6x128 ![] bcast_S_S6x128 (constant (F := Ideal) S_ .f32 0x00000000#32))
          (concatenate S2 0 [⟨S1, broadcastInDim S1 ![] bcast_S_S1 (constantI S_ 32 0#32)⟩, ⟨S1, broadcastInDim S1 ![] bcast_S_S1 (constantI S_ 32 0#32)⟩] concatenates_S1_S1_S2_d0) w0)
        (concatenate S2 0 [⟨S1, broadcastInDim S1 ![] bcast_S_S1 (constantI S_ 32 3#32)⟩, ⟨S1, broadcastInDim S1 ![] bcast_S_S1 (constantI S_ 32 64#32)⟩] concatenates_S1_S1_S2_d0) w0 I
        = if g = g' then w0 (ix2 k j) else 0 := by
    intro I hi0 hi1
    by_cases e : g = g'
    · rw [if_pos e]
      subst e
      by_cases e0 : g.val = 0
      · rw [scatter_read_out _ _ 3 64 hB0 hB1 (by norm_num) (by norm_num) w0 I (fun a b h => by obtain ⟨h1, h2⟩ := h; omega)]
        exact scatter_read_in _ _ 0 0 hA0 hA1 (by norm_num) (by norm_num) w0 k j I (by omega) (by omega)
      · exact scatter_read_in _ _ 3 64 hB0 hB1 (by norm_num) (by norm_num) w0 k j I (by omega) (by omega)
    · rw [if_neg e]
      have hne : g.val ≠ g'.val := fun h => e (Fin.ext h)
      rw [scatter_read_out _ _ 3 64 hB0 hB1 (by norm_num) (by norm_num) w0 I (fun a b h => by
          obtain ⟨h1, h2⟩ := h; have := a.isLt; have := b.isLt; omega),
        scatter_read_out _ _ 0 0 hA0 hA1 (by norm_num) (by norm_num) w0 I (fun a b h => by
          obtain ⟨h1, h2⟩ := h; have := a.isLt; have := b.isLt; omega)]
      exact hZ I
  rw [truncf_id]
  exact key _ rfl rfl

end Cert.KernelIdeal.Feat

end
-- ==== Proof.FeatKernelX.lean ====
/-
  The clouds as the kernel's host side re-lays them, entry by entry.

  The 2048 × 3 × 1024 clouds array is transposed to 3 × 2048 × 1024, read as 3 × 16 × 2 × 65536 (cloud
  B = 128 i + 64 g + c becomes group i, half g, and the 65536 columns 1024 c + p of its 64 clouds' points),
  transposed to 2 × 3 × 16 × 65536 and read as 6 × 1048576: row 3 g + k, column 65536 i + 1024 c + p holds
  coordinate k of point p of cloud 128 i + 64 g + c. A change of float format is the identity on the extended reals.
-/
import proofs.«171346_g2000606842809313_pallasbulk_193_5_alg».proof.Proof.Gen.KernelIdeal
import proofs.«171346_g2000606842809313_pallasbulk_193_5_alg».proof.Proof.Packed
import Idealize.ShloMosaic.Lib.Pipeline.Value

noncomputable section

namespace Cert.KernelIdeal.Feat

open Idealize.ShloMosaic Idealize.ShloMosaic.ValueIdx Cert.KernelIdeal Cert.KernelIdeal.Gen

/-- Row 3 g + k, column 65536 i + 1024 c + p of the re-laid array is coordinate k of point p of cloud 128 i + 64 g + c. -/
theorem xp_apply (x : S2048x3x1024.Idx → EReal) (g : Fin 2) (k : Fin 3) (i : Fin 16) (cl : Fin 64) (p : Fin 1024)
    (col : Fin 1048576) (B : Fin 2048) (hcol : col.val = i.val * 65536 + cl.val * 1024 + p.val)
    (hB : B.val = i.val * 128 + g.val * 64 + cl.val) :
    (truncf (F := Ideal) (φ := .f32) .bf16
        (shapeCast S6x1048576
          (transpose S2x3x16x65536 [2, 0, 1, 3]
            (shapeCast S3x16x2x65536 (transpose S3x2048x1024 [1, 0, 2] x transposes_S2048x3x1024_S3x2048x1024_1_0_2)
              shapeCasts_S3x2048x1024_S3x16x2x65536)
            transposes_S3x16x2x65536_S2x3x16x65536_2_0_1_3)
          shapeCasts_S2x3x16x65536_S6x1048576)
        bitsLt_bf16_f32 : S6x1048576.Idx → EReal) (ix2 (Cert.PointNet.pk (by norm_num : 2 * 3 = 6) g k) col)
      = x (ix3 B k p) := by
  have hg : g.val < 2 := g.isLt
  have hk : k.val < 3 := k.isLt
  have hi : i.val < 16 := i.isLt
  have hc : cl.val < 64 := cl.isLt
  have hp : p.val < 1024 := p.isLt
  obtain ⟨q, hq⟩ : ∃ q : Fin 65536, q.val = cl.val * 1024 + p.val := ⟨⟨cl.val * 1024 + p.val, by omega⟩, rfl⟩
  rw [truncf_apply]
  rw [shapeCast_apply _ shapeCasts_S2x3x16x65536_S6x1048576 (ix2 (Cert.PointNet.pk (by norm_num : 2 * 3 = 6) g k) col)
    (ix4 g k i q) (by
      rw [Shape.rowMajor_val_four, Shape.rowMajor_val_two]
      show ((g.val * 3 + k.val) * 16 + i.val) * 65536 + q.val = (g.val * 3 + k.val) * 1048576 + col.val
      omega)]
  rw [transpose_apply [2, 0, 1, 3] _ transposes_S3x16x2x65536_S2x3x16x65536_2_0_1_3 (ix4 g k i q) (ix4 k i g q) (fun b => by
      match b with
      | ⟨0, _⟩ => rfl
      | ⟨1, _⟩ => rfl
      | ⟨2, _⟩ => rfl
      | ⟨3, _⟩ => rfl)]
  rw [shapeCast_apply _ shapeCasts_S3x2048x1024_S3x16x2x65536 (ix4 k i g q) (ix3 k B p) (by
      rw [Shape.rowMajor_val_three, Shape.rowMajor_val_four]
      show (k.val * 2048 + B.val) * 1024 + p.val = ((k.val * 16 + i.val) * 2 + g.val) * 65536 + q.val
      omega)]
  exact transpose_apply [1, 0, 2] x transposes_S2048x3x1024_S3x2048x1024_1_0_2 (ix3 k B p) (ix3 B k p) (fun b => by
    match b with
    | ⟨0, _⟩ => rfl
    | ⟨1, _⟩ => rfl
    | ⟨2, _⟩ => rfl)

end Cert.KernelIdeal.Feat

end
-- ==== Proof.PackedHost.lean ====
/-
  Packed weights as the host lays them out.

  A weight matrix W set beside a zero matrix, over a zero matrix set beside W, carries W twice on its diagonal and
  zero elsewhere; a bias row set beside itself is the bias row written twice.
-/
import proofs.«171346_g2000606842809313_pallasbulk_193_5_alg».proof.Proof.Packed

noncomputable section

open scoped BigOperators

namespace Cert.PointNet

open Idealize.ShloMosaic Idealize.ShloMosaic.ValueIdx Cert.Dense

variable {K N K2 N2 : ℕ}

/-- Two matrices one under the other: the upper rows. -/
theorem cat_rows_top (hK : 2 * K = K2) (A B : Mat K N2)
    (h0 : Shape.Concatenates [(⟨2, ![K, N2]⟩ : Shape), ⟨2, ![K, N2]⟩] ⟨2, ![K2, N2]⟩ 0) (k : Fin K) (J : Fin N2) :
    concatenate ⟨2, ![K2, N2]⟩ 0 [⟨⟨2, ![K, N2]⟩, A⟩, ⟨⟨2, ![K, N2]⟩, B⟩] h0 (ix2 (pk hK 0 k) J) = A (ix2 k J) :=
  concatenate_pair_apply_left 0 A B h0 (ix2 (pk hK 0 k) J) rfl (ix2 k J) (fun b => by
    match b with
    | ⟨0, _⟩ => show k.val = 0 * K + k.val; omega
    | ⟨1, _⟩ => rfl)

/-- Two matrices one under the other: the lower rows. -/
theorem cat_rows_bot (hK : 2 * K = K2) (A B : Mat K N2)
    (h0 : Shape.Concatenates [(⟨2, ![K, N2]⟩ : Shape), ⟨2, ![K, N2]⟩] ⟨2, ![K2, N2]⟩ 0) (k : Fin K) (J : Fin N2) :
    concatenate ⟨2, ![K2, N2]⟩ 0 [⟨⟨2, ![K, N2]⟩, A⟩, ⟨⟨2, ![K, N2]⟩, B⟩] h0 (ix2 (pk hK 1 k) J) = B (ix2 k J) :=
  concatenate_pair_apply_right 0 A B h0 (ix2 (pk hK 1 k) J) rfl rfl (ix2 k J) (fun b hb => by
    match b with
    | ⟨0, _⟩ => exact absurd rfl hb
    | ⟨1, _⟩ => rfl) (by show k.val + K = 1 * K + k.val; omega)

/-- Two matrices side by side: the left columns. -/
theorem cat_cols_left (hN : 2 * N = N2) (A B : Mat K N)
    (h1 : Shape.Concatenates [(⟨2, ![K, N]⟩ : Shape), ⟨2, ![K, N]⟩] ⟨2, ![K, N2]⟩ 1) (k : Fin K) (j : Fin N) :
    concatenate ⟨2, ![K, N2]⟩ 1 [⟨⟨2, ![K, N]⟩, A⟩, ⟨⟨2, ![K, N]⟩, B⟩] h1 (ix2 k (pk hN 0 j)) = A (ix2 k j) :=
  concatenate_pair_apply_left 1 A B h1 (ix2 k (pk hN 0 j)) rfl (ix2 k j) (fun b => by
    match b with
    | ⟨0, _⟩ => rfl
    | ⟨1, _⟩ => show j.val = 0 * N + j.val; omega)

/-- Two matrices side by side: the right columns. -/
theorem cat_cols_right (hN : 2 * N = N2) (A B : Mat K N)
    (h1 : Shape.Concatenates [(⟨2, ![K, N]⟩ : Shape), ⟨2, ![K, N]⟩] ⟨2, ![K, N2]⟩ 1) (k : Fin K) (j : Fin N) :
    concatenate ⟨2, ![K, N2]⟩ 1 [⟨⟨2, ![K, N]⟩, A⟩, ⟨⟨2, ![K, N]⟩, B⟩] h1 (ix2 k (pk hN 1 j)) = B (ix2 k j) :=
  concatenate_pair_apply_right 1 A B h1 (ix2 k (pk hN 1 j)) rfl rfl (ix2 k j) (fun b hb => by
    match b with
    | ⟨0, _⟩ => rfl
    | ⟨1, _⟩ => exact absurd rfl hb) (by show j.val + N = 1 * N + j.val; omega)

/-- W beside zero, over zero beside W, is W twice on the diagonal. -/
theorem blockDiag_concat (hK : 2 * K = K2) (hN : 2 * N = N2) (W Z : Mat K N) (hZ : ∀ i, Z i = 0)
    (h1 : Shape.Concatenates [(⟨2, ![K, N]⟩ : Shape), ⟨2, ![K, N]⟩] ⟨2, ![K, N2]⟩ 1)
    (h0 : Shape.Concatenates [(⟨2, ![K, N2]⟩ : Shape), ⟨2, ![K, N2]⟩] ⟨2, ![K2, N2]⟩ 0) :
    BlockDiag hK hN (concatenate ⟨2, ![K2, N2]⟩ 0
      [⟨⟨2, ![K, N2]⟩, concatenate ⟨2, ![K, N2]⟩ 1 [⟨⟨2, ![K, N]⟩, W⟩, ⟨⟨2, ![K, N]⟩, Z⟩] h1⟩,
       ⟨⟨2, ![K, N2]⟩, concatenate ⟨2, ![K, N2]⟩ 1 [⟨⟨2, ![K, N]⟩, Z⟩, ⟨⟨2, ![K, N]⟩, W⟩] h1⟩] h0) W := by
  intro g g' k j
  match g, g' with
  | ⟨0, _⟩, ⟨0, _⟩ => exact (cat_rows_top hK _ _ h0 k _).trans ((cat_cols_left hN W Z h1 k j).trans (if_pos rfl).symm)
  | ⟨0, _⟩, ⟨1, _⟩ => exact (cat_rows_top hK _ _ h0 k _).trans ((cat_cols_right hN W Z h1 k j).trans ((hZ _).trans (if_neg (by intro h; have h' := congrArg Fin.val h; simp at h')).symm))
  | ⟨1, _⟩, ⟨0, _⟩ => exact (cat_rows_bot hK _ _ h0 k _).trans ((cat_cols_left hN Z W h1 k j).trans ((hZ _).trans (if_neg (by intro h; have h' := congrArg Fin.val h; simp at h')).symm))
  | ⟨1, _⟩, ⟨1, _⟩ => exact (cat_rows_bot hK _ _ h0 k _).trans ((cat_cols_right hN Z W h1 k j).trans (if_pos rfl).symm)

/-- A bias row beside itself is the bias row written twice. -/
theorem dup_concat (hN : 2 * N = N2) (b : Mat 1 N)
    (h1 : Shape.Concatenates [(⟨2, ![1, N]⟩ : Shape), ⟨2, ![1, N]⟩] ⟨2, ![1, N2]⟩ 1) :
    Dup hN (concatenate ⟨2, ![1, N2]⟩ 1 [⟨⟨2, ![1, N]⟩, b⟩, ⟨⟨2, ![1, N]⟩, b⟩] h1) b := by
  intro g j
  match g with
  | ⟨0, _⟩ => exact cat_cols_left hN b b h1 0 j
  | ⟨1, _⟩ => exact cat_cols_right hN b b h1 0 j

end Cert.PointNet

end
-- ==== Proof.FeatKernelEntry.lean ====
/-
  The packed features region on the kernel's own arrays.

  The host operations before the region leave the clouds re-laid, the weights block-diagonal and the biases doubled,
  so the region leaves the pooled features of the argument arrays.
-/
import proofs.«171346_g2000606842809313_pallasbulk_193_5_alg».proof.Proof.FeatKernel
import proofs.«171346_g2000606842809313_pallasbulk_193_5_alg».proof.Proof.FeatKernelHostA
import proofs.«171346_g2000606842809313_pallasbulk_193_5_alg».proof.Proof.FeatKernelHostB
import proofs.«171346_g2000606842809313_pallasbulk_193_5_alg».proof.Proof.FeatKernelW1
import proofs.«171346_g2000606842809313_pallasbulk_193_5_alg».proof.Proof.FeatKernelX
import proofs.«171346_g2000606842809313_pallasbulk_193_5_alg».proof.Proof.PackedHost

noncomputable section

open scoped BigOperators

namespace Cert.KernelIdeal.Feat

open Idealize.ShloMosaic Idealize.ShloMosaic.TcCoe Idealize.ShloMosaic.ValueIdx Idealize.SL.Sem Cert.KernelIdeal Cert.KernelIdeal.Gen Cert.Dense Cert.PointNet

/-- A splat of the zero word is zero at every entry. -/
theorem splat_zero {T : Shape} (h : (⟨0, ![]⟩ : Shape).BroadcastsInDim T ![]) (i : T.Idx) :
    broadcastInDim T ![] h (constant (F := Ideal) ⟨0, ![]⟩ .f32 0x00000000#32) i = 0 := by
  rw [broadcastInDim_apply ![] h _ i ix0 (fun ax => ax.elim0)]
  show Ideal.ofBits .f32 0x00000000#32 = 0
  exact Ideal.ofBits_zero_f32

/-- A change of float format is the identity on the extended reals: narrowed block-diagonal weights are block-diagonal. -/
theorem blockDiag_narrow {K N K2 N2 : ℕ} (hK : 2 * K = K2) (hN : 2 * N = N2) (Wp : FVec Ideal ⟨2, ![K2, N2]⟩ .f32) (W : Mat K N)
    (hlt : FTy.bf16.bits < FTy.f32.bits) (h : BlockDiag hK hN Wp W) :
    BlockDiag hK hN (truncf (F := Ideal) .bf16 Wp hlt : FVec Ideal ⟨2, ![K2, N2]⟩ .bf16) W := h

/-- … and a narrowed doubled bias row is doubled. -/
theorem dup_narrow {N N2 : ℕ} (hN : 2 * N = N2) (bp : FVec Ideal ⟨2, ![1, N2]⟩ .f32) (b : Mat 1 N)
    (hlt : FTy.bf16.bits < FTy.f32.bits) (h : Dup hN bp b) :
    Dup hN (truncf (F := Ideal) .bf16 bp hlt : FVec Ideal ⟨2, ![1, N2]⟩ .bf16) b := h

variable (m : (ℓ : Loc nD τ sig) → Buf (Elt Ideal) ℓ) (ρ : Dev nD → PrngReg) (c : Dev nD)

/-- What the features region is entered with on the kernel's own arrays. -/
theorem entry : Entry (Gen.V1 (F := Ideal) m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) where
  hx := fun g k i cl p col B hcol hB => by
    rw [V1_main_v4]
    exact xp_apply _ g k i cl p col B hcol hB
  h0 := by rw [V1_main_v14]; exact w1_blockDiag _
  hb0 := by rw [V1_main_v36]; exact dup_narrow h64 _ _ _ (dup_concat h64 _ concatenates_S1x64_S1x64_S1x128_d1)
  h1 := by rw [V1_main_v19]; exact blockDiag_narrow h64 h64 _ _ _ (blockDiag_concat h64 h64 _ _ (splat_zero _) concatenates_S64x64_S64x64_S64x128_d1 concatenates_S64x128_S64x128_S128x128_d0)
  hb1 := by rw [V1_main_v38]; exact dup_narrow h64 _ _ _ (dup_concat h64 _ concatenates_S1x64_S1x64_S1x128_d1)
  h2 := by rw [V1_main_v24]; exact blockDiag_narrow h64 h64 _ _ _ (blockDiag_concat h64 h64 _ _ (splat_zero _) concatenates_S64x64_S64x64_S64x128_d1 concatenates_S64x128_S64x128_S128x128_d0)
  hb2 := by rw [V1_main_v40]; exact dup_narrow h64 _ _ _ (dup_concat h64 _ concatenates_S1x64_S1x64_S1x128_d1)
  h3' := by rw [V1_main_v29]; exact blockDiag_narrow h64 h128 _ _ _ (blockDiag_concat h64 h128 _ _ (splat_zero _) concatenates_S64x128_S64x128_S64x256_d1 concatenates_S64x256_S64x256_S128x256_d0)
  hb3 := by rw [V1_main_v42]; exact dup_narrow h128 _ _ _ (dup_concat h128 _ concatenates_S1x128_S1x128_S1x256_d1)
  h4 := by rw [V1_main_v34]; exact blockDiag_narrow h128 h128 _ _ _ (blockDiag_concat h128 h128 _ _ (splat_zero _) concatenates_S128x128_S128x128_S128x256_d1 concatenates_S128x256_S128x256_S256x256_d0)
  hb4 := by rw [V1_main_v43]; exact dup_concat h128 _ concatenates_S1x128_S1x128_S1x256_d1

/-- After the features region the pooled array holds the pooled features of the argument arrays. -/
theorem pooled : (Gen.W2 (F := Ideal) m ρ c (Proc.devRef .tc main_v44) : S2048x128.Idx → EReal)
    = pooledBefore (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (Gen.W2_arr m ρ c 11).trans (final (Gen.V1 m ρ) (entry m ρ c))

end Cert.KernelIdeal.Feat

end
-- ==== Proof.FeatRefPay.lean ====
/-
  The reference's feature block, entry by entry.

  One block of the feature stage holds two clouds, each coordinate-major as a 3 × 1024 matrix. Each cloud's points
  go through the first layer as a product contracted on the coordinate axis, the second cloud's 1024 rows set
  below the first's; the 2048 rows then go through four more rectified affine layers, and each cloud's 1024 rows
  are reduced to their column maxima, starting from −∞. Every row of a rectified affine layer depends on the same
  row of its input only, so row r of the fifth layer is the five-layer feature of point r, and entry (b, j) of the
  block's result is the maximum over the points p of cloud b of max(feat(point p)(j) + b₄(j), 0).
-/
import proofs.«171346_g2000606842809313_pallasbulk_193_5_alg».proof.Proof.Gen.ReferenceIdeal.Skeleton
import proofs.«171346_g2000606842809313_pallasbulk_193_5_alg».proof.Proof.Spec

noncomputable section

open scoped BigOperators

namespace Cert.ReferenceIdeal.Feat

open Idealize.ShloMosaic Idealize.ShloMosaic.ValueIdx Cert.Dense Cert.PointNet Cert.ReferenceIdeal Cert.ReferenceIdeal.Gen

/-- Row r of a matrix. -/
def row {M K : ℕ} (H : Mat M K) (r : Fin M) : Fin K → EReal := fun k => H (ix2 r k)

/-- Row r of a rectified affine layer of a matrix is the layer applied to row r of the matrix. -/
theorem relu_affine2_row {M K N : ℕ} (H : Mat M K) (W : Mat K N) (b : Mat 1 N) (r : Fin M) :
    row (relu (affine2 H W b)) r = dense W b (row H r) := rfl

/-- The product with the left operand contracted on its FIRST axis, into a zero accumulator: entry (r, c) is
    the sum over the three coordinates k of A(k, r) · W(k, c). -/
theorem matmulT_apply (A : FVec Ideal S3x1024 .f32) (W : FVec Ideal S3x64 .f32) (r : Fin 1024) (c : Fin 64) :
    matmul dot_S3x1024_S3x64_S1024x64_0_0_1_1_n_n none A W (constant (F := Ideal) S1024x64 .f32 0x00000000#32) (ix2 r c)
      = ∑ k : Fin 3, A (ix2 k r) * W (ix2 k c) := by
  simp only [matmul]
  rw [Ideal.matmul_constant_zero_apply]
  rw [← Equiv.sum_comp (contrEquiv1 dot_S3x1024_S3x64_S1024x64_0_0_1_1_n_n 3 rfl rfl).symm]
  refine Finset.sum_congr rfl fun k _ => ?_
  have hk := contrEquiv1_symm_val dot_S3x1024_S3x64_S1024x64_0_0_1_1_n_n 3 rfl rfl k
  have el : dot_S3x1024_S3x64_S1024x64_0_0_1_1_n_n.lhsIdx (ix2 r c)
      ((contrEquiv1 dot_S3x1024_S3x64_S1024x64_0_0_1_1_n_n 3 rfl rfl).symm k) = ix2 k r :=
    funext fun a => Fin.ext (by
      match a with
      | ⟨0, _⟩ => exact hk
      | ⟨1, _⟩ => rfl)
  have er : dot_S3x1024_S3x64_S1024x64_0_0_1_1_n_n.rhsIdx (ix2 r c)
      ((contrEquiv1 dot_S3x1024_S3x64_S1024x64_0_0_1_1_n_n 3 rfl rfl).symm k) = ix2 k c :=
    funext fun a => Fin.ext (by
      match a with
      | ⟨0, _⟩ => exact hk
      | ⟨1, _⟩ => rfl)
  exact congr (congrArg _ (congrArg A el)) (congrArg W er)

/-! ## The first three layers on a block of two clouds -/

/-- The first layer on a block of two clouds, each given coordinate-major as a 3 × 1024 matrix: each cloud's
    points times the 3 × 64 weights, the second cloud's 1024 rows below the first's, plus the bias row, rectified. -/
def layer0 (v0 v4 : FVec Ideal S1x3x1024 .f32) (w0 : FVec Ideal S3x64 .f32) (b0 : FVec Ideal S1x64 .f32) : Mat 2048 64 :=
  maximumf (addf (concatenate S2048x64 0
      [⟨S1024x64, matmul dot_S3x1024_S3x64_S1024x64_0_0_1_1_n_n none (shapeCast S3x1024 v0 shapeCasts_S1x3x1024_S3x1024 : FVec Ideal S3x1024 .f32) w0
          (constant (F := Ideal) S1024x64 .f32 0x00000000#32)⟩,
       ⟨S1024x64, matmul dot_S3x1024_S3x64_S1024x64_0_0_1_1_n_n none (shapeCast S3x1024 v4 shapeCasts_S1x3x1024_S3x1024 : FVec Ideal S3x1024 .f32) w0
          (constant (F := Ideal) S1024x64 .f32 0x00000000#32)⟩]
      concatenates_S1024x64_S1024x64_S2048x64_d0) (broadcastTo S2048x64 b0 broadcasts_S1x64_S2048x64))
    (broadcast S2048x64 (Scalar.ofBits (F := Ideal) .f32 0x00000000#32))

/-- The block's first three layers are the first layer followed by two rectified affine layers 64 → 64. -/
theorem pay2_eq (v0 v4 : FVec Ideal S1x3x1024 .f32) (w0 : FVec Ideal S3x64 .f32) (b0 : FVec Ideal S1x64 .f32)
    (w1 : FVec Ideal S64x64 .f32) (b1 : FVec Ideal S1x64 .f32) (w2 : FVec Ideal S64x64 .f32) (b2 : FVec Ideal S1x64 .f32) :
    k0_pay2 (F := Ideal) v0 w0 v4 w0 b0 w1 b1 w2 b2
      = relu (affine2 (relu (affine2 (layer0 v0 v4 w0 b0) w1 b1)) w2 b2) := by
  show maximumf (addf (matmul (DotDims.plain 2048 64 64) none
      (maximumf (addf (matmul (DotDims.plain 2048 64 64) none (layer0 v0 v4 w0 b0) w1
        (constant (F := Ideal) ⟨2, ![2048, 64]⟩ .f32 0x00000000#32)) (broadcastTo ⟨2, ![2048, 64]⟩ b1 broadcasts_S1x64_S2048x64))
        (broadcast ⟨2, ![2048, 64]⟩ (Scalar.ofBits (F := Ideal) .f32 0x00000000#32))) w2
      (constant (F := Ideal) ⟨2, ![2048, 64]⟩ .f32 0x00000000#32)) (broadcastTo ⟨2, ![2048, 64]⟩ b2 broadcasts_S1x64_S2048x64))
      (broadcast ⟨2, ![2048, 64]⟩ (Scalar.ofBits (F := Ideal) .f32 0x00000000#32)) = _
  rw [addf_matmul_broadcastTo, maximumf_splat_zero, addf_matmul_broadcastTo, maximumf_splat_zero]

/-- Row p of the first layer, p below 1024, is the layer applied to point p of the block's first cloud. -/
theorem layer0_row_fst (v0 v4 : FVec Ideal S1x3x1024 .f32) (w0 : FVec Ideal S3x64 .f32) (b0 : FVec Ideal S1x64 .f32)
    (p : Fin 1024) :
    row (layer0 v0 v4 w0 b0) ⟨p.val, by omega⟩ = dense w0 b0 (fun k => v0 (ix3 (0 : Fin 1) k p)) := by
  funext c
  unfold row layer0 dense
  rw [maximumf_apply, addf_apply, broadcast_apply, broadcastTo_1b_ab_apply,
    concatenate_pair_apply_left (t := S2048x64) (s₁ := S1024x64) (s₂ := S1024x64) 0 _ _ concatenates_S1024x64_S1024x64_S2048x64_d0
      (ix2 ⟨p.val, by omega⟩ c) rfl (ix2 p c) (fun b => by
      match b with
      | ⟨0, _⟩ => rfl
      | ⟨1, _⟩ => rfl),
    matmulT_apply]
  simp only [shapeCast_1ab_ab_apply]
  show max _ (Ideal.ofBits .f32 0x00000000#32) = _
  rw [Ideal.ofBits_zero_f32]

/-- Row 1024 + p of the first layer is the layer applied to point p of the block's second cloud. -/
theorem layer0_row_snd (v0 v4 : FVec Ideal S1x3x1024 .f32) (w0 : FVec Ideal S3x64 .f32) (b0 : FVec Ideal S1x64 .f32)
    (p : Fin 1024) :
    row (layer0 v0 v4 w0 b0) ⟨1024 + p.val, by omega⟩ = dense w0 b0 (fun k => v4 (ix3 (0 : Fin 1) k p)) := by
  funext c
  unfold row layer0 dense
  rw [maximumf_apply, addf_apply, broadcast_apply, broadcastTo_1b_ab_apply,
    concatenate_pair_apply_right (t := S2048x64) (s₁ := S1024x64) (s₂ := S1024x64) 0 _ _ concatenates_S1024x64_S1024x64_S2048x64_d0
      (ix2 ⟨1024 + p.val, by omega⟩ c) rfl rfl (ix2 p c) (fun b hb => by
      match b with
      | ⟨0, _⟩ => exact absurd rfl hb
      | ⟨1, _⟩ => rfl) (by show p.val + 1024 = 1024 + p.val; omega),
    matmulT_apply]
  simp only [shapeCast_1ab_ab_apply]
  show max _ (Ideal.ofBits .f32 0x00000000#32) = _
  rw [Ideal.ofBits_zero_f32]

/-! ## The last two layers and the maximum over each cloud's points -/

/-- The maximum over the 1024 rows of a matrix, column by column, starting from −∞. -/
theorem colmax_apply (Y : FVec Ideal S1024x128 .f32) (j : Fin 128) :
    multiReduction (F := Ideal) .maximumf [0] S128 Y 0xFF800000#32 reduces_S1024x128_S128 (.inl rfl) rfl (ix1 j)
      = (Finset.univ : Finset (Fin 1024)).fold max negInf (fun p => Y (ix2 p j)) := by
  refine (Ideal.multiReduction_maximumf_single Y _ reduces_S1024x128_S128 (.inl rfl) rfl (ix1 j)).trans ?_
  show (Finset.univ : Finset (Fin 1024)).fold max negInf (fun p => Y (reduces_S1024x128_S128.lift (ix1 j) p)) = _
  refine congrArg (fun f => (Finset.univ : Finset (Fin 1024)).fold max negInf f) (funext fun p => congrArg Y ?_)
  funext a
  apply Fin.ext
  match a with
  | ⟨0, _⟩ => rfl
  | ⟨1, _⟩ => rfl

/-- The two clouds' column maxima of a 2048-row matrix, as a 1 × 2 × 128 block: row b is the maximum over rows
    1024 b … 1024 b + 1023. -/
def pool (X : Mat 2048 128) : FVec Ideal S1x2x128 .f32 :=
  shapeCast S1x2x128 (concatenate S2x128 0
    [⟨S1x128, shapeCast S1x128 (multiReduction (F := Ideal) .maximumf [0] S128
        (extractStridedSlice S1024x128 ![0, 0] X slices_S2048x128_o0_0_S1024x128) 0xFF800000#32 reduces_S1024x128_S128 (.inl rfl) rfl)
        shapeCasts_S128_S1x128⟩,
     ⟨S1x128, shapeCast S1x128 (multiReduction (F := Ideal) .maximumf [0] S128
        (extractStridedSlice S1024x128 ![1024, 0] X slices_S2048x128_o1024_0_S1024x128) 0xFF800000#32 reduces_S1024x128_S128 (.inl rfl) rfl)
        shapeCasts_S128_S1x128⟩]
    concatenates_S1x128_S1x128_S2x128_d0) shapeCasts_S2x128_S1x2x128

/-- The block's result is the pooled last two layers (64 → 128 and 128 → 128, rectified affine). -/
theorem pay1_eq (v27 : FVec Ideal S2048x64 .f32) (w3 : FVec Ideal S64x128 .f32) (b3 : FVec Ideal S1x128 .f32)
    (w4 : FVec Ideal S128x128 .f32) (b4 : FVec Ideal S1x128 .f32) :
    k0_pay1 (F := Ideal) v27 w3 (constant (F := Ideal) S2048x128 .f32 0x00000000#32) b3 w4 b4
      = pool (relu (affine2 (relu (affine2 v27 w3 b3)) w4 b4)) := by
  show pool (maximumf (addf (matmul (DotDims.plain 2048 128 128) none
      (maximumf (addf (matmul (DotDims.plain 2048 64 128) none v27 w3
        (constant (F := Ideal) ⟨2, ![2048, 128]⟩ .f32 0x00000000#32)) (broadcastTo ⟨2, ![2048, 128]⟩ b3 broadcasts_S1x128_S2048x128))
        (broadcast ⟨2, ![2048, 128]⟩ (Scalar.ofBits (F := Ideal) .f32 0x00000000#32))) w4
      (constant (F := Ideal) ⟨2, ![2048, 128]⟩ .f32 0x00000000#32)) (broadcastTo ⟨2, ![2048, 128]⟩ b4 broadcasts_S1x128_S2048x128))
      (broadcast ⟨2, ![2048, 128]⟩ (Scalar.ofBits (F := Ideal) .f32 0x00000000#32))) = _
  rw [addf_matmul_broadcastTo, maximumf_splat_zero, addf_matmul_broadcastTo, maximumf_splat_zero]

/-- Row 0 of the pooled block is the maximum over the first 1024 rows. -/
theorem pool_fst (X : Mat 2048 128) (j : Fin 128) :
    pool X (ix3 (0 : Fin 1) (0 : Fin 2) j)
      = (Finset.univ : Finset (Fin 1024)).fold max negInf (fun p => X (ix2 ⟨p.val, by omega⟩ j)) := by
  unfold pool
  rw [shapeCast_ab_1ab_apply,
    concatenate_pair_apply_left (t := S2x128) (s₁ := S1x128) (s₂ := S1x128) 0 _ _ concatenates_S1x128_S1x128_S2x128_d0
      (ix2 (0 : Fin 2) j) rfl (ix2 (0 : Fin 1) j) (fun b => by
      match b with
      | ⟨0, _⟩ => rfl
      | ⟨1, _⟩ => rfl),
    shapeCast_a_1a_apply, colmax_apply]
  refine congrArg (fun f => (Finset.univ : Finset (Fin 1024)).fold max negInf f) (funext fun p => ?_)
  exact slice2_axis0_apply 0 X _ p j _ (by show p.val = 0 + p.val; omega)

/-- Row 1 of the pooled block is the maximum over the last 1024 rows. -/
theorem pool_snd (X : Mat 2048 128) (j : Fin 128) :
    pool X (ix3 (0 : Fin 1) (1 : Fin 2) j)
      = (Finset.univ : Finset (Fin 1024)).fold max negInf (fun p => X (ix2 ⟨1024 + p.val, by omega⟩ j)) := by
  unfold pool
  rw [shapeCast_ab_1ab_apply,
    concatenate_pair_apply_right (t := S2x128) (s₁ := S1x128) (s₂ := S1x128) 0 _ _ concatenates_S1x128_S1x128_S2x128_d0
      (ix2 (1 : Fin 2) j) rfl rfl (ix2 (0 : Fin 1) j) (fun b hb => by
      match b with
      | ⟨0, _⟩ => exact absurd rfl hb
      | ⟨1, _⟩ => rfl) rfl,
    shapeCast_a_1a_apply, colmax_apply]
  refine congrArg (fun f => (Finset.univ : Finset (Fin 1024)).fold max negInf f) (funext fun p => ?_)
  exact slice2_axis0_apply 1024 X _ p j _ rfl

/-! ## The block's result at a cloud and a feature -/

/-- An entry of a rectified affine layer: the row through the linear map, plus the bias, rectified. -/
theorem relu_affine2_apply {M K N : ℕ} (H : Mat M K) (W : Mat K N) (b : Mat 1 N) (r : Fin M) (j : Fin N) :
    relu (affine2 H W b) (ix2 r j) = max (lin W (row H r) j + b (ix2 (0 : Fin 1) j)) 0 := rfl

/-- Feature j of the block's FIRST cloud: the maximum over its 1024 points of the rectified fifth layer. -/
theorem block_fst (v0 v4 : FVec Ideal S1x3x1024 .f32) (w0 : FVec Ideal S3x64 .f32) (b0 : FVec Ideal S1x64 .f32)
    (w1 : FVec Ideal S64x64 .f32) (b1 : FVec Ideal S1x64 .f32) (w2 : FVec Ideal S64x64 .f32) (b2 : FVec Ideal S1x64 .f32)
    (w3 : FVec Ideal S64x128 .f32) (b3 : FVec Ideal S1x128 .f32) (w4 : FVec Ideal S128x128 .f32) (b4 : FVec Ideal S1x128 .f32)
    (j : Fin 128) :
    k0_pay1 (F := Ideal) (k0_pay2 (F := Ideal) v0 w0 v4 w0 b0 w1 b1 w2 b2) w3
        (constant (F := Ideal) S2048x128 .f32 0x00000000#32) b3 w4 b4 (ix3 (0 : Fin 1) (0 : Fin 2) j)
      = (Finset.univ : Finset (Fin 1024)).fold max negInf (fun p =>
          max (feat w0 b0 w1 b1 w2 b2 w3 b3 w4 (fun k => v0 (ix3 (0 : Fin 1) k p)) j + b4 (ix2 (0 : Fin 1) j)) 0) := by
  rw [pay2_eq, pay1_eq, pool_fst]
  refine congrArg (fun f => (Finset.univ : Finset (Fin 1024)).fold max negInf f) (funext fun p => ?_)
  rw [relu_affine2_apply, relu_affine2_row, relu_affine2_row, relu_affine2_row, layer0_row_fst]
  rfl

/-- Feature j of the block's SECOND cloud. -/
theorem block_snd (v0 v4 : FVec Ideal S1x3x1024 .f32) (w0 : FVec Ideal S3x64 .f32) (b0 : FVec Ideal S1x64 .f32)
    (w1 : FVec Ideal S64x64 .f32) (b1 : FVec Ideal S1x64 .f32) (w2 : FVec Ideal S64x64 .f32) (b2 : FVec Ideal S1x64 .f32)
    (w3 : FVec Ideal S64x128 .f32) (b3 : FVec Ideal S1x128 .f32) (w4 : FVec Ideal S128x128 .f32) (b4 : FVec Ideal S1x128 .f32)
    (j : Fin 128) :
    k0_pay1 (F := Ideal) (k0_pay2 (F := Ideal) v0 w0 v4 w0 b0 w1 b1 w2 b2) w3
        (constant (F := Ideal) S2048x128 .f32 0x00000000#32) b3 w4 b4 (ix3 (0 : Fin 1) (1 : Fin 2) j)
      = (Finset.univ : Finset (Fin 1024)).fold max negInf (fun p =>
          max (feat w0 b0 w1 b1 w2 b2 w3 b3 w4 (fun k => v4 (ix3 (0 : Fin 1) k p)) j + b4 (ix2 (0 : Fin 1) j)) 0) := by
  rw [pay2_eq, pay1_eq, pool_snd]
  refine congrArg (fun f => (Finset.univ : Finset (Fin 1024)).fold max negInf f) (funext fun p => ?_)
  rw [relu_affine2_apply, relu_affine2_row, relu_affine2_row, relu_affine2_row, layer0_row_snd]
  rfl

end Cert.ReferenceIdeal.Feat

end
-- ==== Proof.FeatReference.lean ====
/-
  The reference's feature stage as one function of the launch arrays.

  The stage runs over 1024 grid points. Point t reads clouds 2t and 2t + 1 (a 2 × 3 × 1024 block of the clouds
  array), every weight matrix and bias row whole, and writes row t of the 1024 × 2 × 128 result. Entry (·, b, j) of
  the block it writes depends on the block's cloud b only: it is the maximum over that cloud's 1024 points p of
  max(feat(point p)(j) + b₄(j), 0), the fold starting from −∞. So the block point t writes is block t of one
  function of the launch arrays, G(t, b, j) = feature j of cloud 2t + b; row r of the result is written by point r
  alone, hence the array ends as G, and read as 2048 × 128 its entry (B, j) is G(B / 2, B % 2, j): feature j of
  cloud B.
-/
import proofs.«171346_g2000606842809313_pallasbulk_193_5_alg».proof.Proof.Gen.ReferenceIdeal.Frame
import proofs.«171346_g2000606842809313_pallasbulk_193_5_alg».proof.Proof.FeatRefPay
import Idealize.ShloMosaic.Lib.Pipeline.Value

noncomputable section

open scoped BigOperators

namespace Cert.ReferenceIdeal.Feat

open Idealize.ShloMosaic Idealize.ShloMosaic.TcCoe Idealize.ShloMosaic.ValueIdx Idealize.SL.Sem
open Idealize.ShloMosaic.Pipeline (Dat)
open Cert.Dense Cert.PointNet Cert.ReferenceIdeal Cert.ReferenceIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## One block's result from its input blocks -/

/-- The block's first cloud, loaded as a 1 × 3 × 1024 box, is the block's cloud 0. -/
theorem ld_cloud_fst (x0 : FVec Ideal S2x3x1024 .f32) (k : Fin 3) (p : Fin 1024) :
    View.ld (Val := Elt Ideal) (e' := .f32) x0 r0_0 (ix3 (0 : Fin 1) k p) = x0 (ix3 (0 : Fin 2) k p) :=
  congrArg x0 (funext fun a => Fin.ext (by
    match a with
    | ⟨0, _⟩ => rfl
    | ⟨1, _⟩ => show 0 + 1 * k.val = k.val; omega
    | ⟨2, _⟩ => show 0 + 1 * p.val = p.val; omega))

/-- The second, loaded from offset 1 on the cloud axis, is the block's cloud 1. -/
theorem ld_cloud_snd (x0 : FVec Ideal S2x3x1024 .f32) (k : Fin 3) (p : Fin 1024) :
    View.ld (Val := Elt Ideal) (e' := .f32) x0 r0_2 (ix3 (0 : Fin 1) k p) = x0 (ix3 (1 : Fin 2) k p) :=
  congrArg x0 (funext fun a => Fin.ext (by
    match a with
    | ⟨0, _⟩ => rfl
    | ⟨1, _⟩ => show 0 + 1 * k.val = k.val; omega
    | ⟨2, _⟩ => show 0 + 1 * p.val = p.val; omega))

/-- What the body leaves in the output block: at (·, b, j) the maximum over the points p of the block's cloud b of
    max(feat(point p)(j) + b₄(j), 0). -/
theorem out_apply (x0 : FVec Ideal S2x3x1024 .f32) (x1 : FVec Ideal S3x64 .f32) (x2 : FVec Ideal S1x64 .f32)
    (x3 : FVec Ideal S64x64 .f32) (x4 : FVec Ideal S1x64 .f32) (x5 : FVec Ideal S64x64 .f32) (x6 : FVec Ideal S1x64 .f32)
    (x7 : FVec Ideal S64x128 .f32) (x8 : FVec Ideal S1x128 .f32) (x9 : FVec Ideal S128x128 .f32) (x10 : FVec Ideal S1x128 .f32)
    (u : Fin 1) (b : Fin 2) (j : Fin 128) :
    out0_11 (F := Ideal) x0 x1 x2 x3 x4 x5 x6 x7 x8 x9 x10 (ix3 u b j)
      = (Finset.univ : Finset (Fin 1024)).fold max negInf (fun p =>
          max (feat x1 x2 x3 x4 x5 x6 x7 x8 x9 (fun k => x0 (ix3 b k p)) j + x10 (ix2 (0 : Fin 1) j)) 0) := by
  obtain rfl : u = 0 := Subsingleton.elim _ _
  unfold out0_11
  rw [View.canon_unit_zero hz3]
  simp only [View.ld_unit_zero (S := S3x64) hz2, View.ld_unit_zero (S := S1x64) hz2, View.ld_unit_zero (S := S64x64) hz2,
    View.ld_unit_zero (S := S64x128) hz2, View.ld_unit_zero (S := S1x128) hz2, View.ld_unit_zero (S := S128x128) hz2]
  match b with
  | ⟨0, _⟩ =>
    refine (block_fst _ _ x1 x2 x3 x4 x5 x6 x7 x8 x9 x10 j).trans ?_
    refine congrArg (fun f => (Finset.univ : Finset (Fin 1024)).fold max negInf f) (funext fun p => ?_)
    have e : (fun k => View.ld (Val := Elt Ideal) (e' := .f32) x0 r0_0 (ix3 (0 : Fin 1) k p)) = fun k => x0 (ix3 (0 : Fin 2) k p) :=
      funext fun k => ld_cloud_fst x0 k p
    exact congrArg (fun v => max (feat x1 x2 x3 x4 x5 x6 x7 x8 x9 v j + x10 (ix2 (0 : Fin 1) j)) 0) e
  | ⟨1, _⟩ =>
    refine (block_snd _ _ x1 x2 x3 x4 x5 x6 x7 x8 x9 x10 j).trans ?_
    refine congrArg (fun f => (Finset.univ : Finset (Fin 1024)).fold max negInf f) (funext fun p => ?_)
    have e : (fun k => View.ld (Val := Elt Ideal) (e' := .f32) x0 r0_2 (ix3 (0 : Fin 1) k p)) = fun k => x0 (ix3 (1 : Fin 2) k p) :=
      funext fun k => ld_cloud_snd x0 k p
    exact congrArg (fun v => max (feat x1 x2 x3 x4 x5 x6 x7 x8 x9 v j + x10 (ix2 (0 : Fin 1) j)) 0) e

/-! ## The input blocks at a point of the grid -/

/-- The printed index maps over the grid: point t takes block t of the clouds and of the result on their first
    axis, block 0 on the others; every other window is its whole array. -/
theorem idx_facts : ∀ t : Fin cfg0.N,
    (win0_0.index t (0 : Fin 3) = t.val ∧ win0_0.index t (1 : Fin 3) = 0 ∧ win0_0.index t (2 : Fin 3) = 0)
    ∧ (win0_11.index t (0 : Fin 3) = t.val ∧ win0_11.index t (1 : Fin 3) = 0 ∧ win0_11.index t (2 : Fin 3) = 0) :=
  (by decide +kernel : ∀ t : Fin grid0.N, _)

theorem lt_N (t : Fin cfg0.N) : t.val < 1024 := by
  have h := t.isLt
  have hN : cfg0.N = 1024 := N_0
  omega

/-- The clouds' block at point t is clouds 2t and 2t + 1 of the launch contents. -/
theorem iblk_x (c : Dev nD) (t : Fin cfg0.N) (b : Fin 2) (k : Fin 3) (p : Fin 1024) :
    (iblk0 (V0 m ρ) c 0 t : S2x3x1024.Idx → EReal) (ix3 b k p)
      = (m ((c : Thread nD τ).loc main_arg0) : S2048x3x1024.Idx → EReal)
          (ix3 ⟨2 * t.val + b.val, by have := lt_N t; omega⟩ k p) := by
  obtain ⟨⟨e0, e1, e2⟩, -⟩ := idx_facts t
  unfold iblk0
  show (m ((c : Thread nD τ).loc main_arg0) : S2048x3x1024.Idx → EReal) (((cfg0.win 0).blk t).view.emb (ix3 b k p)) = _
  refine congrArg _ (funext fun a => Fin.ext ?_)
  match a with
  | ⟨0, _⟩ => show win0_0.index t (0 : Fin 3) * 2 + 1 * b.val = 2 * t.val + b.val; omega
  | ⟨1, _⟩ => show win0_0.index t (1 : Fin 3) * 3 + 1 * k.val = k.val; omega
  | ⟨2, _⟩ => show win0_0.index t (2 : Fin 3) * 1024 + 1 * p.val = p.val; omega

/-- Every weight and bias window's block is its whole array, at every point. -/
theorem iblk_w1 (c : Dev nD) (t : Fin cfg0.N) :
    (iblk0 (V0 m ρ) c 1 t : S3x64.Idx → EReal) = (m ((c : Thread nD τ).loc main_arg1) : S3x64.Idx → EReal) := by
  funext y
  unfold iblk0
  show (m ((c : Thread nD τ).loc main_arg1) : S3x64.Idx → EReal) (((cfg0.win 1).blk t).view.emb y) = _
  refine congrArg _ (funext fun a => Fin.ext ?_)
  match a with
  | ⟨0, _⟩ => show win0_1.index t (0 : Fin 2) * 3 + 1 * (y 0).val = (y 0).val; have e : win0_1.index t (0 : Fin 2) = 0 := rfl; omega
  | ⟨1, _⟩ => show win0_1.index t (1 : Fin 2) * 64 + 1 * (y 1).val = (y 1).val; have e : win0_1.index t (1 : Fin 2) = 0 := rfl; omega

theorem iblk_w2 (c : Dev nD) (t : Fin cfg0.N) :
    (iblk0 (V0 m ρ) c 2 t : S1x64.Idx → EReal) = (m ((c : Thread nD τ).loc main_arg2) : S1x64.Idx → EReal) := by
  funext y
  unfold iblk0
  show (m ((c : Thread nD τ).loc main_arg2) : S1x64.Idx → EReal) (((cfg0.win 2).blk t).view.emb y) = _
  refine congrArg _ (funext fun a => Fin.ext ?_)
  match a with
  | ⟨0, _⟩ => show win0_2.index t (0 : Fin 2) * 1 + 1 * (y 0).val = (y 0).val; have e : win0_2.index t (0 : Fin 2) = 0 := rfl; omega
  | ⟨1, _⟩ => show win0_2.index t (1 : Fin 2) * 64 + 1 * (y 1).val = (y 1).val; have e : win0_2.index t (1 : Fin 2) = 0 := rfl; omega

theorem iblk_w3 (c : Dev nD) (t : Fin cfg0.N) :
    (iblk0 (V0 m ρ) c 3 t : S64x64.Idx → EReal) = (m ((c : Thread nD τ).loc main_arg3) : S64x64.Idx → EReal) := by
  funext y
  unfold iblk0
  show (m ((c : Thread nD τ).loc main_arg3) : S64x64.Idx → EReal) (((cfg0.win 3).blk t).view.emb y) = _
  refine congrArg _ (funext fun a => Fin.ext ?_)
  match a with
  | ⟨0, _⟩ => show win0_3.index t (0 : Fin 2) * 64 + 1 * (y 0).val = (y 0).val; have e : win0_3.index t (0 : Fin 2) = 0 := rfl; omega
  | ⟨1, _⟩ => show win0_3.index t (1 : Fin 2) * 64 + 1 * (y 1).val = (y 1).val; have e : win0_3.index t (1 : Fin 2) = 0 := rfl; omega

theorem iblk_w4 (c : Dev nD) (t : Fin cfg0.N) :
    (iblk0 (V0 m ρ) c 4 t : S1x64.Idx → EReal) = (m ((c : Thread nD τ).loc main_arg4) : S1x64.Idx → EReal) := by
  funext y
  unfold iblk0
  show (m ((c : Thread nD τ).loc main_arg4) : S1x64.Idx → EReal) (((cfg0.win 4).blk t).view.emb y) = _
  refine congrArg _ (funext fun a => Fin.ext ?_)
  match a with
  | ⟨0, _⟩ => show win0_4.index t (0 : Fin 2) * 1 + 1 * (y 0).val = (y 0).val; have e : win0_4.index t (0 : Fin 2) = 0 := rfl; omega
  | ⟨1, _⟩ => show win0_4.index t (1 : Fin 2) * 64 + 1 * (y 1).val = (y 1).val; have e : win0_4.index t (1 : Fin 2) = 0 := rfl; omega

theorem iblk_w5 (c : Dev nD) (t : Fin cfg0.N) :
    (iblk0 (V0 m ρ) c 5 t : S64x64.Idx → EReal) = (m ((c : Thread nD τ).loc main_arg5) : S64x64.Idx → EReal) := by
  funext y
  unfold iblk0
  show (m ((c : Thread nD τ).loc main_arg5) : S64x64.Idx → EReal) (((cfg0.win 5).blk t).view.emb y) = _
  refine congrArg _ (funext fun a => Fin.ext ?_)
  match a with
  | ⟨0, _⟩ => show win0_5.index t (0 : Fin 2) * 64 + 1 * (y 0).val = (y 0).val; have e : win0_5.index t (0 : Fin 2) = 0 := rfl; omega
  | ⟨1, _⟩ => show win0_5.index t (1 : Fin 2) * 64 + 1 * (y 1).val = (y 1).val; have e : win0_5.index t (1 : Fin 2) = 0 := rfl; omega

theorem iblk_w6 (c : Dev nD) (t : Fin cfg0.N) :
    (iblk0 (V0 m ρ) c 6 t : S1x64.Idx → EReal) = (m ((c : Thread nD τ).loc main_arg6) : S1x64.Idx → EReal) := by
  funext y
  unfold iblk0
  show (m ((c : Thread nD τ).loc main_arg6) : S1x64.Idx → EReal) (((cfg0.win 6).blk t).view.emb y) = _
  refine congrArg _ (funext fun a => Fin.ext ?_)
  match a with
  | ⟨0, _⟩ => show win0_6.index t (0 : Fin 2) * 1 + 1 * (y 0).val = (y 0).val; have e : win0_6.index t (0 : Fin 2) = 0 := rfl; omega
  | ⟨1, _⟩ => show win0_6.index t (1 : Fin 2) * 64 + 1 * (y 1).val = (y 1).val; have e : win0_6.index t (1 : Fin 2) = 0 := rfl; omega

theorem iblk_w7 (c : Dev nD) (t : Fin cfg0.N) :
    (iblk0 (V0 m ρ) c 7 t : S64x128.Idx → EReal) = (m ((c : Thread nD τ).loc main_arg7) : S64x128.Idx → EReal) := by
  funext y
  unfold iblk0
  show (m ((c : Thread nD τ).loc main_arg7) : S64x128.Idx → EReal) (((cfg0.win 7).blk t).view.emb y) = _
  refine congrArg _ (funext fun a => Fin.ext ?_)
  match a with
  | ⟨0, _⟩ => show win0_7.index t (0 : Fin 2) * 64 + 1 * (y 0).val = (y 0).val; have e : win0_7.index t (0 : Fin 2) = 0 := rfl; omega
  | ⟨1, _⟩ => show win0_7.index t (1 : Fin 2) * 128 + 1 * (y 1).val = (y 1).val; have e : win0_7.index t (1 : Fin 2) = 0 := rfl; omega

theorem iblk_w8 (c : Dev nD) (t : Fin cfg0.N) :
    (iblk0 (V0 m ρ) c 8 t : S1x128.Idx → EReal) = (m ((c : Thread nD τ).loc main_arg8) : S1x128.Idx → EReal) := by
  funext y
  unfold iblk0
  show (m ((c : Thread nD τ).loc main_arg8) : S1x128.Idx → EReal) (((cfg0.win 8).blk t).view.emb y) = _
  refine congrArg _ (funext fun a => Fin.ext ?_)
  match a with
  | ⟨0, _⟩ => show win0_8.index t (0 : Fin 2) * 1 + 1 * (y 0).val = (y 0).val; have e : win0_8.index t (0 : Fin 2) = 0 := rfl; omega
  | ⟨1, _⟩ => show win0_8.index t (1 : Fin 2) * 128 + 1 * (y 1).val = (y 1).val; have e : win0_8.index t (1 : Fin 2) = 0 := rfl; omega

theorem iblk_w9 (c : Dev nD) (t : Fin cfg0.N) :
    (iblk0 (V0 m ρ) c 9 t : S128x128.Idx → EReal) = (m ((c : Thread nD τ).loc main_arg9) : S128x128.Idx → EReal) := by
  funext y
  unfold iblk0
  show (m ((c : Thread nD τ).loc main_arg9) : S128x128.Idx → EReal) (((cfg0.win 9).blk t).view.emb y) = _
  refine congrArg _ (funext fun a => Fin.ext ?_)
  match a with
  | ⟨0, _⟩ => show win0_9.index t (0 : Fin 2) * 128 + 1 * (y 0).val = (y 0).val; have e : win0_9.index t (0 : Fin 2) = 0 := rfl; omega
  | ⟨1, _⟩ => show win0_9.index t (1 : Fin 2) * 128 + 1 * (y 1).val = (y 1).val; have e : win0_9.index t (1 : Fin 2) = 0 := rfl; omega

theorem iblk_w10 (c : Dev nD) (t : Fin cfg0.N) :
    (iblk0 (V0 m ρ) c 10 t : S1x128.Idx → EReal) = (m ((c : Thread nD τ).loc main_arg10) : S1x128.Idx → EReal) := by
  funext y
  unfold iblk0
  show (m ((c : Thread nD τ).loc main_arg10) : S1x128.Idx → EReal) (((cfg0.win 10).blk t).view.emb y) = _
  refine congrArg _ (funext fun a => Fin.ext ?_)
  match a with
  | ⟨0, _⟩ => show win0_10.index t (0 : Fin 2) * 1 + 1 * (y 0).val = (y 0).val; have e : win0_10.index t (0 : Fin 2) = 0 := rfl; omega
  | ⟨1, _⟩ => show win0_10.index t (1 : Fin 2) * 128 + 1 * (y 1).val = (y 1).val; have e : win0_10.index t (1 : Fin 2) = 0 := rfl; omega

/-! ## The whole output array -/

/-- The feature stage's result as one function of the launch arrays: entry (t, b, j) is feature j of cloud 2t + b. -/
def G (x : Clouds) (w0 : Mat 3 64) (b0 : Mat 1 64) (w1 : Mat 64 64) (b1 : Mat 1 64) (w2 : Mat 64 64) (b2 : Mat 1 64)
    (w3 : Mat 64 128) (b3 : Mat 1 128) (w4 : Mat 128 128) (b4 : Mat 1 128) : S1024x2x128.Idx → EReal :=
  fun i => pooledAfter x w0 b0 w1 b1 w2 b2 w3 b3 w4 b4
    (ix2 ⟨2 * (i 0).val + (i 1).val, by have h0 : (i 0).val < 1024 := (i 0).isLt; have h1 : (i 1).val < 2 := (i 1).isLt; omega⟩ (i 2))

theorem G_apply (x : Clouds) (w0 : Mat 3 64) (b0 : Mat 1 64) (w1 : Mat 64 64) (b1 : Mat 1 64) (w2 : Mat 64 64) (b2 : Mat 1 64)
    (w3 : Mat 64 128) (b3 : Mat 1 128) (w4 : Mat 128 128) (b4 : Mat 1 128) (i : S1024x2x128.Idx) (B : Fin 2048) (j : Fin 128)
    (hB : B.val = 2 * (i 0).val + (i 1).val) (hj : j.val = (i 2).val) :
    G x w0 b0 w1 b1 w2 b2 w3 b3 w4 b4 i = pooledAfter x w0 b0 w1 b1 w2 b2 w3 b3 w4 b4 (ix2 B j) := by
  unfold G
  refine congrArg _ (funext fun a => Fin.ext ?_)
  match a with
  | ⟨0, _⟩ => exact hB.symm
  | ⟨1, _⟩ => exact hj.symm

/-- The launch arrays the feature stage reads, as the specification's matrices. -/
abbrev GM (c : Dev nD) : S1024x2x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- What point t leaves in the output block, entry by entry, is the whole-array function at the block's place. -/
theorem flushed_point (c : Dev nD) (t : Fin cfg0.N) (y : S1x2x128.Idx) :
    out0_11 (F := Ideal) (iblk0 (V0 m ρ) c 0 t) (iblk0 (V0 m ρ) c 1 t) (iblk0 (V0 m ρ) c 2 t) (iblk0 (V0 m ρ) c 3 t)
        (iblk0 (V0 m ρ) c 4 t) (iblk0 (V0 m ρ) c 5 t) (iblk0 (V0 m ρ) c 6 t) (iblk0 (V0 m ρ) c 7 t) (iblk0 (V0 m ρ) c 8 t)
        (iblk0 (V0 m ρ) c 9 t) (iblk0 (V0 m ρ) c 10 t) y
      = GM m c (((cfg0.win 11).blk t).view.emb y) := by
  obtain ⟨u, b, j, rfl⟩ : ∃ (u : Fin 1) (b : Fin 2) (j : Fin 128), y = ix3 u b j := ⟨y 0, y 1, y 2, eq_ix3 y⟩
  obtain ⟨-, e0, e1, e2⟩ := idx_facts t
  refine (out_apply _ _ _ _ _ _ _ _ _ _ _ u b j).trans ?_
  rw [iblk_w1 m ρ c t, iblk_w2 m ρ c t, iblk_w3 m ρ c t, iblk_w4 m ρ c t, iblk_w5 m ρ c t, iblk_w6 m ρ c t, iblk_w7 m ρ c t,
    iblk_w8 m ρ c t, iblk_w9 m ρ c t, iblk_w10 m ρ c t]
  simp only [iblk_x m ρ c t]
  refine (G_apply _ _ _ _ _ _ _ _ _ _ _ _ ⟨2 * t.val + b.val, by have := lt_N t; omega⟩ j ?_ ?_).symm
  · show 2 * t.val + b.val = 2 * (win0_11.index t (0 : Fin 3) * 1 + 1 * u.val) + (win0_11.index t (1 : Fin 3) * 2 + 1 * b.val)
    have hu : u.val = 0 := by omega
    omega
  · show j.val = win0_11.index t (2 : Fin 3) * 128 + 1 * j.val
    omega

/-- WHAT POINT t WRITES BACK is block t of the whole-array function. -/
theorem flushed_eq (c : Dev nD) (t : Fin cfg0.N) :
    (dat0 (V0 m ρ) c).flushed 11 t = ((cfg0.win 11).blk t).view.read (Elt Ideal) (GM m c) := by
  show (cfg0.win 11).cut (grid0.coords t) ((dat0 (V0 m ρ) c).after 11 t) = _
  rw [after0_11]
  funext y
  exact flushed_point m ρ c t y

/-- An index of the result array is in point t's block iff each coordinate is in the block's range on its axis. -/
theorem mem_blk (t : Fin cfg0.N) (i : S1024x2x128.Idx) :
    i ∈ ((cfg0.win 11).blk t).view.set ↔ ∀ a : Fin 3, win0_11.index t a * S1x2x128.size a ≤ (i a).val
      ∧ (i a).val < win0_11.index t a * S1x2x128.size a + S1x2x128.size a := by
  show i ∈ ((View.whole main_v0).slice (win0_11.rect t)).set ↔ _
  rw [View.set_slice_whole, Rect.mem_set_unit]
  exact Iff.rfl

/-- Row r of the result array is written back by point r. -/
theorem cover (i : S1024x2x128.Idx) :
    ∃ t : Fin cfg0.N, (cfg0.win 11).flush t = true ∧ i ∈ ((cfg0.win 11).blk t).view.set := by
  have h0 : (i 0).val < 1024 := (i 0).isLt
  have h1 : (i 1).val < 2 := (i 1).isLt
  have h2 : (i 2).val < 128 := (i 2).isLt
  have hN : cfg0.N = 1024 := N_0
  obtain ⟨t, ht⟩ : ∃ t : Fin cfg0.N, t.val = (i 0).val := ⟨⟨(i 0).val, by omega⟩, rfl⟩
  refine ⟨t, flush0_11 t, ?_⟩
  rw [mem_blk]
  obtain ⟨-, e0, e1, e2⟩ := idx_facts t
  intro a
  match a with
  | ⟨0, _⟩ =>
    show win0_11.index t (0 : Fin 3) * 1 ≤ (i 0).val ∧ (i 0).val < win0_11.index t (0 : Fin 3) * 1 + 1
    omega
  | ⟨1, _⟩ =>
    show win0_11.index t (1 : Fin 3) * 2 ≤ (i 1).val ∧ (i 1).val < win0_11.index t (1 : Fin 3) * 2 + 2
    omega
  | ⟨2, _⟩ =>
    show win0_11.index t (2 : Fin 3) * 128 ≤ (i 2).val ∧ (i 2).val < win0_11.index t (2 : Fin 3) * 128 + 128
    omega

/-- THE RESULT ARRAY after the feature stage is the whole-array function of the launch arrays. -/
theorem region (c : Dev nD) : (dat0 (V0 m ρ) c).arrAt 11 cfg0.N = GM m c :=
  (dat0 (V0 m ρ) c).arrAt_eq_of_cover 11 (GM m c) (fun t _ => flushed_eq m ρ c t) cover

/-- The same at the buffer contents after the region. -/
theorem W1_main_v0 (c : Dev nD) : (Gen.W1 m ρ c (Proc.devRef .tc main_v0) : S1024x2x128.Idx → EReal) = GM m c :=
  (W1_arr m ρ c 11).trans (region m ρ c)

/-- After the feature stage the 1024 × 2 × 128 result read as 2048 × 128 holds, at (B, j), feature j of cloud B: the
    maximum over the cloud's 1024 points of max(feat(point)(j) + b₄(j), 0), from −∞. -/
theorem pooled (c : Dev nD) :
    shapeCast S2048x128 (Gen.W1 m ρ c (Proc.devRef .tc main_v0) : S1024x2x128.Idx → EReal) shapeCasts_S1024x2x128_S2048x128
      = pooledAfter (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  rw [W1_main_v0]
  funext i
  obtain ⟨B, j, rfl⟩ : ∃ (B : Fin 2048) (j : Fin 128), i = ix2 B j := ⟨i 0, i 1, eq_ix2 i⟩
  rw [shapeCast_apply (GM m c) shapeCasts_S1024x2x128_S2048x128 (ix2 B j)
    (ix3 (⟨B.val / 2, by omega⟩ : Fin 1024) (⟨B.val % 2, by omega⟩ : Fin 2) j) (by
      rw [Shape.rowMajor_val_three, Shape.rowMajor_val_two]
      show (B.val / 2 * 2 + B.val % 2) * 128 + j.val = B.val * 128 + j.val
      omega)]
  exact G_apply _ _ _ _ _ _ _ _ _ _ _ _ B j (by show B.val = 2 * (B.val / 2) + B.val % 2; omega) rfl

end Cert.ReferenceIdeal.Feat

end
-- ==== Proof.lean ====
/-
  A point-cloud classifier computed two ways, equal on the extended reals.

  Both programs send every point of 2048 clouds of 1024 points through four rectified affine layers and a fifth
  product, take the maximum over each cloud's points, and apply a two-layer classifier head to the 2048 pooled rows.
  The kernel packs two clouds side by side through block-diagonal weights, sixteen blocks of 128 clouds, and adds the
  fifth layer's bias and takes the rectifier AFTER the maximum over the points; the reference handles two clouds per
  grid point and takes the maximum after the bias and the rectifier. Products with the zero blocks vanish on the
  extended reals, and adding a bias and taking the maximum with zero are monotone, so they commute with the maximum
  over a cloud's points: the pooled arrays agree, and the head — the same text on 1024-row blocks and on all 2048 rows
  — is one function of the pooled array. No finiteness of the inputs is used.
-/
import proofs.«171346_g2000606842809313_pallasbulk_193_5_alg».proof.Defs
import proofs.«171346_g2000606842809313_pallasbulk_193_5_alg».proof.Proof.Gen.Kernel
import proofs.«171346_g2000606842809313_pallasbulk_193_5_alg».proof.Proof.Gen.Kernel.Frame
import proofs.«171346_g2000606842809313_pallasbulk_193_5_alg».proof.Proof.Gen.KernelIdeal
import proofs.«171346_g2000606842809313_pallasbulk_193_5_alg».proof.Proof.Gen.KernelIdeal.Frame
import proofs.«171346_g2000606842809313_pallasbulk_193_5_alg».proof.Proof.Gen.ReferenceIdeal
import proofs.«171346_g2000606842809313_pallasbulk_193_5_alg».proof.Proof.Gen.ReferenceIdeal.Frame
import proofs.«171346_g2000606842809313_pallasbulk_193_5_alg».proof.Proof.Gen.Pre_finite_inputs
import proofs.«171346_g2000606842809313_pallasbulk_193_5_alg».proof.Proof.Spec
import proofs.«171346_g2000606842809313_pallasbulk_193_5_alg».proof.Proof.TailKernel
import proofs.«171346_g2000606842809313_pallasbulk_193_5_alg».proof.Proof.TailReference
import proofs.«171346_g2000606842809313_pallasbulk_193_5_alg».proof.Proof.FeatKernelEntry
import proofs.«171346_g2000606842809313_pallasbulk_193_5_alg».proof.Proof.FeatReference
import Idealize.ShloMosaic.Adequacy
import Idealize.ShloMosaic.Init

noncomputable section

namespace Cert.Proof

open Idealize.ShloMosaic Idealize.SL.Sem

/-- At the ideal values the kernel's result is the head of its pooled array, the bias and rectifier after the maximum;
    the reference's is the head of its pooled array, the bias and rectifier before the maximum: one function of
    arguments that agree. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Gen.W8 (F := Ideal) m ρ c (Proc.devRef .tc Cert.KernelIdeal.main_v48),
    Cert.KernelIdeal.Tail.run_named m ρ, ?_⟩
  refine (θ_run Cert.ReferenceIdeal.defs _ _).mono (fun r h c => ⟨(h c).1.trans ?_, (h c).2⟩)
    (Cert.ReferenceIdeal.Tail.run_named m' ρ')
  obtain ⟨a0, a1, a2, a3, a4, a5, a6, a7, a8, a9, a10, a11, a12, a13, a14⟩ := hagree c
  show Cert.ReferenceIdeal.Gen.W7 (F := Ideal) m' ρ' c (Proc.devRef .tc Cert.ReferenceIdeal.main_v5)
    = Cert.KernelIdeal.Gen.W8 (F := Ideal) m ρ c (Proc.devRef .tc Cert.KernelIdeal.main_v48)
  rw [Cert.ReferenceIdeal.Tail.result, Cert.KernelIdeal.Tail.result, Cert.ReferenceIdeal.Feat.pooled, Cert.KernelIdeal.Feat.pooled,
    Cert.PointNet.pooledBefore_eq_pooledAfter, a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
